-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8192x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S8192x512 : Shape := ⟨2, ![8192, 512]⟩
abbrev S512x512 : Shape := ⟨2, ![512, 512]⟩
abbrev S512 : Shape := ⟨1, ![512]⟩
abbrev S1x512 : Shape := ⟨2, ![1, 512]⟩
abbrev S1024x512 : Shape := ⟨2, ![1024, 512]⟩
abbrev S512x128 : Shape := ⟨2, ![512, 128]⟩
abbrev S512x1024 : Shape := ⟨2, ![512, 1024]⟩
abbrev S512x1 : Shape := ⟨2, ![512, 1]⟩

abbrev nBuf : Space → Nat
  | .hbm => 14
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S8192x512, .bf16⟩
  | .hbm, ⟨13, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S512x512, .f32⟩
  | .local _ .vmem, ⟨15, _⟩ => ⟨S512x512, .f32⟩
  | .local _ .vmem, ⟨16, _⟩ => ⟨S8192x512, .f32⟩
  | .local _ .vmem, ⟨17, _⟩ => ⟨S8192x512, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_14 : BitVec 32 := 0#32
  let v36 : BitVec 1 := Scalar.cmpi .ne v35 c0_i32_14
  v36

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S8192x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S1024x512_S1024x512 : S1024x512.ShapeCasts S1024x512
  transposes_S1024x512_p1_0_S512x1024 : S1024x512.Transposes [1, 0] S512x1024
  reduces_S512x1024_S512 : S512x1024.Reduces [1] S512
  shapeCasts_S512_S512x1 : S512.ShapeCasts S512x1
  shapeCasts_S512x1_S512x1 : S512x1.ShapeCasts S512x1
  broadcasts_S512x1_S512x128 : S512x1.Broadcasts S512x128
  inb_S512x128_S512x1_0_0 : ∀ a, (![0, 0] : Fin 2 → Nat) a + S512x1.size a ≤ S512x128.size a
  h_S512x1 : 0 < S512x1.numel
  broadcasts_S512x1_S512x512 : S512x1.Broadcasts S512x512
  dot_S1024x512_S512x512_S1024x512_1_0_0_1_n_n_wf : DotDims.WF S1024x512 S512x512 S1024x512 [1] [0] [0] [1] [] []
  dot_S512x512_S512x1024_S512x1024_1_0_0_1_n_n_wf : DotDims.WF S512x512 S512x1024 S512x1024 [1] [0] [0] [1] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S8192x512.size a
  hwx0_7 : ∀ i : grid0.Coords, EltTy.bits .f32 = 32 ∨ (Rect.block (s := S8192x512) S1024x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S8192x512.size a
  hwx0_8 : ∀ i : grid0.Coords, EltTy.bits .f32 = 32 ∨ (Rect.block (s := S8192x512) S1024x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S8192x512.size a
  hwx0_9 : ∀ i : grid0.Coords, EltTy.bits .bf16 = 32 ∨ (Rect.block (s := S8192x512) S1024x512.size (cc0_transform_9 i) (hinb0_9 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x512.size a
  hwx1_0 : ∀ i : grid1.Coords, EltTy.bits .f32 = 32 ∨ (Rect.block (s := S8192x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .f32 = 32 ∨ (Rect.block (s := S8192x512) S8192x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x512.size a ≤ S8192x512.size a
  hwx1_2 : ∀ i : grid1.Coords, EltTy.bits .bf16 = 32 ∨ (Rect.block (s := S8192x512) S8192x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x512.size a
  hwx1_3 : ∀ i : grid1.Coords, EltTy.bits .f32 = 32 ∨ (Rect.block (s := S8192x512) S512x512.size (cc1_transform_3 i) (hinb1_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v3_0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S8192x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S512x512 : Shape := ⟨2, ![512, 512]⟩
abbrev S512 : Shape := ⟨1, ![512]⟩
abbrev S1x512 : Shape := ⟨2, ![1, 512]⟩
abbrev S512x8192 : Shape := ⟨2, ![512, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S8192x512, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S512x512, .f32⟩
  | .hbm, ⟨13, _⟩ => ⟨S8192x512, .f32⟩
  | .hbm, ⟨14, _⟩ => ⟨S1x512, .f32⟩
  | .hbm, ⟨15, _⟩ => ⟨S8192x512, .f32⟩
  | .hbm, ⟨16, _⟩ => ⟨S8192x512, .f32⟩
  | .hbm, ⟨17, _⟩ => ⟨S512x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S512x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S8192x512_S512x8192_1_0 : S8192x512.Transposes [1, 0] S512x8192
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  dot_S8192x512_S512x512_S8192x512_1_0_0_1_n_n_wf : DotDims.WF S8192x512 S512x512 S8192x512 [1] [0] [0] [1] [] []
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.K.R0Frame.lean ====
/- The first kernel region (the projection kernel, pipeline 0) of the idealized program, at a parameter `V` — the
   TensorCore's buffer contents when the region is entered —, at any float interpretation `F`: each window's block
   at a point, what the body leaves in each of the three output windows' buffers, the body's triple, the pipeline's
   proof data and the body obligation. -/
import proofs.«150631_j57380763074621_2_alg».proof.Proof.Gen.Kernel.Launch
import proofs.«150631_j57380763074621_2_alg».proof.Proof.Gen.Kernel.Skeleton
import proofs.«150631_j57380763074621_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0: the projection kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x512 := Rect.unit (s := S1024x512) ![0, 0] S1024x512.size inb_S1024x512_S1024x512_0_0
abbrev r0_1 : Rect S512x512 := Rect.unit (s := S512x512) ![0, 0] S512x512.size inb_S512x512_S512x512_0_0
abbrev r0_2 : Rect S1x512 := Rect.unit (s := S1x512) ![0, 0] S1x512.size inb_S1x512_S1x512_0_0

/-! ## What the body leaves in each output window's buffer -/

/-- Window 7's staging buffer after the body, from the input windows' blocks: its one store, of the whole block. -/
def out0_7 (x0 : Vec F S1024x512 .f32) (x1 : Vec F S512x512 .f32) (x2 : Vec F S1x512 .f32) : Vec F S1024x512 .f32 :=
  View.canon [⟨r0_0, k0_pay2 (View.ld x0 r0_0) (View.ld x1 r0_1) (View.ld x2 r0_2)⟩]

/-- Its store tiles the buffer, so it covers it. -/
theorem cover0_7 (p0 : Vec F S1024x512 .f32) (y : S1024x512.Idx) :
    ∃ pc ∈ ([⟨r0_0, p0⟩] : List (View.Piece (Elt F) S1024x512 .f32)), y ∈ pc.1.set :=
  View.cover_of_tiled [⟨r0_0, p0⟩] S1024x512.size (by rfl) y

/-- Window 8's staging buffer after the body, from the input windows' blocks: its one store, of the whole block. -/
def out0_8 (x0 : Vec F S1024x512 .f32) (x3 : Vec F S512x512 .f32) (x4 : Vec F S1x512 .f32) : Vec F S1024x512 .f32 :=
  View.canon [⟨r0_0, k0_pay3 (View.ld x0 r0_0) (View.ld x3 r0_1) (View.ld x4 r0_2)⟩]

/-- Its store tiles the buffer, so it covers it. -/
theorem cover0_8 (p0 : Vec F S1024x512 .f32) (y : S1024x512.Idx) :
    ∃ pc ∈ ([⟨r0_0, p0⟩] : List (View.Piece (Elt F) S1024x512 .f32)), y ∈ pc.1.set :=
  View.cover_of_tiled [⟨r0_0, p0⟩] S1024x512.size (by rfl) y

/-- Window 9's staging buffer after the body, from the input windows' blocks: its one store, of the whole block. -/
def out0_9 (x0 : Vec F S1024x512 .f32) (x5 : Vec F S512x512 .f32) (x6 : Vec F S1x512 .f32) : Vec F S1024x512 .bf16 :=
  View.canon [⟨r0_0, k0_pay4 (View.ld x0 r0_0) (View.ld x5 r0_1) (View.ld x6 r0_2)⟩]

/-- Its store tiles the buffer, so it covers it. -/
theorem cover0_9 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

/-! ## The body's triple -/

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords) (arg1 : Memref sig .tc .vmem S1024x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole)
    (x0 : Vec F S1024x512 .f32) (x1 : Vec F S512x512 .f32) (x2 : Vec F S1x512 .f32) (x3 : Vec F S512x512 .f32) (x4 : Vec F S1x512 .f32) (x5 : Vec F S512x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2) ∗ owns (c : Thread nD τ) arg9 fullShare (out0_8 x0 x3 x4) ∗ owns (c : Thread nD τ) arg10 fullShare (out0_9 x0 x5 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of pipeline 0 on core `c`: the arrays as the region finds them (`V`); after the body at point `t`
    each input's buffer at its block and each output's at `out0_W` of the input blocks; the class-A invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Defs.lean ====
/-
  The second kernel region (the attention kernel) on the grid of 16 query tiles by 8 key tiles: what every run of its
  body is stated over.  A point's second coordinate j says which key tile it visits.  At j = 0 the body first clears
  its two accumulators; at every j it adds the tile's contribution; at j = 7 it also writes the output tile.  So the
  body has three cases: first (j = 0), middle (0 < j < 7), last (j = 7).  The two accumulators are scratch buffers of
  the kernel's own, carried from point to point; the output window is idle except at j = 7.
-/
import proofs.«150631_j57380763074621_2_alg».proof.Proof.Gen.Kernel.Launch
import proofs.«150631_j57380763074621_2_alg».proof.Proof.Gen.Kernel.Skeleton
import proofs.«150631_j57380763074621_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key array's staging buffer holds the whole array at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value array's staging buffer holds the whole array at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions -/

/-- "This is the first key tile" (j = 0), as the body computes it from the grid coordinates. -/
abbrev cond1_0 (i : grid1.Coords) : Prop := (Scalar.cmpi .ne (Scalar.extui (Scalar.cmpi .eq (BitVec.ofNat 32 (i 1).val) 0#32)) 0#32) = 1#1
/-- It holds at the points whose position is 0 modulo 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key tile" (j = 7). -/
abbrev cond1_1 (i : grid1.Coords) : Prop := k1_cond2 i = 1#1
/-- It holds at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key tile it is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S512x512 .f32 := (Memref.whole cc1_stg3_0 : Memref sig .tc .vmem S512x512 .f32).view
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
/-- The two accumulators: whole scoped buffers of the kernel's own. -/
abbrev scM1_0 : Memref sig .tc .vmem S512x512 .f32 := Memref.whole cc1_scratch0
abbrev scM1_1 : Memref sig .tc .vmem S512x128 .f32 := Memref.whole cc1_scratch1
abbrev VS1_0 : View sig .tc .vmem S512x512 .f32 := scM1_0.view
abbrev VS1_1 : View sig .tc .vmem S512x128 .f32 := scM1_1.view

end Cert.Kernel.Hand

end
-- ==== Proof.K.R1RunB.lean ====
/-
  The attention kernel's body run once, in the case "a middle key tile (neither the first nor the last)": on whole memrefs, with the query tile, the key array and
  the value array at given contents, the body runs to the end and leaves each buffer it stores into with a list of
  stored pieces (last first), which the run itself finds.
-/
import proofs.«150631_j57380763074621_2_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The middle case: both accumulators come in at what the point before left (`xs0`, `xs1`), the idle output buffer is
    handed back untouched, and each accumulator ends with its stored pieces written. -/
noncomputable def kernelRun1_B (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : ¬cond1_1 i)
    (x0 : Vec F S512x512 .f32) (x1 : Vec F S8192x512 .f32) (x2 : Vec F S8192x512 .bf16) (xs0 : Vec F S512x512 .f32) (xs1 : Vec F S512x128 .f32) :
    Σ' (L3 : List (View.Piece (Elt F) S512x512 .f32)), Σ' (LS0 : List (View.Piece (Elt F) S512x512 .f32)), { LS1 : List (View.Piece (Elt F) S512x128 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7) K } := by
  refine ⟨[], ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.Kernel.Hand

end
-- ==== Proof.K.R1RunA.lean ====
/-
  The attention kernel's body run once, in the case "the first key tile": on whole memrefs, with the query tile, the key array and
  the value array at given contents, the body runs to the end and leaves each buffer it stores into with a list of
  stored pieces (last first), which the run itself finds.
-/
import proofs.«150631_j57380763074621_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first case: both accumulators come in at anything, are cleared and then added to; the idle output buffer is
    handed back untouched. -/
noncomputable def kernelRun1_A (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : cond1_0 i) (hc1 : ¬cond1_1 i)
    (x0 : Vec F S512x512 .f32) (x1 : Vec F S8192x512 .f32) (x2 : Vec F S8192x512 .bf16) :
    Σ' (L3 : List (View.Piece (Elt F) S512x512 .f32)), Σ' (LS0 : List (View.Piece (Elt F) S512x512 .f32)), { LS1 : List (View.Piece (Elt F) S512x128 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7) K } := by
  refine ⟨[], ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.Kernel.Hand

end
-- ==== Proof.K.R1RunC.lean ====
/-
  The attention kernel's body run once, in the case "the last key tile": on whole memrefs, with the query tile, the key array and
  the value array at given contents, the body runs to the end and leaves each buffer it stores into with a list of
  stored pieces (last first), which the run itself finds.
-/
import proofs.«150631_j57380763074621_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last case: both accumulators come in at what the point before left, are added to, and the output buffer
    (at anything) ends with its stored piece written. -/
noncomputable def kernelRun1_C (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : cond1_1 i)
    (x0 : Vec F S512x512 .f32) (x1 : Vec F S8192x512 .f32) (x2 : Vec F S8192x512 .bf16) (xs0 : Vec F S512x512 .f32) (xs1 : Vec F S512x128 .f32) :
    Σ' (L3 : List (View.Piece (Elt F) S512x512 .f32)), Σ' (LS0 : List (View.Piece (Elt F) S512x512 .f32)), { LS1 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]
    · iexists _; iexact HS0
    iexists _; iexact HS1

end Cert.Kernel.Hand

end
-- ==== Proof.K.R1Frame.lean ====
/-
  The attention region's proof data and body obligation.  After each grid point the two accumulators hold what that
  point's case of the body left in them, computed from what the point before left; the output window's buffer holds
  what the last-tile case stored.  The region's invariant names the accumulators' contents between points, so that the
  next point's body finds them.
-/
import proofs.«150631_j57380763074621_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output window's buffer: its pieces read back (none: the window is idle there, and nothing consults this). -/
def out1_A_3 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : cond1_0 i) (hc1 : ¬cond1_1 i)
    (x0 : Vec F S512x512 .f32) (x1 : Vec F S8192x512 .f32) (x2 : Vec F S8192x512 .bf16) : Vec F S512x512 .f32 :=
  VO1_3.read (Elt F) (VO1_3.writes (Elt F) VO1_3.junk (kernelRun1_A c i arg2 harg2 arg3 harg3 arg4 harg4 arg5 harg5 arg6 harg6 arg7 harg7 hc0 hc1 x0 x1 x2).1)

/-- Case A's pieces for the value accumulator cover it. -/
theorem scover1_A_0 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : cond1_0 i) (hc1 : ¬cond1_1 i)
    (x0 : Vec F S512x512 .f32) (x1 : Vec F S8192x512 .f32) (x2 : Vec F S8192x512 .bf16) (y : S512x512.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S512x512.size (by sl_kernel_rfl) y

/-- What case A leaves in the value accumulator. -/
def sout1_A_0 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : cond1_0 i) (hc1 : ¬cond1_1 i)
    (x0 : Vec F S512x512 .f32) (x1 : Vec F S8192x512 .f32) (x2 : Vec F S8192x512 .bf16) : Vec F S512x512 .f32 :=
  VS1_0.read (Elt F) (VS1_0.writes (Elt F) VS1_0.junk (kernelRun1_A c i arg2 harg2 arg3 harg3 arg4 harg4 arg5 harg5 arg6 harg6 arg7 harg7 hc0 hc1 x0 x1 x2).2.1)

/-- Case A's pieces for the squared-score accumulator cover it. -/
theorem scover1_A_1 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : cond1_0 i) (hc1 : ¬cond1_1 i)
    (x0 : Vec F S512x512 .f32) (x1 : Vec F S8192x512 .f32) (x2 : Vec F S8192x512 .bf16) (y : S512x128.Idx) :
    ∃ pc ∈ (kernelRun1_A c i arg2 harg2 arg3 harg3 arg4 harg4 arg5 harg5 arg6 harg6 arg7 harg7 hc0 hc1 x0 x1 x2).2.2.1, y ∈ pc.1.set :=
  View.cover_of_tiledL (kernelRun1_A c i arg2 harg2 arg3 harg3 arg4 harg4 arg5 harg5 arg6 harg6 arg7 harg7 hc0 hc1 x0 x1 x2).2.2.1 S512x128.size (by sl_kernel_rfl) y

/-- What case A leaves in the squared-score accumulator. -/
def sout1_A_1 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : cond1_0 i) (hc1 : ¬cond1_1 i)
    (x0 : Vec F S512x512 .f32) (x1 : Vec F S8192x512 .f32) (x2 : Vec F S8192x512 .bf16) : Vec F S512x128 .f32 :=
  VS1_1.read (Elt F) (VS1_1.writes (Elt F) VS1_1.junk (kernelRun1_A c i arg2 harg2 arg3 harg3 arg4 harg4 arg5 harg5 arg6 harg6 arg7 harg7 hc0 hc1 x0 x1 x2).2.2.1)

/-- What case B leaves in the output window's buffer: its pieces read back (none: the window is idle there, and nothing consults this). -/
def out1_B_3 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : ¬cond1_1 i)
    (x0 : Vec F S512x512 .f32) (x1 : Vec F S8192x512 .f32) (x2 : Vec F S8192x512 .bf16) (xs0 : Vec F S512x512 .f32) (xs1 : Vec F S512x128 .f32) : Vec F S512x512 .f32 :=
  VO1_3.read (Elt F) (VO1_3.writes (Elt F) VO1_3.junk (kernelRun1_B c i arg2 harg2 arg3 harg3 arg4 harg4 arg5 harg5 arg6 harg6 arg7 harg7 hc0 hc1 x0 x1 x2 xs0 xs1).1)

/-- Case B's pieces for the value accumulator cover it. -/
theorem scover1_B_0 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : ¬cond1_1 i)
    (x0 : Vec F S512x512 .f32) (x1 : Vec F S8192x512 .f32) (x2 : Vec F S8192x512 .bf16) (xs0 : Vec F S512x512 .f32) (xs1 : Vec F S512x128 .f32) (y : S512x512.Idx) :
    ∃ pc ∈ (kernelRun1_B c i arg2 harg2 arg3 harg3 arg4 harg4 arg5 harg5 arg6 harg6 arg7 harg7 hc0 hc1 x0 x1 x2 xs0 xs1).2.1, y ∈ pc.1.set :=
  View.cover_of_tiledL (kernelRun1_B c i arg2 harg2 arg3 harg3 arg4 harg4 arg5 harg5 arg6 harg6 arg7 harg7 hc0 hc1 x0 x1 x2 xs0 xs1).2.1 S512x512.size (by sl_kernel_rfl) y

/-- What case B leaves in the value accumulator. -/
def sout1_B_0 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : ¬cond1_1 i)
    (x0 : Vec F S512x512 .f32) (x1 : Vec F S8192x512 .f32) (x2 : Vec F S8192x512 .bf16) (xs0 : Vec F S512x512 .f32) (xs1 : Vec F S512x128 .f32) : Vec F S512x512 .f32 :=
  VS1_0.read (Elt F) (VS1_0.writes (Elt F) VS1_0.junk (kernelRun1_B c i arg2 harg2 arg3 harg3 arg4 harg4 arg5 harg5 arg6 harg6 arg7 harg7 hc0 hc1 x0 x1 x2 xs0 xs1).2.1)

/-- Case B's pieces for the squared-score accumulator cover it. -/
theorem scover1_B_1 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : ¬cond1_1 i)
    (x0 : Vec F S512x512 .f32) (x1 : Vec F S8192x512 .f32) (x2 : Vec F S8192x512 .bf16) (xs0 : Vec F S512x512 .f32) (xs1 : Vec F S512x128 .f32) (y : S512x128.Idx) :
    ∃ pc ∈ (kernelRun1_B c i arg2 harg2 arg3 harg3 arg4 harg4 arg5 harg5 arg6 harg6 arg7 harg7 hc0 hc1 x0 x1 x2 xs0 xs1).2.2.1, y ∈ pc.1.set :=
  View.cover_of_tiledL (kernelRun1_B c i arg2 harg2 arg3 harg3 arg4 harg4 arg5 harg5 arg6 harg6 arg7 harg7 hc0 hc1 x0 x1 x2 xs0 xs1).2.2.1 S512x128.size (by sl_kernel_rfl) y

/-- What case B leaves in the squared-score accumulator. -/
def sout1_B_1 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : ¬cond1_1 i)
    (x0 : Vec F S512x512 .f32) (x1 : Vec F S8192x512 .f32) (x2 : Vec F S8192x512 .bf16) (xs0 : Vec F S512x512 .f32) (xs1 : Vec F S512x128 .f32) : Vec F S512x128 .f32 :=
  VS1_1.read (Elt F) (VS1_1.writes (Elt F) VS1_1.junk (kernelRun1_B c i arg2 harg2 arg3 harg3 arg4 harg4 arg5 harg5 arg6 harg6 arg7 harg7 hc0 hc1 x0 x1 x2 xs0 xs1).2.2.1)

/-- In the last case the output buffer's one stored piece covers it. -/
theorem cover1_C_3 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : cond1_1 i)
    (x0 : Vec F S512x512 .f32) (x1 : Vec F S8192x512 .f32) (x2 : Vec F S8192x512 .bf16) (xs0 : Vec F S512x512 .f32) (xs1 : Vec F S512x128 .f32) (y : S512x512.Idx) :
    ∃ pc ∈ (kernelRun1_C c i arg2 harg2 arg3 harg3 arg4 harg4 arg5 harg5 arg6 harg6 arg7 harg7 hc0 hc1 x0 x1 x2 xs0 xs1).1, y ∈ pc.1.set :=
  View.cover_of_tiledL (kernelRun1_C c i arg2 harg2 arg3 harg3 arg4 harg4 arg5 harg5 arg6 harg6 arg7 harg7 hc0 hc1 x0 x1 x2 xs0 xs1).1 S512x512.size (by sl_kernel_rfl) y

/-- What case C leaves in the output window's buffer: its pieces read back. -/
def out1_C_3 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : cond1_1 i)
    (x0 : Vec F S512x512 .f32) (x1 : Vec F S8192x512 .f32) (x2 : Vec F S8192x512 .bf16) (xs0 : Vec F S512x512 .f32) (xs1 : Vec F S512x128 .f32) : Vec F S512x512 .f32 :=
  VO1_3.read (Elt F) (VO1_3.writes (Elt F) VO1_3.junk (kernelRun1_C c i arg2 harg2 arg3 harg3 arg4 harg4 arg5 harg5 arg6 harg6 arg7 harg7 hc0 hc1 x0 x1 x2 xs0 xs1).1)

/-- Case C's pieces for the value accumulator cover it. -/
theorem scover1_C_0 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : cond1_1 i)
    (x0 : Vec F S512x512 .f32) (x1 : Vec F S8192x512 .f32) (x2 : Vec F S8192x512 .bf16) (xs0 : Vec F S512x512 .f32) (xs1 : Vec F S512x128 .f32) (y : S512x512.Idx) :
    ∃ pc ∈ (kernelRun1_C c i arg2 harg2 arg3 harg3 arg4 harg4 arg5 harg5 arg6 harg6 arg7 harg7 hc0 hc1 x0 x1 x2 xs0 xs1).2.1, y ∈ pc.1.set :=
  View.cover_of_tiledL (kernelRun1_C c i arg2 harg2 arg3 harg3 arg4 harg4 arg5 harg5 arg6 harg6 arg7 harg7 hc0 hc1 x0 x1 x2 xs0 xs1).2.1 S512x512.size (by sl_kernel_rfl) y

/-- What case C leaves in the value accumulator. -/
def sout1_C_0 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : cond1_1 i)
    (x0 : Vec F S512x512 .f32) (x1 : Vec F S8192x512 .f32) (x2 : Vec F S8192x512 .bf16) (xs0 : Vec F S512x512 .f32) (xs1 : Vec F S512x128 .f32) : Vec F S512x512 .f32 :=
  VS1_0.read (Elt F) (VS1_0.writes (Elt F) VS1_0.junk (kernelRun1_C c i arg2 harg2 arg3 harg3 arg4 harg4 arg5 harg5 arg6 harg6 arg7 harg7 hc0 hc1 x0 x1 x2 xs0 xs1).2.1)

/-- Case C's pieces for the squared-score accumulator cover it. -/
theorem scover1_C_1 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : cond1_1 i)
    (x0 : Vec F S512x512 .f32) (x1 : Vec F S8192x512 .f32) (x2 : Vec F S8192x512 .bf16) (xs0 : Vec F S512x512 .f32) (xs1 : Vec F S512x128 .f32) (y : S512x128.Idx) :
    ∃ pc ∈ (kernelRun1_C c i arg2 harg2 arg3 harg3 arg4 harg4 arg5 harg5 arg6 harg6 arg7 harg7 hc0 hc1 x0 x1 x2 xs0 xs1).2.2.1, y ∈ pc.1.set :=
  View.cover_of_tiledL (kernelRun1_C c i arg2 harg2 arg3 harg3 arg4 harg4 arg5 harg5 arg6 harg6 arg7 harg7 hc0 hc1 x0 x1 x2 xs0 xs1).2.2.1 S512x128.size (by sl_kernel_rfl) y

/-- What case C leaves in the squared-score accumulator. -/
def sout1_C_1 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : cond1_1 i)
    (x0 : Vec F S512x512 .f32) (x1 : Vec F S8192x512 .f32) (x2 : Vec F S8192x512 .bf16) (xs0 : Vec F S512x512 .f32) (xs1 : Vec F S512x128 .f32) : Vec F S512x128 .f32 :=
  VS1_1.read (Elt F) (VS1_1.writes (Elt F) VS1_1.junk (kernelRun1_C c i arg2 harg2 arg3 harg3 arg4 harg4 arg5 harg5 arg6 harg6 arg7 harg7 hc0 hc1 x0 x1 x2 xs0 xs1).2.2.1)

section

variable (V : (c : Dev nD) → (b : Ref sig .tc) → Buf (Elt F) ((c : Thread nD τ).loc b))

/-! ## What the output buffer and the two accumulators hold after each point -/

/-- After the body at position `n`: the output window's buffer and the two accumulators, by recursion on the position —
    the case the position selects (by its remainder modulo 8), run at the point's memrefs and blocks, the accumulators
    taken from what the position before left. -/
def outsAt1 (c : Dev nD) : (n : ℕ) → n < cfg1.N → Vec F S512x512 .f32 × Vec F S512x512 .f32 × Vec F S512x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- At a first-tile position: that case's contents. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle position: that case's contents, over what the position before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last-tile position: that case's contents, over what the position before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant, with the accumulators named -/

/-- The other kernel's staging buffers, each at some contents: scoped buffers this kernel never touches. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The class's invariant opened: the other kernel's staging buffers, the two accumulators at some contents, the
    generator register at some state. -/
theorem PhiA1_in (c : Dev nD) :
    (Pipeline.ΦA spec1 c : sProp 𝕄) ⊢ iprop(others1 c ∗ (∃ d, owns (c : Thread nD τ) scM1_0 fullShare d) ∗ (∃ d, owns (c : Thread nD τ) scM1_1 fullShare d) ∗ (∃ r, prngReg c r)) := by
  unfold Pipeline.ΦA others1; rw [scopedRest1_eq]; simp only [scM1_0, scM1_1, owns_whole]
  iintro ⟨⟨R0, R1, R2, R3, R4, R5, R6, R7, R8, R9, R10, R11, R12, R13, HS0, HS1⟩, Hg⟩
  isplitl [R0 R1 R2 R3 R4 R5 R6 R7 R8 R9 R10 R11 R12 R13]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact R13
  isplitl [HS0]; · iexact HS0
  isplitl [HS1]; · iexact HS1
  iexact Hg

/-- And closed again. -/
theorem PhiA1_out (c : Dev nD) :
    iprop(others1 c ∗ (∃ d, owns (c : Thread nD τ) scM1_0 fullShare d) ∗ (∃ d, owns (c : Thread nD τ) scM1_1 fullShare d) ∗ (∃ r, prngReg c r)) ⊢ (Pipeline.ΦA spec1 c : sProp 𝕄) := by
  unfold Pipeline.ΦA others1; rw [scopedRest1_eq]; simp only [scM1_0, scM1_1, owns_whole]
  iintro ⟨⟨R0, R1, R2, R3, R4, R5, R6, R7, R8, R9, R10, R11, R12, R13⟩, HS0, HS1, Hg⟩
  isplitl [R0 R1 R2 R3 R4 R5 R6 R7 R8 R9 R10 R11 R12 R13 HS0 HS1]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [HS0]; · iexact HS0
    iexact HS1
  iexact Hg

/-- The invariant before position `n`: before the first point the class's (every scratch at anything); afterwards the
    other kernel's staging buffers, each accumulator at what the position before left in it, and the generator register. -/
def PhiS (c : Dev nD) : (n : ℕ) → n ≤ cfg1.N → sProp 𝕄
  | 0, _ => Pipeline.ΦA spec1 c
  | n + 1, hn => iprop(others1 c ∗ owns (c : Thread nD τ) scM1_0 fullShare ((outsAt1 V c n hn).2.1) ∗ owns (c : Thread nD τ) scM1_1 fullShare ((outsAt1 V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 c ∗ owns (c : Thread nD τ) scM1_0 fullShare ((outsAt1 V c n hn).2.1) ∗ owns (c : Thread nD τ) scM1_1 fullShare ((outsAt1 V c n hn).2.2) ∗ (∃ r, prngReg c r)) := rfl

theorem PhiS_pos (c : Dev nD) (n : ℕ) (h : n ≤ cfg1.N) (hz : n ≠ 0) :
    PhiS V c n h = iprop(others1 c ∗ owns (c : Thread nD τ) scM1_0 fullShare ((outsAt1 V c (n - 1) (by omega)).2.1) ∗ owns (c : Thread nD τ) scM1_1 fullShare ((outsAt1 V c (n - 1) (by omega)).2.2) ∗ (∃ r, prngReg c r)) := by
  cases n with
  | zero => exact absurd rfl hz
  | succ n => rfl

/-! ## The pipeline's proof data -/

/-- The proof data of the attention pipeline on core `c`: the arrays as the region finds them; after the body at point
    `t` each input's buffer at its block and the output's at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point.  The position's remainder modulo 8 says which case it is in; the invariant hands the body the
    accumulators at what the position before left (at anything before the first point) and takes them back at this
    position's contents; the idle output buffer is handed back untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := (PhiA1_in c) $$ HΦ
        icases HΦ' with ⟨HR, HS0, HS1, Hg⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨HR, HS0, HS1, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1; (try dsimp only)
      by_cases hz : t.val = 0
      · exfalso; omega
      · rw [PhiS_castSucc V c t, PhiS_pos V c _ _ hz]
        iintro ⟨⟨HR, HS0, HS1, Hg⟩, Ho, ⟨%d0, H0⟩, ⟨%d1, H1⟩, ⟨%d2, H2⟩, ⟨%d3, H3⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1; (try dsimp only)
      by_cases hz : t.val = 0
      · exfalso; omega
      · rw [PhiS_castSucc V c t, PhiS_pos V c _ _ hz]
        iintro ⟨⟨HR, HS0, HS1, Hg⟩, Ho, ⟨%d0, H0⟩, ⟨%d1, H1⟩, ⟨%d2, H2⟩, ⟨%d3, H3⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the accumulators' contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl, PhiS_pos V c _ _ hne]
  refine BIBase.Entails.trans ?_ (PhiA1_out c)
  iintro ⟨HR, HS0, HS1, Hg⟩
  isplitl [HR]; · iexact HR
  isplitl [HS0]; · iexists _; iexact HS0
  isplitl [HS1]; · iexists _; iexact HS1
  iexact Hg

end

end Cert.Kernel.Hand

end
-- ==== Proof.K.Run.lean ====
/-
  The whole run of the program: three reshapes on the host, the projection region, the attention region.  The buffers'
  contents are followed from the launch memory through each of the three: the reshapes' results, then what the
  projection region's write-backs leave in its three output arrays, then what the attention region's leave in its one.
  Every weakly fair execution terminates, and at the end every unscoped buffer holds the last of these contents; an
  argument array walks back through them to what it held at launch.
-/
import proofs.«150631_j57380763074621_2_alg».proof.Proof.K.R0Frame
import proofs.«150631_j57380763074621_2_alg».proof.Proof.K.R1Frame
import proofs.«150631_j57380763074621_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Wl : Dev nD → Valuation τ sig (Elt F) := fun c b => m (c, b)
/-- After the three reshapes (the projection region's entry). -/
abbrev Wh : Dev nD → Valuation τ sig (Elt F) := fun c => StableHlo.after hostOps0 (Wl m c)
abbrev Vh : (c : Dev nD) → (b : Ref sig .tc) → Buf (Elt F) ((c : Thread nD τ).loc b) := fun c b => Wh m c b
/-- At the projection region's exit: its arrays at what the pipeline leaves, every other buffer as entered. -/
def Wq (c : Dev nD) : Valuation τ sig (Elt F) :=
  Pipeline.withArrays spec0 c (Wh m c) fun w => (dat0 (Vh m) c).arrAt w cfg0.N
theorem Wq_arr (c : Dev nD) (w : Fin cfg0.W) :
    Wq m c (Proc.devRef .tc (Pipeline.arrRef spec0 w)) = (dat0 (Vh m) c).arrAt w cfg0.N := by
  unfold Wq; exact Pipeline.withArrays_arr spec0 launch0.win.arr_inj c _ _ w
theorem Wq_of_ne (c : Dev nD) (b : Ref sig .tc) (hb : ∀ w, Pipeline.arrRef spec0 w ≠ b) :
    Wq m c (Proc.devRef .tc b) = Wh m c (Proc.devRef .tc b) := by
  unfold Wq; exact Pipeline.withArrays_of_ne spec0 c _ _ b hb
abbrev Vq : (c : Dev nD) → (b : Ref sig .tc) → Buf (Elt F) ((c : Thread nD τ).loc b) := fun c b => Wq m c b
theorem hF0 (c : Dev nD) (w : Fin cfg0.W) : (dat0 (Vh m) c).arrAt w cfg0.N = Vq m c (Pipeline.arrRef spec0 w) :=
  (Wq_arr m c w).symm
theorem hrest0 (c : Dev nD) : ∀ b, b ∉ Finset.univ.image (Pipeline.arrRef spec0) → Vq m c b = Vh m c b :=
  fun b hb => Wq_of_ne m c b fun w e => hb (Finset.mem_image.mpr ⟨w, Finset.mem_univ _, e⟩)

/-- At the attention region's exit. -/
def Wo (c : Dev nD) : Valuation τ sig (Elt F) :=
  Pipeline.withArrays spec1 c (Wq m c) fun w => (dat1 (Vq m) c).arrAt w cfg1.N
theorem Wo_arr (c : Dev nD) (w : Fin cfg1.W) :
    Wo m c (Proc.devRef .tc (Pipeline.arrRef spec1 w)) = (dat1 (Vq m) c).arrAt w cfg1.N := by
  unfold Wo; exact Pipeline.withArrays_arr spec1 launch1.win.arr_inj c _ _ w
theorem Wo_of_ne (c : Dev nD) (b : Ref sig .tc) (hb : ∀ w, Pipeline.arrRef spec1 w ≠ b) :
    Wo m c (Proc.devRef .tc b) = Wq m c (Proc.devRef .tc b) := by
  unfold Wo; exact Pipeline.withArrays_of_ne spec1 c _ _ b hb
abbrev Vo : (c : Dev nD) → (b : Ref sig .tc) → Buf (Elt F) ((c : Thread nD τ).loc b) := fun c b => Wo m c b
theorem hF1 (c : Dev nD) (w : Fin cfg1.W) : (dat1 (Vq m) c).arrAt w cfg1.N = Vo m c (Pipeline.arrRef spec1 w) :=
  (Wo_arr m c w).symm
theorem hrest1 (c : Dev nD) : ∀ b, b ∉ Finset.univ.image (Pipeline.arrRef spec1) → Vo m c b = Vq m c b :=
  fun b hb => Wo_of_ne m c b fun w e => hb (Finset.mem_image.mpr ⟨w, Finset.mem_univ _, e⟩)

/-! ## The arguments end as launched -/

theorem Wo_main_arg0 (c : Dev nD) : Wo m c (Proc.devRef .tc main_arg0) = m ((c : Thread nD τ).loc main_arg0) :=
  calc Wo m c (Proc.devRef .tc main_arg0)
    _ = Wq m c (Proc.devRef .tc main_arg0) := Wo_of_ne m c main_arg0 (by decide)
    _ = Wh m c (Proc.devRef .tc main_arg0) := (Wq_arr m c 0).trans (((dat0 (Vh m) c).arrAt_in 0 rfl _).trans (A_eq0 (Vh m) c 0))
    _ = Wl m c (Proc.devRef .tc main_arg0) := Gen.V1_of m c main_arg0 (by decide)
    _ = m ((c : Thread nD τ).loc main_arg0) := rfl

theorem Wo_main_arg1 (c : Dev nD) : Wo m c (Proc.devRef .tc main_arg1) = m ((c : Thread nD τ).loc main_arg1) :=
  calc Wo m c (Proc.devRef .tc main_arg1)
    _ = Wq m c (Proc.devRef .tc main_arg1) := Wo_of_ne m c main_arg1 (by decide)
    _ = Wh m c (Proc.devRef .tc main_arg1) := (Wq_arr m c 1).trans (((dat0 (Vh m) c).arrAt_in 1 rfl _).trans (A_eq0 (Vh m) c 1))
    _ = Wl m c (Proc.devRef .tc main_arg1) := Gen.V1_of m c main_arg1 (by decide)
    _ = m ((c : Thread nD τ).loc main_arg1) := rfl

theorem Wo_main_arg2 (c : Dev nD) : Wo m c (Proc.devRef .tc main_arg2) = m ((c : Thread nD τ).loc main_arg2) :=
  calc Wo m c (Proc.devRef .tc main_arg2)
    _ = Wq m c (Proc.devRef .tc main_arg2) := Wo_of_ne m c main_arg2 (by decide)
    _ = Wh m c (Proc.devRef .tc main_arg2) := Wq_of_ne m c main_arg2 (by decide)
    _ = Wl m c (Proc.devRef .tc main_arg2) := Gen.V1_of m c main_arg2 (by decide)
    _ = m ((c : Thread nD τ).loc main_arg2) := rfl

theorem Wo_main_arg3 (c : Dev nD) : Wo m c (Proc.devRef .tc main_arg3) = m ((c : Thread nD τ).loc main_arg3) :=
  calc Wo m c (Proc.devRef .tc main_arg3)
    _ = Wq m c (Proc.devRef .tc main_arg3) := Wo_of_ne m c main_arg3 (by decide)
    _ = Wh m c (Proc.devRef .tc main_arg3) := (Wq_arr m c 3).trans (((dat0 (Vh m) c).arrAt_in 3 rfl _).trans (A_eq0 (Vh m) c 3))
    _ = Wl m c (Proc.devRef .tc main_arg3) := Gen.V1_of m c main_arg3 (by decide)
    _ = m ((c : Thread nD τ).loc main_arg3) := rfl

theorem Wo_main_arg4 (c : Dev nD) : Wo m c (Proc.devRef .tc main_arg4) = m ((c : Thread nD τ).loc main_arg4) :=
  calc Wo m c (Proc.devRef .tc main_arg4)
    _ = Wq m c (Proc.devRef .tc main_arg4) := Wo_of_ne m c main_arg4 (by decide)
    _ = Wh m c (Proc.devRef .tc main_arg4) := Wq_of_ne m c main_arg4 (by decide)
    _ = Wl m c (Proc.devRef .tc main_arg4) := Gen.V1_of m c main_arg4 (by decide)
    _ = m ((c : Thread nD τ).loc main_arg4) := rfl

theorem Wo_main_arg5 (c : Dev nD) : Wo m c (Proc.devRef .tc main_arg5) = m ((c : Thread nD τ).loc main_arg5) :=
  calc Wo m c (Proc.devRef .tc main_arg5)
    _ = Wq m c (Proc.devRef .tc main_arg5) := Wo_of_ne m c main_arg5 (by decide)
    _ = Wh m c (Proc.devRef .tc main_arg5) := (Wq_arr m c 5).trans (((dat0 (Vh m) c).arrAt_in 5 rfl _).trans (A_eq0 (Vh m) c 5))
    _ = Wl m c (Proc.devRef .tc main_arg5) := Gen.V1_of m c main_arg5 (by decide)
    _ = m ((c : Thread nD τ).loc main_arg5) := rfl

theorem Wo_main_arg6 (c : Dev nD) : Wo m c (Proc.devRef .tc main_arg6) = m ((c : Thread nD τ).loc main_arg6) :=
  calc Wo m c (Proc.devRef .tc main_arg6)
    _ = Wq m c (Proc.devRef .tc main_arg6) := Wo_of_ne m c main_arg6 (by decide)
    _ = Wh m c (Proc.devRef .tc main_arg6) := Wq_of_ne m c main_arg6 (by decide)
    _ = Wl m c (Proc.devRef .tc main_arg6) := Gen.V1_of m c main_arg6 (by decide)
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vh m) c
  | ⟨1, _⟩ => fun c => dat1 (Vq m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wo m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vh m) c).loose
  hwaits := Pipeline.hwaits_of_owed_zero _ _ _ _ L lv 0 fun _ _ => rfl
  pre c := iprop(StableHlo.held (c : Thread nD τ) (Pipeline.ucRefs τ sig) (Wh m c) ∗ R c)
  post c := iprop(StableHlo.held (c : Thread nD τ) (Pipeline.ucRefs τ sig) (Wq m c) ∗ R c)
  X c := iprop(∃ r, prngReg c r)
  Y c := iprop(∃ r, prngReg c r)
  Z c := Pipeline.unscopedRest (Ix := Unit) (Name := ℕ) (U := UR sig nD τ) (Lvl := ℕ) spec0 c (Vh m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vh m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vh m c) (Vq m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vq m) c).loose
  hwaits := Pipeline.hwaits_of_owed_zero _ _ _ _ L lv 1 fun _ _ => rfl
  pre c := iprop(StableHlo.held (c : Thread nD τ) (Pipeline.ucRefs τ sig) (Wq m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vq m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vq m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vq m) c)
    unfold Pipeline.ΦA
    iintro ⟨Hp, -, Hr⟩
    isplitl [Hr]; · iexact Hr
    iexact Hp
  hout c := by
    rw [Pipeline.ownSems0_none]
    refine BIBase.Entails.trans (hout1 (Vq m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vq m c) (Vo m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Wl m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters, every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wo m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl m c)
        from Pipeline.unscopedBufs_held c (Wl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wo m c b)
    (hfin := fun c s' => by
      iintro ⟨⟨Hh, -⟩, HSI⟩
      unfold StableHlo.held
      imodintro
      iapply (pointsTo_read_all (Pipeline.ucRefs τ sig) (fun b => (((c : Thread nD τ)).1, b)) (Wo m c) s')
      isplitl [Hh] <;> iassumption)
    (hQ := fun s h => h)

end Cert.Kernel.Hand

end
-- ==== Proof.KI.R0Frame.lean ====
/- The first kernel region (the projection kernel, pipeline 0) of the idealized program, at a parameter `V` — the
   TensorCore's buffer contents when the region is entered —, at any float interpretation `F`: each window's block
   at a point, what the body leaves in each of the three output windows' buffers, the body's triple, the pipeline's
   proof data and the body obligation. -/
import proofs.«150631_j57380763074621_2_alg».proof.Proof.Gen.KernelIdeal.Launch
import proofs.«150631_j57380763074621_2_alg».proof.Proof.Gen.KernelIdeal.Skeleton
import proofs.«150631_j57380763074621_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0: the projection kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x512 := Rect.unit (s := S1024x512) ![0, 0] S1024x512.size inb_S1024x512_S1024x512_0_0
abbrev r0_1 : Rect S512x512 := Rect.unit (s := S512x512) ![0, 0] S512x512.size inb_S512x512_S512x512_0_0
abbrev r0_2 : Rect S1x512 := Rect.unit (s := S1x512) ![0, 0] S1x512.size inb_S1x512_S1x512_0_0

/-! ## What the body leaves in each output window's buffer -/

/-- Window 7's staging buffer after the body, from the input windows' blocks: its one store, of the whole block. -/
def out0_7 (x0 : Vec F S1024x512 .f32) (x1 : Vec F S512x512 .f32) (x2 : Vec F S1x512 .f32) : Vec F S1024x512 .f32 :=
  View.canon [⟨r0_0, k0_pay2 (View.ld x0 r0_0) (View.ld x1 r0_1) (View.ld x2 r0_2)⟩]

/-- Its store tiles the buffer, so it covers it. -/
theorem cover0_7 (p0 : Vec F S1024x512 .f32) (y : S1024x512.Idx) :
    ∃ pc ∈ ([⟨r0_0, p0⟩] : List (View.Piece (Elt F) S1024x512 .f32)), y ∈ pc.1.set :=
  View.cover_of_tiled [⟨r0_0, p0⟩] S1024x512.size (by rfl) y

/-- Window 8's staging buffer after the body, from the input windows' blocks: its one store, of the whole block. -/
def out0_8 (x0 : Vec F S1024x512 .f32) (x3 : Vec F S512x512 .f32) (x4 : Vec F S1x512 .f32) : Vec F S1024x512 .f32 :=
  View.canon [⟨r0_0, k0_pay3 (View.ld x0 r0_0) (View.ld x3 r0_1) (View.ld x4 r0_2)⟩]

/-- Its store tiles the buffer, so it covers it. -/
theorem cover0_8 (p0 : Vec F S1024x512 .f32) (y : S1024x512.Idx) :
    ∃ pc ∈ ([⟨r0_0, p0⟩] : List (View.Piece (Elt F) S1024x512 .f32)), y ∈ pc.1.set :=
  View.cover_of_tiled [⟨r0_0, p0⟩] S1024x512.size (by rfl) y

/-- Window 9's staging buffer after the body, from the input windows' blocks: its one store, of the whole block. -/
def out0_9 (x0 : Vec F S1024x512 .f32) (x5 : Vec F S512x512 .f32) (x6 : Vec F S1x512 .f32) : Vec F S1024x512 .bf16 :=
  View.canon [⟨r0_0, k0_pay4 (View.ld x0 r0_0) (View.ld x5 r0_1) (View.ld x6 r0_2)⟩]

/-- Its store tiles the buffer, so it covers it. -/
theorem cover0_9 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

/-! ## The body's triple -/

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords) (arg1 : Memref sig .tc .vmem S1024x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole)
    (x0 : Vec F S1024x512 .f32) (x1 : Vec F S512x512 .f32) (x2 : Vec F S1x512 .f32) (x3 : Vec F S512x512 .f32) (x4 : Vec F S1x512 .f32) (x5 : Vec F S512x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2) ∗ owns (c : Thread nD τ) arg9 fullShare (out0_8 x0 x3 x4) ∗ owns (c : Thread nD τ) arg10 fullShare (out0_9 x0 x5 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of pipeline 0 on core `c`: the arrays as the region finds them (`V`); after the body at point `t`
    each input's buffer at its block and each output's at `out0_W` of the input blocks; the class-A invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Defs.lean ====
/-
  The second kernel region (the attention kernel) on the grid of 16 query tiles by 8 key tiles: what every run of its
  body is stated over.  A point's second coordinate j says which key tile it visits.  At j = 0 the body first clears
  its two accumulators; at every j it adds the tile's contribution; at j = 7 it also writes the output tile.  So the
  body has three cases: first (j = 0), middle (0 < j < 7), last (j = 7).  The two accumulators are scratch buffers of
  the kernel's own, carried from point to point; the output window is idle except at j = 7.
-/
import proofs.«150631_j57380763074621_2_alg».proof.Proof.Gen.KernelIdeal.Launch
import proofs.«150631_j57380763074621_2_alg».proof.Proof.Gen.KernelIdeal.Skeleton
import proofs.«150631_j57380763074621_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key array's staging buffer holds the whole array at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value array's staging buffer holds the whole array at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions -/

/-- "This is the first key tile" (j = 0), as the body computes it from the grid coordinates. -/
abbrev cond1_0 (i : grid1.Coords) : Prop := (Scalar.cmpi .ne (Scalar.extui (Scalar.cmpi .eq (BitVec.ofNat 32 (i 1).val) 0#32)) 0#32) = 1#1
/-- It holds at the points whose position is 0 modulo 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key tile" (j = 7). -/
abbrev cond1_1 (i : grid1.Coords) : Prop := k1_cond2 i = 1#1
/-- It holds at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key tile it is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S512x512 .f32 := (Memref.whole cc1_stg3_0 : Memref sig .tc .vmem S512x512 .f32).view
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
/-- The two accumulators: whole scoped buffers of the kernel's own. -/
abbrev scM1_0 : Memref sig .tc .vmem S512x512 .f32 := Memref.whole cc1_scratch0
abbrev scM1_1 : Memref sig .tc .vmem S512x128 .f32 := Memref.whole cc1_scratch1
abbrev VS1_0 : View sig .tc .vmem S512x512 .f32 := scM1_0.view
abbrev VS1_1 : View sig .tc .vmem S512x128 .f32 := scM1_1.view

end Cert.KernelIdeal.Hand

end
-- ==== Proof.KI.R1RunB.lean ====
/-
  The attention kernel's body run once, in the case "a middle key tile (neither the first nor the last)": on whole memrefs, with the query tile, the key array and
  the value array at given contents, the body runs to the end and leaves each buffer it stores into with a list of
  stored pieces (last first), which the run itself finds.
-/
import proofs.«150631_j57380763074621_2_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The middle case: both accumulators come in at what the point before left (`xs0`, `xs1`), the idle output buffer is
    handed back untouched, and each accumulator ends with its stored pieces written. -/
noncomputable def kernelRun1_B (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : ¬cond1_1 i)
    (x0 : Vec F S512x512 .f32) (x1 : Vec F S8192x512 .f32) (x2 : Vec F S8192x512 .bf16) (xs0 : Vec F S512x512 .f32) (xs1 : Vec F S512x128 .f32) :
    Σ' (L3 : List (View.Piece (Elt F) S512x512 .f32)), Σ' (LS0 : List (View.Piece (Elt F) S512x512 .f32)), { LS1 : List (View.Piece (Elt F) S512x128 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7) K } := by
  refine ⟨[], ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.KernelIdeal.Hand

end
-- ==== Proof.KI.R1RunA.lean ====
/-
  The attention kernel's body run once, in the case "the first key tile": on whole memrefs, with the query tile, the key array and
  the value array at given contents, the body runs to the end and leaves each buffer it stores into with a list of
  stored pieces (last first), which the run itself finds.
-/
import proofs.«150631_j57380763074621_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first case: both accumulators come in at anything, are cleared and then added to; the idle output buffer is
    handed back untouched. -/
noncomputable def kernelRun1_A (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : cond1_0 i) (hc1 : ¬cond1_1 i)
    (x0 : Vec F S512x512 .f32) (x1 : Vec F S8192x512 .f32) (x2 : Vec F S8192x512 .bf16) :
    Σ' (L3 : List (View.Piece (Elt F) S512x512 .f32)), Σ' (LS0 : List (View.Piece (Elt F) S512x512 .f32)), { LS1 : List (View.Piece (Elt F) S512x128 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7) K } := by
  refine ⟨[], ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.KernelIdeal.Hand

end
-- ==== Proof.KI.R1RunC.lean ====
/-
  The attention kernel's body run once, in the case "the last key tile": on whole memrefs, with the query tile, the key array and
  the value array at given contents, the body runs to the end and leaves each buffer it stores into with a list of
  stored pieces (last first), which the run itself finds.
-/
import proofs.«150631_j57380763074621_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last case: both accumulators come in at what the point before left, are added to, and the output buffer
    (at anything) ends with its stored piece written. -/
noncomputable def kernelRun1_C (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : cond1_1 i)
    (x0 : Vec F S512x512 .f32) (x1 : Vec F S8192x512 .f32) (x2 : Vec F S8192x512 .bf16) (xs0 : Vec F S512x512 .f32) (xs1 : Vec F S512x128 .f32) :
    Σ' (L3 : List (View.Piece (Elt F) S512x512 .f32)), Σ' (LS0 : List (View.Piece (Elt F) S512x512 .f32)), { LS1 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]
    · iexists _; iexact HS0
    iexists _; iexact HS1

end Cert.KernelIdeal.Hand

end
-- ==== Proof.KI.R1Frame.lean ====
/-
  The attention region's proof data and body obligation.  After each grid point the two accumulators hold what that
  point's case of the body left in them, computed from what the point before left; the output window's buffer holds
  what the last-tile case stored.  The region's invariant names the accumulators' contents between points, so that the
  next point's body finds them.
-/
import proofs.«150631_j57380763074621_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output window's buffer: its pieces read back (none: the window is idle there, and nothing consults this). -/
def out1_A_3 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : cond1_0 i) (hc1 : ¬cond1_1 i)
    (x0 : Vec F S512x512 .f32) (x1 : Vec F S8192x512 .f32) (x2 : Vec F S8192x512 .bf16) : Vec F S512x512 .f32 :=
  VO1_3.read (Elt F) (VO1_3.writes (Elt F) VO1_3.junk (kernelRun1_A c i arg2 harg2 arg3 harg3 arg4 harg4 arg5 harg5 arg6 harg6 arg7 harg7 hc0 hc1 x0 x1 x2).1)

/-- Case A's pieces for the value accumulator cover it. -/
theorem scover1_A_0 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : cond1_0 i) (hc1 : ¬cond1_1 i)
    (x0 : Vec F S512x512 .f32) (x1 : Vec F S8192x512 .f32) (x2 : Vec F S8192x512 .bf16) (y : S512x512.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S512x512.size (by sl_kernel_rfl) y

/-- What case A leaves in the value accumulator. -/
def sout1_A_0 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : cond1_0 i) (hc1 : ¬cond1_1 i)
    (x0 : Vec F S512x512 .f32) (x1 : Vec F S8192x512 .f32) (x2 : Vec F S8192x512 .bf16) : Vec F S512x512 .f32 :=
  VS1_0.read (Elt F) (VS1_0.writes (Elt F) VS1_0.junk (kernelRun1_A c i arg2 harg2 arg3 harg3 arg4 harg4 arg5 harg5 arg6 harg6 arg7 harg7 hc0 hc1 x0 x1 x2).2.1)

/-- Case A's pieces for the squared-score accumulator cover it. -/
theorem scover1_A_1 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : cond1_0 i) (hc1 : ¬cond1_1 i)
    (x0 : Vec F S512x512 .f32) (x1 : Vec F S8192x512 .f32) (x2 : Vec F S8192x512 .bf16) (y : S512x128.Idx) :
    ∃ pc ∈ (kernelRun1_A c i arg2 harg2 arg3 harg3 arg4 harg4 arg5 harg5 arg6 harg6 arg7 harg7 hc0 hc1 x0 x1 x2).2.2.1, y ∈ pc.1.set :=
  View.cover_of_tiledL (kernelRun1_A c i arg2 harg2 arg3 harg3 arg4 harg4 arg5 harg5 arg6 harg6 arg7 harg7 hc0 hc1 x0 x1 x2).2.2.1 S512x128.size (by sl_kernel_rfl) y

/-- What case A leaves in the squared-score accumulator. -/
def sout1_A_1 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : cond1_0 i) (hc1 : ¬cond1_1 i)
    (x0 : Vec F S512x512 .f32) (x1 : Vec F S8192x512 .f32) (x2 : Vec F S8192x512 .bf16) : Vec F S512x128 .f32 :=
  VS1_1.read (Elt F) (VS1_1.writes (Elt F) VS1_1.junk (kernelRun1_A c i arg2 harg2 arg3 harg3 arg4 harg4 arg5 harg5 arg6 harg6 arg7 harg7 hc0 hc1 x0 x1 x2).2.2.1)

/-- What case B leaves in the output window's buffer: its pieces read back (none: the window is idle there, and nothing consults this). -/
def out1_B_3 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : ¬cond1_1 i)
    (x0 : Vec F S512x512 .f32) (x1 : Vec F S8192x512 .f32) (x2 : Vec F S8192x512 .bf16) (xs0 : Vec F S512x512 .f32) (xs1 : Vec F S512x128 .f32) : Vec F S512x512 .f32 :=
  VO1_3.read (Elt F) (VO1_3.writes (Elt F) VO1_3.junk (kernelRun1_B c i arg2 harg2 arg3 harg3 arg4 harg4 arg5 harg5 arg6 harg6 arg7 harg7 hc0 hc1 x0 x1 x2 xs0 xs1).1)

/-- Case B's pieces for the value accumulator cover it. -/
theorem scover1_B_0 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : ¬cond1_1 i)
    (x0 : Vec F S512x512 .f32) (x1 : Vec F S8192x512 .f32) (x2 : Vec F S8192x512 .bf16) (xs0 : Vec F S512x512 .f32) (xs1 : Vec F S512x128 .f32) (y : S512x512.Idx) :
    ∃ pc ∈ (kernelRun1_B c i arg2 harg2 arg3 harg3 arg4 harg4 arg5 harg5 arg6 harg6 arg7 harg7 hc0 hc1 x0 x1 x2 xs0 xs1).2.1, y ∈ pc.1.set :=
  View.cover_of_tiledL (kernelRun1_B c i arg2 harg2 arg3 harg3 arg4 harg4 arg5 harg5 arg6 harg6 arg7 harg7 hc0 hc1 x0 x1 x2 xs0 xs1).2.1 S512x512.size (by sl_kernel_rfl) y

/-- What case B leaves in the value accumulator. -/
def sout1_B_0 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : ¬cond1_1 i)
    (x0 : Vec F S512x512 .f32) (x1 : Vec F S8192x512 .f32) (x2 : Vec F S8192x512 .bf16) (xs0 : Vec F S512x512 .f32) (xs1 : Vec F S512x128 .f32) : Vec F S512x512 .f32 :=
  VS1_0.read (Elt F) (VS1_0.writes (Elt F) VS1_0.junk (kernelRun1_B c i arg2 harg2 arg3 harg3 arg4 harg4 arg5 harg5 arg6 harg6 arg7 harg7 hc0 hc1 x0 x1 x2 xs0 xs1).2.1)

/-- Case B's pieces for the squared-score accumulator cover it. -/
theorem scover1_B_1 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : ¬cond1_1 i)
    (x0 : Vec F S512x512 .f32) (x1 : Vec F S8192x512 .f32) (x2 : Vec F S8192x512 .bf16) (xs0 : Vec F S512x512 .f32) (xs1 : Vec F S512x128 .f32) (y : S512x128.Idx) :
    ∃ pc ∈ (kernelRun1_B c i arg2 harg2 arg3 harg3 arg4 harg4 arg5 harg5 arg6 harg6 arg7 harg7 hc0 hc1 x0 x1 x2 xs0 xs1).2.2.1, y ∈ pc.1.set :=
  View.cover_of_tiledL (kernelRun1_B c i arg2 harg2 arg3 harg3 arg4 harg4 arg5 harg5 arg6 harg6 arg7 harg7 hc0 hc1 x0 x1 x2 xs0 xs1).2.2.1 S512x128.size (by sl_kernel_rfl) y

/-- What case B leaves in the squared-score accumulator. -/
def sout1_B_1 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : ¬cond1_1 i)
    (x0 : Vec F S512x512 .f32) (x1 : Vec F S8192x512 .f32) (x2 : Vec F S8192x512 .bf16) (xs0 : Vec F S512x512 .f32) (xs1 : Vec F S512x128 .f32) : Vec F S512x128 .f32 :=
  VS1_1.read (Elt F) (VS1_1.writes (Elt F) VS1_1.junk (kernelRun1_B c i arg2 harg2 arg3 harg3 arg4 harg4 arg5 harg5 arg6 harg6 arg7 harg7 hc0 hc1 x0 x1 x2 xs0 xs1).2.2.1)

/-- In the last case the output buffer's one stored piece covers it. -/
theorem cover1_C_3 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : cond1_1 i)
    (x0 : Vec F S512x512 .f32) (x1 : Vec F S8192x512 .f32) (x2 : Vec F S8192x512 .bf16) (xs0 : Vec F S512x512 .f32) (xs1 : Vec F S512x128 .f32) (y : S512x512.Idx) :
    ∃ pc ∈ (kernelRun1_C c i arg2 harg2 arg3 harg3 arg4 harg4 arg5 harg5 arg6 harg6 arg7 harg7 hc0 hc1 x0 x1 x2 xs0 xs1).1, y ∈ pc.1.set :=
  View.cover_of_tiledL (kernelRun1_C c i arg2 harg2 arg3 harg3 arg4 harg4 arg5 harg5 arg6 harg6 arg7 harg7 hc0 hc1 x0 x1 x2 xs0 xs1).1 S512x512.size (by sl_kernel_rfl) y

/-- What case C leaves in the output window's buffer: its pieces read back. -/
def out1_C_3 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : cond1_1 i)
    (x0 : Vec F S512x512 .f32) (x1 : Vec F S8192x512 .f32) (x2 : Vec F S8192x512 .bf16) (xs0 : Vec F S512x512 .f32) (xs1 : Vec F S512x128 .f32) : Vec F S512x512 .f32 :=
  VO1_3.read (Elt F) (VO1_3.writes (Elt F) VO1_3.junk (kernelRun1_C c i arg2 harg2 arg3 harg3 arg4 harg4 arg5 harg5 arg6 harg6 arg7 harg7 hc0 hc1 x0 x1 x2 xs0 xs1).1)

/-- Case C's pieces for the value accumulator cover it. -/
theorem scover1_C_0 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : cond1_1 i)
    (x0 : Vec F S512x512 .f32) (x1 : Vec F S8192x512 .f32) (x2 : Vec F S8192x512 .bf16) (xs0 : Vec F S512x512 .f32) (xs1 : Vec F S512x128 .f32) (y : S512x512.Idx) :
    ∃ pc ∈ (kernelRun1_C c i arg2 harg2 arg3 harg3 arg4 harg4 arg5 harg5 arg6 harg6 arg7 harg7 hc0 hc1 x0 x1 x2 xs0 xs1).2.1, y ∈ pc.1.set :=
  View.cover_of_tiledL (kernelRun1_C c i arg2 harg2 arg3 harg3 arg4 harg4 arg5 harg5 arg6 harg6 arg7 harg7 hc0 hc1 x0 x1 x2 xs0 xs1).2.1 S512x512.size (by sl_kernel_rfl) y

/-- What case C leaves in the value accumulator. -/
def sout1_C_0 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : cond1_1 i)
    (x0 : Vec F S512x512 .f32) (x1 : Vec F S8192x512 .f32) (x2 : Vec F S8192x512 .bf16) (xs0 : Vec F S512x512 .f32) (xs1 : Vec F S512x128 .f32) : Vec F S512x512 .f32 :=
  VS1_0.read (Elt F) (VS1_0.writes (Elt F) VS1_0.junk (kernelRun1_C c i arg2 harg2 arg3 harg3 arg4 harg4 arg5 harg5 arg6 harg6 arg7 harg7 hc0 hc1 x0 x1 x2 xs0 xs1).2.1)

/-- Case C's pieces for the squared-score accumulator cover it. -/
theorem scover1_C_1 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : cond1_1 i)
    (x0 : Vec F S512x512 .f32) (x1 : Vec F S8192x512 .f32) (x2 : Vec F S8192x512 .bf16) (xs0 : Vec F S512x512 .f32) (xs1 : Vec F S512x128 .f32) (y : S512x128.Idx) :
    ∃ pc ∈ (kernelRun1_C c i arg2 harg2 arg3 harg3 arg4 harg4 arg5 harg5 arg6 harg6 arg7 harg7 hc0 hc1 x0 x1 x2 xs0 xs1).2.2.1, y ∈ pc.1.set :=
  View.cover_of_tiledL (kernelRun1_C c i arg2 harg2 arg3 harg3 arg4 harg4 arg5 harg5 arg6 harg6 arg7 harg7 hc0 hc1 x0 x1 x2 xs0 xs1).2.2.1 S512x128.size (by sl_kernel_rfl) y

/-- What case C leaves in the squared-score accumulator. -/
def sout1_C_1 (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : cond1_1 i)
    (x0 : Vec F S512x512 .f32) (x1 : Vec F S8192x512 .f32) (x2 : Vec F S8192x512 .bf16) (xs0 : Vec F S512x512 .f32) (xs1 : Vec F S512x128 .f32) : Vec F S512x128 .f32 :=
  VS1_1.read (Elt F) (VS1_1.writes (Elt F) VS1_1.junk (kernelRun1_C c i arg2 harg2 arg3 harg3 arg4 harg4 arg5 harg5 arg6 harg6 arg7 harg7 hc0 hc1 x0 x1 x2 xs0 xs1).2.2.1)

section

variable (V : (c : Dev nD) → (b : Ref sig .tc) → Buf (Elt F) ((c : Thread nD τ).loc b))

/-! ## What the output buffer and the two accumulators hold after each point -/

/-- After the body at position `n`: the output window's buffer and the two accumulators, by recursion on the position —
    the case the position selects (by its remainder modulo 8), run at the point's memrefs and blocks, the accumulators
    taken from what the position before left. -/
def outsAt1 (c : Dev nD) : (n : ℕ) → n < cfg1.N → Vec F S512x512 .f32 × Vec F S512x512 .f32 × Vec F S512x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- At a first-tile position: that case's contents. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle position: that case's contents, over what the position before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last-tile position: that case's contents, over what the position before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant, with the accumulators named -/

/-- The other kernel's staging buffers, each at some contents: scoped buffers this kernel never touches. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The class's invariant opened: the other kernel's staging buffers, the two accumulators at some contents, the
    generator register at some state. -/
theorem PhiA1_in (c : Dev nD) :
    (Pipeline.ΦA spec1 c : sProp 𝕄) ⊢ iprop(others1 c ∗ (∃ d, owns (c : Thread nD τ) scM1_0 fullShare d) ∗ (∃ d, owns (c : Thread nD τ) scM1_1 fullShare d) ∗ (∃ r, prngReg c r)) := by
  unfold Pipeline.ΦA others1; rw [scopedRest1_eq]; simp only [scM1_0, scM1_1, owns_whole]
  iintro ⟨⟨R0, R1, R2, R3, R4, R5, R6, R7, R8, R9, R10, R11, R12, R13, HS0, HS1⟩, Hg⟩
  isplitl [R0 R1 R2 R3 R4 R5 R6 R7 R8 R9 R10 R11 R12 R13]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact R13
  isplitl [HS0]; · iexact HS0
  isplitl [HS1]; · iexact HS1
  iexact Hg

/-- And closed again. -/
theorem PhiA1_out (c : Dev nD) :
    iprop(others1 c ∗ (∃ d, owns (c : Thread nD τ) scM1_0 fullShare d) ∗ (∃ d, owns (c : Thread nD τ) scM1_1 fullShare d) ∗ (∃ r, prngReg c r)) ⊢ (Pipeline.ΦA spec1 c : sProp 𝕄) := by
  unfold Pipeline.ΦA others1; rw [scopedRest1_eq]; simp only [scM1_0, scM1_1, owns_whole]
  iintro ⟨⟨R0, R1, R2, R3, R4, R5, R6, R7, R8, R9, R10, R11, R12, R13⟩, HS0, HS1, Hg⟩
  isplitl [R0 R1 R2 R3 R4 R5 R6 R7 R8 R9 R10 R11 R12 R13 HS0 HS1]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [HS0]; · iexact HS0
    iexact HS1
  iexact Hg

/-- The invariant before position `n`: before the first point the class's (every scratch at anything); afterwards the
    other kernel's staging buffers, each accumulator at what the position before left in it, and the generator register. -/
def PhiS (c : Dev nD) : (n : ℕ) → n ≤ cfg1.N → sProp 𝕄
  | 0, _ => Pipeline.ΦA spec1 c
  | n + 1, hn => iprop(others1 c ∗ owns (c : Thread nD τ) scM1_0 fullShare ((outsAt1 V c n hn).2.1) ∗ owns (c : Thread nD τ) scM1_1 fullShare ((outsAt1 V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 c ∗ owns (c : Thread nD τ) scM1_0 fullShare ((outsAt1 V c n hn).2.1) ∗ owns (c : Thread nD τ) scM1_1 fullShare ((outsAt1 V c n hn).2.2) ∗ (∃ r, prngReg c r)) := rfl

theorem PhiS_pos (c : Dev nD) (n : ℕ) (h : n ≤ cfg1.N) (hz : n ≠ 0) :
    PhiS V c n h = iprop(others1 c ∗ owns (c : Thread nD τ) scM1_0 fullShare ((outsAt1 V c (n - 1) (by omega)).2.1) ∗ owns (c : Thread nD τ) scM1_1 fullShare ((outsAt1 V c (n - 1) (by omega)).2.2) ∗ (∃ r, prngReg c r)) := by
  cases n with
  | zero => exact absurd rfl hz
  | succ n => rfl

/-! ## The pipeline's proof data -/

/-- The proof data of the attention pipeline on core `c`: the arrays as the region finds them; after the body at point
    `t` each input's buffer at its block and the output's at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point.  The position's remainder modulo 8 says which case it is in; the invariant hands the body the
    accumulators at what the position before left (at anything before the first point) and takes them back at this
    position's contents; the idle output buffer is handed back untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := (PhiA1_in c) $$ HΦ
        icases HΦ' with ⟨HR, HS0, HS1, Hg⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨HR, HS0, HS1, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1; (try dsimp only)
      by_cases hz : t.val = 0
      · exfalso; omega
      · rw [PhiS_castSucc V c t, PhiS_pos V c _ _ hz]
        iintro ⟨⟨HR, HS0, HS1, Hg⟩, Ho, ⟨%d0, H0⟩, ⟨%d1, H1⟩, ⟨%d2, H2⟩, ⟨%d3, H3⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1; (try dsimp only)
      by_cases hz : t.val = 0
      · exfalso; omega
      · rw [PhiS_castSucc V c t, PhiS_pos V c _ _ hz]
        iintro ⟨⟨HR, HS0, HS1, Hg⟩, Ho, ⟨%d0, H0⟩, ⟨%d1, H1⟩, ⟨%d2, H2⟩, ⟨%d3, H3⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the accumulators' contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl, PhiS_pos V c _ _ hne]
  refine BIBase.Entails.trans ?_ (PhiA1_out c)
  iintro ⟨HR, HS0, HS1, Hg⟩
  isplitl [HR]; · iexact HR
  isplitl [HS0]; · iexists _; iexact HS0
  isplitl [HS1]; · iexists _; iexact HS1
  iexact Hg

end

end Cert.KernelIdeal.Hand

end
-- ==== Proof.KI.Run.lean ====
/-
  The whole run of the program: three reshapes on the host, the projection region, the attention region.  The buffers'
  contents are followed from the launch memory through each of the three: the reshapes' results, then what the
  projection region's write-backs leave in its three output arrays, then what the attention region's leave in its one.
  Every weakly fair execution terminates, and at the end every unscoped buffer holds the last of these contents; an
  argument array walks back through them to what it held at launch.
-/
import proofs.«150631_j57380763074621_2_alg».proof.Proof.KI.R0Frame
import proofs.«150631_j57380763074621_2_alg».proof.Proof.KI.R1Frame
import proofs.«150631_j57380763074621_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Wl : Dev nD → Valuation τ sig (Elt F) := fun c b => m (c, b)
/-- After the three reshapes (the projection region's entry). -/
abbrev Wh : Dev nD → Valuation τ sig (Elt F) := fun c => StableHlo.after hostOps0 (Wl m c)
abbrev Vh : (c : Dev nD) → (b : Ref sig .tc) → Buf (Elt F) ((c : Thread nD τ).loc b) := fun c b => Wh m c b
/-- At the projection region's exit: its arrays at what the pipeline leaves, every other buffer as entered. -/
def Wq (c : Dev nD) : Valuation τ sig (Elt F) :=
  Pipeline.withArrays spec0 c (Wh m c) fun w => (dat0 (Vh m) c).arrAt w cfg0.N
theorem Wq_arr (c : Dev nD) (w : Fin cfg0.W) :
    Wq m c (Proc.devRef .tc (Pipeline.arrRef spec0 w)) = (dat0 (Vh m) c).arrAt w cfg0.N := by
  unfold Wq; exact Pipeline.withArrays_arr spec0 launch0.win.arr_inj c _ _ w
theorem Wq_of_ne (c : Dev nD) (b : Ref sig .tc) (hb : ∀ w, Pipeline.arrRef spec0 w ≠ b) :
    Wq m c (Proc.devRef .tc b) = Wh m c (Proc.devRef .tc b) := by
  unfold Wq; exact Pipeline.withArrays_of_ne spec0 c _ _ b hb
abbrev Vq : (c : Dev nD) → (b : Ref sig .tc) → Buf (Elt F) ((c : Thread nD τ).loc b) := fun c b => Wq m c b
theorem hF0 (c : Dev nD) (w : Fin cfg0.W) : (dat0 (Vh m) c).arrAt w cfg0.N = Vq m c (Pipeline.arrRef spec0 w) :=
  (Wq_arr m c w).symm
theorem hrest0 (c : Dev nD) : ∀ b, b ∉ Finset.univ.image (Pipeline.arrRef spec0) → Vq m c b = Vh m c b :=
  fun b hb => Wq_of_ne m c b fun w e => hb (Finset.mem_image.mpr ⟨w, Finset.mem_univ _, e⟩)

/-- At the attention region's exit. -/
def Wo (c : Dev nD) : Valuation τ sig (Elt F) :=
  Pipeline.withArrays spec1 c (Wq m c) fun w => (dat1 (Vq m) c).arrAt w cfg1.N
theorem Wo_arr (c : Dev nD) (w : Fin cfg1.W) :
    Wo m c (Proc.devRef .tc (Pipeline.arrRef spec1 w)) = (dat1 (Vq m) c).arrAt w cfg1.N := by
  unfold Wo; exact Pipeline.withArrays_arr spec1 launch1.win.arr_inj c _ _ w
theorem Wo_of_ne (c : Dev nD) (b : Ref sig .tc) (hb : ∀ w, Pipeline.arrRef spec1 w ≠ b) :
    Wo m c (Proc.devRef .tc b) = Wq m c (Proc.devRef .tc b) := by
  unfold Wo; exact Pipeline.withArrays_of_ne spec1 c _ _ b hb
abbrev Vo : (c : Dev nD) → (b : Ref sig .tc) → Buf (Elt F) ((c : Thread nD τ).loc b) := fun c b => Wo m c b
theorem hF1 (c : Dev nD) (w : Fin cfg1.W) : (dat1 (Vq m) c).arrAt w cfg1.N = Vo m c (Pipeline.arrRef spec1 w) :=
  (Wo_arr m c w).symm
theorem hrest1 (c : Dev nD) : ∀ b, b ∉ Finset.univ.image (Pipeline.arrRef spec1) → Vo m c b = Vq m c b :=
  fun b hb => Wo_of_ne m c b fun w e => hb (Finset.mem_image.mpr ⟨w, Finset.mem_univ _, e⟩)

/-! ## The arguments end as launched -/

theorem Wo_main_arg0 (c : Dev nD) : Wo m c (Proc.devRef .tc main_arg0) = m ((c : Thread nD τ).loc main_arg0) :=
  calc Wo m c (Proc.devRef .tc main_arg0)
    _ = Wq m c (Proc.devRef .tc main_arg0) := Wo_of_ne m c main_arg0 (by decide)
    _ = Wh m c (Proc.devRef .tc main_arg0) := (Wq_arr m c 0).trans (((dat0 (Vh m) c).arrAt_in 0 rfl _).trans (A_eq0 (Vh m) c 0))
    _ = Wl m c (Proc.devRef .tc main_arg0) := Gen.V1_of m c main_arg0 (by decide)
    _ = m ((c : Thread nD τ).loc main_arg0) := rfl

theorem Wo_main_arg1 (c : Dev nD) : Wo m c (Proc.devRef .tc main_arg1) = m ((c : Thread nD τ).loc main_arg1) :=
  calc Wo m c (Proc.devRef .tc main_arg1)
    _ = Wq m c (Proc.devRef .tc main_arg1) := Wo_of_ne m c main_arg1 (by decide)
    _ = Wh m c (Proc.devRef .tc main_arg1) := (Wq_arr m c 1).trans (((dat0 (Vh m) c).arrAt_in 1 rfl _).trans (A_eq0 (Vh m) c 1))
    _ = Wl m c (Proc.devRef .tc main_arg1) := Gen.V1_of m c main_arg1 (by decide)
    _ = m ((c : Thread nD τ).loc main_arg1) := rfl

theorem Wo_main_arg2 (c : Dev nD) : Wo m c (Proc.devRef .tc main_arg2) = m ((c : Thread nD τ).loc main_arg2) :=
  calc Wo m c (Proc.devRef .tc main_arg2)
    _ = Wq m c (Proc.devRef .tc main_arg2) := Wo_of_ne m c main_arg2 (by decide)
    _ = Wh m c (Proc.devRef .tc main_arg2) := Wq_of_ne m c main_arg2 (by decide)
    _ = Wl m c (Proc.devRef .tc main_arg2) := Gen.V1_of m c main_arg2 (by decide)
    _ = m ((c : Thread nD τ).loc main_arg2) := rfl

theorem Wo_main_arg3 (c : Dev nD) : Wo m c (Proc.devRef .tc main_arg3) = m ((c : Thread nD τ).loc main_arg3) :=
  calc Wo m c (Proc.devRef .tc main_arg3)
    _ = Wq m c (Proc.devRef .tc main_arg3) := Wo_of_ne m c main_arg3 (by decide)
    _ = Wh m c (Proc.devRef .tc main_arg3) := (Wq_arr m c 3).trans (((dat0 (Vh m) c).arrAt_in 3 rfl _).trans (A_eq0 (Vh m) c 3))
    _ = Wl m c (Proc.devRef .tc main_arg3) := Gen.V1_of m c main_arg3 (by decide)
    _ = m ((c : Thread nD τ).loc main_arg3) := rfl

theorem Wo_main_arg4 (c : Dev nD) : Wo m c (Proc.devRef .tc main_arg4) = m ((c : Thread nD τ).loc main_arg4) :=
  calc Wo m c (Proc.devRef .tc main_arg4)
    _ = Wq m c (Proc.devRef .tc main_arg4) := Wo_of_ne m c main_arg4 (by decide)
    _ = Wh m c (Proc.devRef .tc main_arg4) := Wq_of_ne m c main_arg4 (by decide)
    _ = Wl m c (Proc.devRef .tc main_arg4) := Gen.V1_of m c main_arg4 (by decide)
    _ = m ((c : Thread nD τ).loc main_arg4) := rfl

theorem Wo_main_arg5 (c : Dev nD) : Wo m c (Proc.devRef .tc main_arg5) = m ((c : Thread nD τ).loc main_arg5) :=
  calc Wo m c (Proc.devRef .tc main_arg5)
    _ = Wq m c (Proc.devRef .tc main_arg5) := Wo_of_ne m c main_arg5 (by decide)
    _ = Wh m c (Proc.devRef .tc main_arg5) := (Wq_arr m c 5).trans (((dat0 (Vh m) c).arrAt_in 5 rfl _).trans (A_eq0 (Vh m) c 5))
    _ = Wl m c (Proc.devRef .tc main_arg5) := Gen.V1_of m c main_arg5 (by decide)
    _ = m ((c : Thread nD τ).loc main_arg5) := rfl

theorem Wo_main_arg6 (c : Dev nD) : Wo m c (Proc.devRef .tc main_arg6) = m ((c : Thread nD τ).loc main_arg6) :=
  calc Wo m c (Proc.devRef .tc main_arg6)
    _ = Wq m c (Proc.devRef .tc main_arg6) := Wo_of_ne m c main_arg6 (by decide)
    _ = Wh m c (Proc.devRef .tc main_arg6) := Wq_of_ne m c main_arg6 (by decide)
    _ = Wl m c (Proc.devRef .tc main_arg6) := Gen.V1_of m c main_arg6 (by decide)
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vh m) c
  | ⟨1, _⟩ => fun c => dat1 (Vq m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wo m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vh m) c).loose
  hwaits := Pipeline.hwaits_of_owed_zero _ _ _ _ L lv 0 fun _ _ => rfl
  pre c := iprop(StableHlo.held (c : Thread nD τ) (Pipeline.ucRefs τ sig) (Wh m c) ∗ R c)
  post c := iprop(StableHlo.held (c : Thread nD τ) (Pipeline.ucRefs τ sig) (Wq m c) ∗ R c)
  X c := iprop(∃ r, prngReg c r)
  Y c := iprop(∃ r, prngReg c r)
  Z c := Pipeline.unscopedRest (Ix := Unit) (Name := ℕ) (U := UR sig nD τ) (Lvl := ℕ) spec0 c (Vh m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vh m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vh m c) (Vq m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vq m) c).loose
  hwaits := Pipeline.hwaits_of_owed_zero _ _ _ _ L lv 1 fun _ _ => rfl
  pre c := iprop(StableHlo.held (c : Thread nD τ) (Pipeline.ucRefs τ sig) (Wq m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vq m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vq m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vq m) c)
    unfold Pipeline.ΦA
    iintro ⟨Hp, -, Hr⟩
    isplitl [Hr]; · iexact Hr
    iexact Hp
  hout c := by
    rw [Pipeline.ownSems0_none]
    refine BIBase.Entails.trans (hout1 (Vq m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vq m c) (Vo m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Wl m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters, every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wo m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl m c)
        from Pipeline.unscopedBufs_held c (Wl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wo m c b)
    (hfin := fun c s' => by
      iintro ⟨⟨Hh, -⟩, HSI⟩
      unfold StableHlo.held
      imodintro
      iapply (pointsTo_read_all (Pipeline.ucRefs τ sig) (fun b => (((c : Thread nD τ)).1, b)) (Wo m c) s')
      isplitl [Hh] <;> iassumption)
    (hQ := fun s h => h)

end Cert.KernelIdeal.Hand

end
-- ==== Proof.Spec.lean ====
/-
  The mathematics both programs compute, over the extended reals, with no program in sight.

  Three linear layers of the rows of `x` (row `n` against row `e` of a weight matrix, plus a bias) give the
  queries, keys and values.  The score of query `i` against key `j` is their inner product.  Each row of scores is
  divided by the larger of its Euclidean norm and a small constant, and the result multiplies the values.

  The kernel forms, for every row, the unnormalised product of the scores with the values and the sum of the
  squared scores, and divides once at the end (`outSum`).  The reference divides every score first and multiplies
  afterwards (`outNorm`).  With finite entries the two agree: the divisor of a row is one positive real, so dividing
  by it distributes over the finite sum.
-/
import Mathlib.Data.EReal.Inv
import Mathlib.Algebra.BigOperators.Group.Finset.Basic
import Idealize.ShloMosaic.PureOps.Ideal
import Idealize.ShloMosaic.Lib.ValueIdx

noncomputable section

namespace Cert.Attn

open Idealize.ShloMosaic Idealize.ShloMosaic.ValueIdx
open scoped BigOperators

/-- A matrix of extended reals by its two coordinates. -/
abbrev Mat (a b : ℕ) : Type := Fin a → Fin b → EReal

/-- An array of rank two read by coordinates. -/
def mat {a b : ℕ} (X : (⟨2, ![a, b]⟩ : Shape).Idx → EReal) : Mat a b := fun i j => X (ix2 i j)

/-- An array of rank one read by its coordinate. -/
def vec {a : ℕ} (X : (⟨1, ![a]⟩ : Shape).Idx → EReal) : Fin a → EReal := fun i => X (ix1 i)

/-- A linear layer: row `n` of `x` against row `e` of `W`, plus the bias at `e`. -/
def proj (x : Mat 8192 512) (W : Mat 512 512) (b : Fin 512 → EReal) : Mat 8192 512 :=
  fun n e => (∑ d : Fin 512, x n d * W e d) + b e

/-- The score of query `i` against key `j`: their inner product. -/
def score (q k : Mat 8192 512) : Mat 8192 8192 := fun i j => ∑ d : Fin 512, q i d * k j d

/-- The small constant below which a row's norm is not allowed to fall (the same word in both programs). -/
def eps : EReal := Ideal.ofBits .f32 0x2B8CBCCC#32

/-- The divisor of row `i`: the larger of the row's Euclidean norm and `eps`. -/
def denom (s : Mat 8192 8192) (i : Fin 8192) : EReal :=
  max (Ideal.sqrt (∑ j : Fin 8192, s i j * s i j)) eps

/-- Multiply first, divide once: the product of the scores with the values, divided by the row's divisor. -/
def outSum (s : Mat 8192 8192) (v : Mat 8192 512) : Mat 8192 512 :=
  fun i c => Ideal.div (∑ j : Fin 8192, s i j * v j c) (denom s i)

/-- Divide first, multiply afterwards: every score divided by its row's divisor, then the product with the values. -/
def outNorm (s : Mat 8192 8192) (v : Mat 8192 512) : Mat 8192 512 :=
  fun i c => ∑ j : Fin 8192, Ideal.div (s i j) (denom s i) * v j c

/-- The whole computation, multiplying first. -/
def attnSum (x : Mat 8192 512) (Wq : Mat 512 512) (bq : Fin 512 → EReal) (Wk : Mat 512 512) (bk : Fin 512 → EReal)
    (Wv : Mat 512 512) (bv : Fin 512 → EReal) : Mat 8192 512 :=
  outSum (score (proj x Wq bq) (proj x Wk bk)) (proj x Wv bv)

/-- The whole computation, dividing first. -/
def attnNorm (x : Mat 8192 512) (Wq : Mat 512 512) (bq : Fin 512 → EReal) (Wk : Mat 512 512) (bk : Fin 512 → EReal)
    (Wv : Mat 512 512) (bv : Fin 512 → EReal) : Mat 8192 512 :=
  outNorm (score (proj x Wq bq) (proj x Wk bk)) (proj x Wv bv)

end Cert.Attn

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.KI.R0Value.lean ====
/-
  What the projection kernel's region leaves in its three output arrays, read at an entry, at the ideal values.

  Every grid point t loads rows 1024·t … 1024·t + 1023 of the input, the three whole weight matrices and the three bias
  rows, and stores into block t of each output the product of its input rows with the transposed weight matrix plus the
  bias row: entry (p, e) of the block is Σ_d x(1024·t + p, d) · W(e, d) + b(0, e).  The eight blocks tile the 8192 rows,
  so entry (n, e) of each output array is the linear layer of the specification at (n, e); the rounding of the
  operands (and of the third result) to a narrower format is the identity on the extended reals.
-/
import proofs.«150631_j57380763074621_2_alg».proof.Proof.KI.R0Frame
import proofs.«150631_j57380763074621_2_alg».proof.Proof.Spec
import proofs.«150631_j57380763074621_2_alg».proof.Proof.LibPlainDot
import proofs.«150631_j57380763074621_2_alg».proof.Proof.LibUnitAxes
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's arithmetic at an entry -/

/-- The dimension numbers of the body's three products: the left operand's second axis against the right operand's first. -/
abbrev D0 : DotDims S1024x512 S512x512 S1024x512 := dot_S1024x512_S512x512_S1024x512_1_0_0_1_n_n

/-- The left operand's row is the result's row. -/
theorem D0_lhs0 (j : S1024x512.Idx) (q : D0.contr.Idx) : (D0.lhsIdx j q 0).val = (j 0).val := by
  unfold DotDims.lhsIdx
  rw [dif_neg (show ¬(0 : Fin S1024x512.rank) ∈ D0.lhsBatch by decide), dif_pos (show (0 : Fin S1024x512.rank) ∈ D0.lhsNonContracting by decide)]
  rfl

/-- The right operand's column is the result's column. -/
theorem D0_rhs1 (j : S1024x512.Idx) (q : D0.contr.Idx) : (D0.rhsIdx j q 1).val = (j 1).val := by
  unfold DotDims.rhsIdx
  rw [dif_neg (show ¬(1 : Fin S512x512.rank) ∈ D0.rhsBatch by decide), dif_pos (show (1 : Fin S512x512.rank) ∈ D0.rhsNonContracting by decide)]
  rfl

/-- One linear layer on a block: the rows of `x` against the transposed weight matrix, into a zero accumulator, plus
    the bias row spread over the rows. -/
def lin (x : Vec Ideal S1024x512 .f32) (W : Vec Ideal S512x512 .f32) (b : Vec Ideal S1x512 .f32) : FVec Ideal S1024x512 .f32 :=
  addf (matmul D0 none (truncf .bf16 x bitsLt_bf16_f32)
      (transpose S512x512 [1, 0] (truncf .bf16 W bitsLt_bf16_f32) transposes_S512x512_p1_0_S512x512)
      (constant S1024x512 .f32 0x00000000#32))
    (broadcastTo S1024x512 (shapeCast S1x512 b shapeCasts_S1x512_S1x512) broadcasts_S1x512_S1024x512)

theorem pay2_eq (x : Vec Ideal S1024x512 .f32) (W : Vec Ideal S512x512 .f32) (b : Vec Ideal S1x512 .f32) :
    k0_pay2 x W b = lin x W b := rfl
theorem pay3_eq (x : Vec Ideal S1024x512 .f32) (W : Vec Ideal S512x512 .f32) (b : Vec Ideal S1x512 .f32) :
    k0_pay3 x W b = lin x W b := rfl
theorem pay4_eq (x : Vec Ideal S1024x512 .f32) (W : Vec Ideal S512x512 .f32) (b : Vec Ideal S1x512 .f32) :
    k0_pay4 x W b = truncf .bf16 (lin x W b) bitsLt_bf16_f32 := rfl

/-- Entry (p, e) of the layer on a block: row p of `x` against row e of `W`, plus the bias at e. -/
theorem lin_apply (x : Vec Ideal S1024x512 .f32) (W : Vec Ideal S512x512 .f32) (b : Vec Ideal S1x512 .f32)
    (p : Fin 1024) (e : Fin 512) :
    lin x W b (ix2 p e) = (∑ d : Fin 512, x (ix2 p d) * W (ix2 e d)) + b (ix2 (0 : Fin 1) e) := by
  unfold lin
  refine (addf_apply _ _ (ix2 p e)).trans ?_
  refine congrArg₂ (· + ·) ?_ ?_
  · refine (Cert.LibPlainDot.matmul_zero_apply D0 rfl rfl rfl rfl D0_lhs0 D0_rhs1 none _ _ p e).trans ?_
    refine Finset.sum_congr rfl fun d _ => ?_
    refine congrArg₂ (· * ·) rfl ?_
    exact transpose_apply [1, 0] _ transposes_S512x512_p1_0_S512x512 (ix2 d e) (ix2 e d) (fun a => match a with
      | ⟨0, _⟩ => rfl
      | ⟨1, _⟩ => rfl)
  · refine (broadcastTo_1b_ab_apply _ broadcasts_S1x512_S1024x512 p e).trans ?_
    rw [shapeCast_self]

/-! ## The blocks as parts of the arrays -/

variable (V : (c : Dev nD) → (b : Ref sig .tc) → Buf (Elt Ideal) ((c : Thread nD τ).loc b))

theorem hz0 : (![0, 0] : Fin 2 → Nat) = fun _ => 0 := funext fun a => by fin_cases a <;> rfl

/-- The grid has eight points. -/
theorem lt8 (t : Fin cfg0.N) : t.val < 8 := lt_of_lt_of_eq t.isLt N_0

/-- The index maps over the grid: point t takes row block t of the input and of each output, and the one block of every
    weight matrix and bias row. -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)

/-- The input window's block at point t is rows 1024·t … 1024·t + 1023 of the input array. -/
theorem iblk0_0_apply (c : Dev nD) (t : Fin cfg0.N) (y : S1024x512.Idx) (k : S8192x512.Idx)
    (hk0 : (k 0).val = 1024 * t.val + (y 0).val) (hk1 : (k 1).val = (y 1).val) :
    (iblk0 V c 0 t : Vec Ideal S1024x512 .f32) y = (V c main_arg0 : S8192x512.Idx → EReal) k := by
  obtain ⟨h0, h1⟩ := idx0_0 t
  unfold iblk0
  rw [View.read_apply]
  show V c main_arg0 _ = V c main_arg0 _
  congr 1
  funext a
  apply Fin.ext
  match a with
  | ⟨0, _⟩ => show win0_0.index t (0 : Fin 2) * 1024 + 1 * (y 0).val = (k 0).val; rw [h0, hk0]; omega
  | ⟨1, _⟩ => show win0_0.index t (1 : Fin 2) * 512 + 1 * (y 1).val = (k 1).val; rw [h1, hk1]; omega

/-- Window 1's block at every point is its whole array. -/
theorem iblk0_1_eq (c : Dev nD) (t : Fin cfg0.N) :
    (iblk0 V c 1 t : Vec Ideal S512x512 .f32) = (V c main_arg1 : S512x512.Idx → EReal) := by
  obtain ⟨h0, h1⟩ := idx0_1 t
  funext y
  unfold iblk0
  rw [View.read_apply]
  show V c main_arg1 _ = V c main_arg1 y
  congr 1
  funext a
  apply Fin.ext
  match a with
  | ⟨0, _⟩ => show win0_1.index t (0 : Fin 2) * 512 + 1 * (y 0).val = (y 0).val; rw [h0]; omega
  | ⟨1, _⟩ => show win0_1.index t (1 : Fin 2) * 512 + 1 * (y 1).val = (y 1).val; rw [h1]; omega

/-- Window 2's block at every point is its whole array. -/
theorem iblk0_2_eq (c : Dev nD) (t : Fin cfg0.N) :
    (iblk0 V c 2 t : Vec Ideal S1x512 .f32) = (V c main_v0 : S1x512.Idx → EReal) := by
  obtain ⟨h0, h1⟩ := idx0_2 t
  funext y
  unfold iblk0
  rw [View.read_apply]
  show V c main_v0 _ = V c main_v0 y
  congr 1
  funext a
  apply Fin.ext
  match a with
  | ⟨0, _⟩ => show win0_2.index t (0 : Fin 2) * 1 + 1 * (y 0).val = (y 0).val; rw [h0]; omega
  | ⟨1, _⟩ => show win0_2.index t (1 : Fin 2) * 512 + 1 * (y 1).val = (y 1).val; rw [h1]; omega

/-- Window 3's block at every point is its whole array. -/
theorem iblk0_3_eq (c : Dev nD) (t : Fin cfg0.N) :
    (iblk0 V c 3 t : Vec Ideal S512x512 .f32) = (V c main_arg3 : S512x512.Idx → EReal) := by
  obtain ⟨h0, h1⟩ := idx0_3 t
  funext y
  unfold iblk0
  rw [View.read_apply]
  show V c main_arg3 _ = V c main_arg3 y
  congr 1
  funext a
  apply Fin.ext
  match a with
  | ⟨0, _⟩ => show win0_3.index t (0 : Fin 2) * 512 + 1 * (y 0).val = (y 0).val; rw [h0]; omega
  | ⟨1, _⟩ => show win0_3.index t (1 : Fin 2) * 512 + 1 * (y 1).val = (y 1).val; rw [h1]; omega

/-- Window 4's block at every point is its whole array. -/
theorem iblk0_4_eq (c : Dev nD) (t : Fin cfg0.N) :
    (iblk0 V c 4 t : Vec Ideal S1x512 .f32) = (V c main_v1 : S1x512.Idx → EReal) := by
  obtain ⟨h0, h1⟩ := idx0_4 t
  funext y
  unfold iblk0
  rw [View.read_apply]
  show V c main_v1 _ = V c main_v1 y
  congr 1
  funext a
  apply Fin.ext
  match a with
  | ⟨0, _⟩ => show win0_4.index t (0 : Fin 2) * 1 + 1 * (y 0).val = (y 0).val; rw [h0]; omega
  | ⟨1, _⟩ => show win0_4.index t (1 : Fin 2) * 512 + 1 * (y 1).val = (y 1).val; rw [h1]; omega

/-- Window 5's block at every point is its whole array. -/
theorem iblk0_5_eq (c : Dev nD) (t : Fin cfg0.N) :
    (iblk0 V c 5 t : Vec Ideal S512x512 .f32) = (V c main_arg5 : S512x512.Idx → EReal) := by
  obtain ⟨h0, h1⟩ := idx0_5 t
  funext y
  unfold iblk0
  rw [View.read_apply]
  show V c main_arg5 _ = V c main_arg5 y
  congr 1
  funext a
  apply Fin.ext
  match a with
  | ⟨0, _⟩ => show win0_5.index t (0 : Fin 2) * 512 + 1 * (y 0).val = (y 0).val; rw [h0]; omega
  | ⟨1, _⟩ => show win0_5.index t (1 : Fin 2) * 512 + 1 * (y 1).val = (y 1).val; rw [h1]; omega

/-- Window 6's block at every point is its whole array. -/
theorem iblk0_6_eq (c : Dev nD) (t : Fin cfg0.N) :
    (iblk0 V c 6 t : Vec Ideal S1x512 .f32) = (V c main_v2 : S1x512.Idx → EReal) := by
  obtain ⟨h0, h1⟩ := idx0_6 t
  funext y
  unfold iblk0
  rw [View.read_apply]
  show V c main_v2 _ = V c main_v2 y
  congr 1
  funext a
  apply Fin.ext
  match a with
  | ⟨0, _⟩ => show win0_6.index t (0 : Fin 2) * 1 + 1 * (y 0).val = (y 0).val; rw [h0]; omega
  | ⟨1, _⟩ => show win0_6.index t (1 : Fin 2) * 512 + 1 * (y 1).val = (y 1).val; rw [h1]; omega

/-! ## From blocks to the arrays -/

/-- The linear layer of the specification as one array: entry (n, e) from the input, a weight matrix and a bias row. -/
def G (X : S8192x512.Idx → EReal) (W : S512x512.Idx → EReal) (b : S1x512.Idx → EReal) : S8192x512.Idx → EReal :=
  fun i => Cert.Attn.proj (Cert.Attn.mat X) (Cert.Attn.mat W) (fun e => b (ix2 (0 : Fin 1) e)) (i 0) (i 1)

/-- Entry (p, e) of the layer on block t of the input is entry (1024·t + p, e) of the layer on the whole input. -/
theorem lin_block (c : Dev nD) (t : Fin cfg0.N) (W : S512x512.Idx → EReal) (b : S1x512.Idx → EReal)
    (p : Fin 1024) (e : Fin 512) (i : S8192x512.Idx) (hi0 : (i 0).val = 1024 * t.val + p.val) (hi1 : (i 1).val = e.val) :
    lin (iblk0 V c 0 t) W b (ix2 p e) = G (V c main_arg0) W b i := by
  refine (lin_apply (iblk0 V c 0 t) W b p e).trans ?_
  have e1 : (i 1 : Fin 512) = e := Fin.ext hi1
  unfold G Cert.Attn.proj Cert.Attn.mat
  refine congrArg₂ (· + ·) (Finset.sum_congr rfl fun d _ => congrArg₂ (· * ·) ?_ ?_) ?_
  · exact iblk0_0_apply V c t (ix2 p d) (ix2 (i 0) d) hi0 rfl
  · show W (ix2 e d) = W (ix2 (i 1 : Fin 512) d); rw [e1]
  · show b (ix2 (0 : Fin 1) e) = b (ix2 (0 : Fin 1) (i 1 : Fin 512)); rw [e1]

/-! ### Output window 7 -/

/-- What point t writes back to window 7's array is block t of the layer on the whole input. -/
theorem flushed7_eq (c : Dev nD) (t : Fin cfg0.N) :
    (dat0 V c).flushed 7 t = ((cfg0.win 7).blk t).view.read (Elt Ideal) (G (V c main_arg0) (V c main_arg1) (V c main_v0)) := by
  show (cfg0.win 7).cut (grid0.coords t) ((dat0 V c).after 7 t) = _
  rw [after0_7]
  unfold out0_7
  rw [View.canon_unit_zero hz0]
  simp only [View.ld_unit_zero (S := S1024x512) hz0, View.ld_unit_zero (S := S512x512) hz0, View.ld_unit_zero (S := S1x512) hz0]
  rw [pay2_eq, iblk0_1_eq V c t, iblk0_2_eq V c t]
  obtain ⟨h0, h1⟩ := idx0_7 t
  funext j
  obtain ⟨p, e, rfl⟩ : ∃ (p : Fin 1024) (e : Fin 512), j = ix2 p e := ⟨j 0, j 1, eq_ix2 j⟩
  show lin (iblk0 V c 0 t) (V c main_arg1) (V c main_v0) (ix2 p e) = G (V c main_arg0) (V c main_arg1) (V c main_v0) (((cfg0.win 7).blk t).view.emb (ix2 p e))
  refine lin_block V c t _ _ p e _ ?_ ?_
  · show win0_7.index t (0 : Fin 2) * 1024 + 1 * p.val = 1024 * t.val + p.val; rw [h0]; omega
  · show win0_7.index t (1 : Fin 2) * 512 + 1 * e.val = e.val; rw [h1]; omega

/-- An entry of the array is in point t's block when each coordinate is in the block's range on its axis. -/
theorem mem_blk7 (t : Fin cfg0.N) (i : S8192x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v3_0).slice (win0_7.rect t)).set ↔ _
  rw [View.set_slice_whole, Rect.mem_set_unit]
  exact Iff.rfl

/-- Row n of the array is in the block of point n / 1024: the eight blocks cover the array. -/
theorem cover7 (i : S8192x512.Idx) :
    ∃ t : Fin cfg0.N, (cfg0.win 7).flush t = true ∧ i ∈ ((cfg0.win 7).blk t).view.set := by
  have hi0 : (i 0).val < 8192 := (i 0).isLt
  have hi1 : (i 1).val < 512 := (i 1).isLt
  obtain ⟨t, ht⟩ : ∃ t : Fin cfg0.N, t.val = (i 0).val / 1024 :=
    ⟨⟨(i 0).val / 1024, by rw [show cfg0.N = 8 from N_0]; omega⟩, rfl⟩
  obtain ⟨h0, h1⟩ := idx0_7 t
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; rw [h0, ht]; omega
  | ⟨1, _⟩ => show win0_7.index t (1 : Fin 2) * 512 ≤ (i 1).val ∧ (i 1).val < win0_7.index t (1 : Fin 2) * 512 + 512; rw [h1]; omega

/-- The array after the region: the layer on the whole input. -/
theorem final7 (c : Dev nD) : (dat0 V c).arrAt 7 cfg0.N = G (V c main_arg0) (V c main_arg1) (V c main_v0) :=
  (dat0 V c).arrAt_eq_of_cover 7 (G (V c main_arg0) (V c main_arg1) (V c main_v0)) (fun t _ => flushed7_eq V c t) cover7

/-- Entry (n, e) of window 7's array after the region. -/
theorem q_apply (c : Dev nD) (n : Fin 8192) (e : Fin 512) :
    (dat0 (F := Ideal) V c).arrAt 7 cfg0.N (ix2 n e)
      = Cert.Attn.proj (Cert.Attn.mat (V c main_arg0)) (Cert.Attn.mat (V c main_arg1)) (fun e => V c main_v0 (ix2 (0 : Fin 1) e)) n e :=
  (congrFun (final7 V c) (ix2 n e)).trans rfl

/-! ### Output window 8 -/

/-- What point t writes back to window 8's array is block t of the layer on the whole input. -/
theorem flushed8_eq (c : Dev nD) (t : Fin cfg0.N) :
    (dat0 V c).flushed 8 t = ((cfg0.win 8).blk t).view.read (Elt Ideal) (G (V c main_arg0) (V c main_arg3) (V c main_v1)) := by
  show (cfg0.win 8).cut (grid0.coords t) ((dat0 V c).after 8 t) = _
  rw [after0_8]
  unfold out0_8
  rw [View.canon_unit_zero hz0]
  simp only [View.ld_unit_zero (S := S1024x512) hz0, View.ld_unit_zero (S := S512x512) hz0, View.ld_unit_zero (S := S1x512) hz0]
  rw [pay3_eq, iblk0_3_eq V c t, iblk0_4_eq V c t]
  obtain ⟨h0, h1⟩ := idx0_8 t
  funext j
  obtain ⟨p, e, rfl⟩ : ∃ (p : Fin 1024) (e : Fin 512), j = ix2 p e := ⟨j 0, j 1, eq_ix2 j⟩
  show lin (iblk0 V c 0 t) (V c main_arg3) (V c main_v1) (ix2 p e) = G (V c main_arg0) (V c main_arg3) (V c main_v1) (((cfg0.win 8).blk t).view.emb (ix2 p e))
  refine lin_block V c t _ _ p e _ ?_ ?_
  · show win0_8.index t (0 : Fin 2) * 1024 + 1 * p.val = 1024 * t.val + p.val; rw [h0]; omega
  · show win0_8.index t (1 : Fin 2) * 512 + 1 * e.val = e.val; rw [h1]; omega

/-- An entry of the array is in point t's block when each coordinate is in the block's range on its axis. -/
theorem mem_blk8 (t : Fin cfg0.N) (i : S8192x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v3_1).slice (win0_8.rect t)).set ↔ _
  rw [View.set_slice_whole, Rect.mem_set_unit]
  exact Iff.rfl

/-- Row n of the array is in the block of point n / 1024: the eight blocks cover the array. -/
theorem cover8 (i : S8192x512.Idx) :
    ∃ t : Fin cfg0.N, (cfg0.win 8).flush t = true ∧ i ∈ ((cfg0.win 8).blk t).view.set := by
  have hi0 : (i 0).val < 8192 := (i 0).isLt
  have hi1 : (i 1).val < 512 := (i 1).isLt
  obtain ⟨t, ht⟩ : ∃ t : Fin cfg0.N, t.val = (i 0).val / 1024 :=
    ⟨⟨(i 0).val / 1024, by rw [show cfg0.N = 8 from N_0]; omega⟩, rfl⟩
  obtain ⟨h0, h1⟩ := idx0_8 t
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; rw [h0, ht]; omega
  | ⟨1, _⟩ => show win0_8.index t (1 : Fin 2) * 512 ≤ (i 1).val ∧ (i 1).val < win0_8.index t (1 : Fin 2) * 512 + 512; rw [h1]; omega

/-- The array after the region: the layer on the whole input. -/
theorem final8 (c : Dev nD) : (dat0 V c).arrAt 8 cfg0.N = G (V c main_arg0) (V c main_arg3) (V c main_v1) :=
  (dat0 V c).arrAt_eq_of_cover 8 (G (V c main_arg0) (V c main_arg3) (V c main_v1)) (fun t _ => flushed8_eq V c t) cover8

/-- Entry (n, e) of window 8's array after the region. -/
theorem k_apply (c : Dev nD) (n : Fin 8192) (e : Fin 512) :
    (dat0 (F := Ideal) V c).arrAt 8 cfg0.N (ix2 n e)
      = Cert.Attn.proj (Cert.Attn.mat (V c main_arg0)) (Cert.Attn.mat (V c main_arg3)) (fun e => V c main_v1 (ix2 (0 : Fin 1) e)) n e :=
  (congrFun (final8 V c) (ix2 n e)).trans rfl

/-! ### Output window 9 -/

/-- What point t writes back to window 9's array is block t of the layer on the whole input. -/
theorem flushed9_eq (c : Dev nD) (t : Fin cfg0.N) :
    (dat0 V c).flushed 9 t = ((cfg0.win 9).blk t).view.read (Elt Ideal) (G (V c main_arg0) (V c main_arg5) (V c main_v2)) := by
  show (cfg0.win 9).cut (grid0.coords t) ((dat0 V c).after 9 t) = _
  rw [after0_9]
  unfold out0_9
  rw [View.canon_unit_zero hz0]
  simp only [View.ld_unit_zero (S := S1024x512) hz0, View.ld_unit_zero (S := S512x512) hz0, View.ld_unit_zero (S := S1x512) hz0]
  rw [pay4_eq, iblk0_5_eq V c t, iblk0_6_eq V c t]
  obtain ⟨h0, h1⟩ := idx0_9 t
  funext j
  obtain ⟨p, e, rfl⟩ : ∃ (p : Fin 1024) (e : Fin 512), j = ix2 p e := ⟨j 0, j 1, eq_ix2 j⟩
  show lin (iblk0 V c 0 t) (V c main_arg5) (V c main_v2) (ix2 p e) = G (V c main_arg0) (V c main_arg5) (V c main_v2) (((cfg0.win 9).blk t).view.emb (ix2 p e))
  refine lin_block V c t _ _ p e _ ?_ ?_
  · show win0_9.index t (0 : Fin 2) * 1024 + 1 * p.val = 1024 * t.val + p.val; rw [h0]; omega
  · show win0_9.index t (1 : Fin 2) * 512 + 1 * e.val = e.val; rw [h1]; omega

/-- An entry of the array is in point t's block when each coordinate is in the block's range on its axis. -/
theorem mem_blk9 (t : Fin cfg0.N) (i : S8192x512.Idx) :
    i ∈ ((cfg0.win 9).blk t).view.set ↔ ∀ a : Fin 2, win0_9.index t a * S1024x512.size a ≤ (i a).val ∧ (i a).val < win0_9.index t a * S1024x512.size a + S1024x512.size a := by
  show i ∈ ((View.whole main_v3_2).slice (win0_9.rect t)).set ↔ _
  rw [View.set_slice_whole, Rect.mem_set_unit]
  exact Iff.rfl

/-- Row n of the array is in the block of point n / 1024: the eight blocks cover the array. -/
theorem cover9 (i : S8192x512.Idx) :
    ∃ t : Fin cfg0.N, (cfg0.win 9).flush t = true ∧ i ∈ ((cfg0.win 9).blk t).view.set := by
  have hi0 : (i 0).val < 8192 := (i 0).isLt
  have hi1 : (i 1).val < 512 := (i 1).isLt
  obtain ⟨t, ht⟩ : ∃ t : Fin cfg0.N, t.val = (i 0).val / 1024 :=
    ⟨⟨(i 0).val / 1024, by rw [show cfg0.N = 8 from N_0]; omega⟩, rfl⟩
  obtain ⟨h0, h1⟩ := idx0_9 t
  refine ⟨t, flush0_9 t, ?_⟩
  rw [mem_blk9]
  intro a
  match a with
  | ⟨0, _⟩ => show win0_9.index t (0 : Fin 2) * 1024 ≤ (i 0).val ∧ (i 0).val < win0_9.index t (0 : Fin 2) * 1024 + 1024; rw [h0, ht]; omega
  | ⟨1, _⟩ => show win0_9.index t (1 : Fin 2) * 512 ≤ (i 1).val ∧ (i 1).val < win0_9.index t (1 : Fin 2) * 512 + 512; rw [h1]; omega

/-- The array after the region: the layer on the whole input. -/
theorem final9 (c : Dev nD) : (dat0 V c).arrAt 9 cfg0.N = G (V c main_arg0) (V c main_arg5) (V c main_v2) :=
  (dat0 V c).arrAt_eq_of_cover 9 (G (V c main_arg0) (V c main_arg5) (V c main_v2)) (fun t _ => flushed9_eq V c t) cover9

/-- Entry (n, e) of window 9's array after the region. -/
theorem v_apply (c : Dev nD) (n : Fin 8192) (e : Fin 512) :
    (dat0 (F := Ideal) V c).arrAt 9 cfg0.N (ix2 n e)
      = Cert.Attn.proj (Cert.Attn.mat (V c main_arg0)) (Cert.Attn.mat (V c main_arg5)) (fun e => V c main_v2 (ix2 (0 : Fin 1) e)) n e :=
  (congrFun (final9 V c) (ix2 n e)).trans rfl

/-! ## The input arrays are kept -/

/-- No write-back touches an input window's array. -/
theorem in_kept (c : Dev nD) (w : Fin cfg0.W) (hw : w.val < 7) :
    (dat0 (F := Ideal) V c).arrAt w cfg0.N = V c (Pipeline.arrRef spec0 w) := by
  have hin : ∀ w : Fin cfg0.W, w.val < 7 → (cfg0.win w).isOut = false := by decide
  exact ((dat0 V c).arrAt_in w (hin w hw) _).trans (A_eq0 V c w)

end Cert.KernelIdeal.Hand

end
-- ==== Proof.KI.Value.lean ====
/-
  The kernel's result as a function of the launch memory.

  The attention region leaves, in the result array, the "multiply first" arrangement of the scores of its first two
  operands with its third.  Those three operands are what the projection region left: the three linear layers of the
  input rows, each with its weight matrix and its bias row.  The bias rows are the bias arrays recast with a leading
  unit axis, which moves no element, and the input and the weights are as launched.
-/
import proofs.«150631_j57380763074621_2_alg».proof.Proof.KI.Run
import proofs.«150631_j57380763074621_2_alg».proof.Proof.KI.R0Value
import proofs.«150631_j57380763074621_2_alg».proof.Proof.Spec
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-! ## The projection region's operands, from the launch memory -/

/-- The first bias row is the first bias array, recast. -/
theorem Vh_main_v0 (c : Dev nD) (e : Fin 512) :
    Vh m c main_v0 (ix2 (0 : Fin 1) e) = Cert.Attn.vec (m ((c : Thread nD τ).loc main_arg2)) e := by
  have h : (Vh m c main_v0 : S1x512.Idx → EReal)
      = shapeCast S1x512 (m ((c : Thread nD τ).loc main_arg2)) shapeCasts_S512_S1x512 := by
    dsimp only [Vh, Wh, hostOps0]; after_results; rfl
  rw [h]
  exact shapeCast_a_1a_apply _ _ _ _

/-- The second bias row is the second bias array, recast. -/
theorem Vh_main_v1 (c : Dev nD) (e : Fin 512) :
    Vh m c main_v1 (ix2 (0 : Fin 1) e) = Cert.Attn.vec (m ((c : Thread nD τ).loc main_arg4)) e := by
  have h : (Vh m c main_v1 : S1x512.Idx → EReal)
      = shapeCast S1x512 (m ((c : Thread nD τ).loc main_arg4)) shapeCasts_S512_S1x512 := by
    dsimp only [Vh, Wh, hostOps0]; after_results; rfl
  rw [h]
  exact shapeCast_a_1a_apply _ _ _ _

/-- The third bias row is the third bias array, recast. -/
theorem Vh_main_v2 (c : Dev nD) (e : Fin 512) :
    Vh m c main_v2 (ix2 (0 : Fin 1) e) = Cert.Attn.vec (m ((c : Thread nD τ).loc main_arg6)) e := by
  have h : (Vh m c main_v2 : S1x512.Idx → EReal)
      = shapeCast S1x512 (m ((c : Thread nD τ).loc main_arg6)) shapeCasts_S512_S1x512 := by
    dsimp only [Vh, Wh, hostOps0]; after_results; rfl
  rw [h]
  exact shapeCast_a_1a_apply _ _ _ _

/-- The input rows enter the projection region as launched. -/
theorem Vh_main_arg0 (c : Dev nD) : Vh m c main_arg0 = m ((c : Thread nD τ).loc main_arg0) :=
  Gen.V1_of m c main_arg0 (by decide)
/-- The first weight matrix enters the projection region as launched. -/
theorem Vh_main_arg1 (c : Dev nD) : Vh m c main_arg1 = m ((c : Thread nD τ).loc main_arg1) :=
  Gen.V1_of m c main_arg1 (by decide)
/-- The second weight matrix enters the projection region as launched. -/
theorem Vh_main_arg3 (c : Dev nD) : Vh m c main_arg3 = m ((c : Thread nD τ).loc main_arg3) :=
  Gen.V1_of m c main_arg3 (by decide)
/-- The third weight matrix enters the projection region as launched. -/
theorem Vh_main_arg5 (c : Dev nD) : Vh m c main_arg5 = m ((c : Thread nD τ).loc main_arg5) :=
  Gen.V1_of m c main_arg5 (by decide)

/-! ## What the projection region leaves -/

/-- The queries the projection region leaves: the first linear layer of the launched input. -/
theorem Vq_main_v3_0 (c : Dev nD) :
    Cert.Attn.mat (Vq m c main_v3_0)
      = Cert.Attn.proj (Cert.Attn.mat (m ((c : Thread nD τ).loc main_arg0))) (Cert.Attn.mat (m ((c : Thread nD τ).loc main_arg1)))
          (Cert.Attn.vec (m ((c : Thread nD τ).loc main_arg2))) := by
  funext n e
  have h7 : Vq m c main_v3_0 = (dat0 (Vh m) c).arrAt 7 cfg0.N := Wq_arr m c 7
  show Vq m c main_v3_0 (ix2 n e) = _
  rw [h7, q_apply (Vh m) c n e, Vh_main_arg0, Vh_main_arg1]
  exact congrArg (fun b => Cert.Attn.proj _ _ b n e) (funext fun e' => Vh_main_v0 m c e')

/-- The keys the projection region leaves: the second linear layer of the launched input. -/
theorem Vq_main_v3_1 (c : Dev nD) :
    Cert.Attn.mat (Vq m c main_v3_1)
      = Cert.Attn.proj (Cert.Attn.mat (m ((c : Thread nD τ).loc main_arg0))) (Cert.Attn.mat (m ((c : Thread nD τ).loc main_arg3)))
          (Cert.Attn.vec (m ((c : Thread nD τ).loc main_arg4))) := by
  funext n e
  have h8 : Vq m c main_v3_1 = (dat0 (Vh m) c).arrAt 8 cfg0.N := Wq_arr m c 8
  show Vq m c main_v3_1 (ix2 n e) = _
  rw [h8, k_apply (Vh m) c n e, Vh_main_arg0, Vh_main_arg3]
  exact congrArg (fun b => Cert.Attn.proj _ _ b n e) (funext fun e' => Vh_main_v1 m c e')

/-- The values the projection region leaves: the third linear layer of the launched input. -/
theorem Vq_main_v3_2 (c : Dev nD) :
    Cert.Attn.mat (Vq m c main_v3_2)
      = Cert.Attn.proj (Cert.Attn.mat (m ((c : Thread nD τ).loc main_arg0))) (Cert.Attn.mat (m ((c : Thread nD τ).loc main_arg5)))
          (Cert.Attn.vec (m ((c : Thread nD τ).loc main_arg6))) := by
  funext n e
  have h9 : Vq m c main_v3_2 = (dat0 (Vh m) c).arrAt 9 cfg0.N := Wq_arr m c 9
  show Vq m c main_v3_2 (ix2 n e) = _
  rw [h9, v_apply (Vh m) c n e, Vh_main_arg0, Vh_main_arg5]
  exact congrArg (fun b => Cert.Attn.proj _ _ b n e) (funext fun e' => Vh_main_v2 m c e')

/-! ## The result, with the attention region's value assumed in the form its value module states it -/

section
variable
  (hout : ∀ (V : (c : Dev nD) → (b : Ref sig .tc) → Buf (Elt Ideal) ((c : Thread nD τ).loc b)) (c : Dev nD) (n : Fin 8192) (e : Fin 512),
    (dat1 (F := Ideal) V c).arrAt 3 cfg1.N (ix2 n e)
      = Cert.Attn.outSum (Cert.Attn.score (Cert.Attn.mat (V c main_v3_0)) (Cert.Attn.mat (V c main_v3_1))) (Cert.Attn.mat (V c main_v3_2)) n e)

include hout in
/-- The result array at the end: the "multiply first" arrangement of the launched inputs. -/
theorem kernel_value (c : Dev nD) (n : Fin 8192) (e : Fin 512) :
    Wo (F := Ideal) m c (Proc.devRef .tc main_v4) (ix2 n e)
      = Cert.Attn.attnSum (Cert.Attn.mat (m ((c : Thread nD τ).loc main_arg0))) (Cert.Attn.mat (m ((c : Thread nD τ).loc main_arg1))) (Cert.Attn.vec (m ((c : Thread nD τ).loc main_arg2))) (Cert.Attn.mat (m ((c : Thread nD τ).loc main_arg3))) (Cert.Attn.vec (m ((c : Thread nD τ).loc main_arg4))) (Cert.Attn.mat (m ((c : Thread nD τ).loc main_arg5))) (Cert.Attn.vec (m ((c : Thread nD τ).loc main_arg6))) n e := by
  have h3 : Wo (F := Ideal) m c (Proc.devRef .tc main_v4) = (dat1 (Vq m) c).arrAt 3 cfg1.N := Wo_arr m c 3
  rw [h3, hout (Vq m) c n e, Vq_main_v3_0 m c, Vq_main_v3_1 m c, Vq_main_v3_2 m c]
  rfl

end

end Cert.KernelIdeal.Hand

end
-- ==== Proof.KI.R1Cover.lean ====
/-
  From blocks to the array, for the attention kernel's output.

  The output array has 8192 rows in 16 row blocks of 512.  The grid's position t = 8·i + j visits query tile i and key
  tile j; the output window's block at t is row block i = t / 8, and it is written back only at the positions with
  j = 7.  So row n of the array is written exactly once, by the position 8·(n / 512) + 7, with row n mod 512 of what
  the body left in the window's buffer there.  If at every such position the buffer holds the rows 512·i … 512·i + 511
  of one array G, the output array ends holding G.  The three input arrays are never written.
-/
import proofs.«150631_j57380763074621_2_alg».proof.Proof.KI.R1Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The grid has 128 positions. -/
theorem lt128 (t : Fin cfg1.N) : t.val < 128 := lt_of_lt_of_eq t.isLt N_1

/-- The output window's index map over the grid: position t takes row block t / 8, the one column block. -/
theorem idx1_3 : ∀ t : Fin cfg1.N, win1_3.index t (0 : Fin 2) = t.val / 8 ∧ win1_3.index t (1 : Fin 2) = 0 :=
  (by decide +kernel : ∀ t : Fin grid1.N, _)

/-- What a writing position t writes back is block t / 8 of G, when the buffer there holds those rows of G. -/
theorem flushed1_3_eq (c : Dev nD) (G : S8192x512.Idx → EReal)
    (H : ∀ (t : Fin cfg1.N), t.val % 8 = 7 → ∀ (r e : Fin 512) (n : Fin 8192), n.val = 512 * (t.val / 8) + r.val →
      (outsAt1 (F := Ideal) V c t.val t.isLt).1 (ix2 r e) = G (ix2 n e))
    (t : Fin cfg1.N) (hf : (cfg1.win 3).flush t = true) :
    (dat1 V c).flushed 3 t = ((cfg1.win 3).blk t).view.read (Elt Ideal) G := by
  have h7 : t.val % 8 = 7 := (flush1_3 t).mp hf
  have ht : t.val < 128 := lt128 t
  obtain ⟨h0, h1⟩ := idx1_3 t
  show (cfg1.win 3).cut (grid1.coords t) ((dat1 V c).after 3 t) = _
  rw [after1_3]
  funext j
  obtain ⟨r, e, rfl⟩ : ∃ (r : Fin 512) (e : Fin 512), j = ix2 r e := ⟨j 0, j 1, eq_ix2 j⟩
  show (outsAt1 V c t.val t.isLt).1 (ix2 r e) = G (((cfg1.win 3).blk t).view.emb (ix2 r e))
  have hemb : ((cfg1.win 3).blk t).view.emb (ix2 r e)
      = ix2 (⟨512 * (t.val / 8) + r.val, by have := r.isLt; omega⟩ : Fin 8192) e := by
    funext a
    apply Fin.ext
    match a with
    | ⟨0, _⟩ => show win1_3.index t (0 : Fin 2) * 512 + 1 * r.val = 512 * (t.val / 8) + r.val; rw [h0]; omega
    | ⟨1, _⟩ => show win1_3.index t (1 : Fin 2) * 512 + 1 * e.val = e.val; rw [h1]; omega
  rw [hemb]
  exact H t h7 r e _ rfl

/-- An entry of the array is in position t's block when each coordinate is in the block's range on its axis. -/
theorem mem_blk1_3 (t : Fin cfg1.N) (i : S8192x512.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v4).slice (win1_3.rect t)).set ↔ _
  rw [View.set_slice_whole, Rect.mem_set_unit]
  exact Iff.rfl

/-- Row n is in the block of the writing position 8·(n / 512) + 7: the sixteen written blocks cover the array. -/
theorem cover1_3 (i : S8192x512.Idx) :
    ∃ t : Fin cfg1.N, (cfg1.win 3).flush t = true ∧ i ∈ ((cfg1.win 3).blk t).view.set := by
  have hi0 : (i 0).val < 8192 := (i 0).isLt
  have hi1 : (i 1).val < 512 := (i 1).isLt
  obtain ⟨t, ht⟩ : ∃ t : Fin cfg1.N, t.val = 8 * ((i 0).val / 512) + 7 :=
    ⟨⟨8 * ((i 0).val / 512) + 7, by rw [show cfg1.N = 128 from N_1]; omega⟩, rfl⟩
  obtain ⟨h0, h1⟩ := idx1_3 t
  refine ⟨t, (flush1_3 t).mpr (by rw [ht]; omega), ?_⟩
  rw [mem_blk1_3]
  intro a
  match a with
  | ⟨0, _⟩ => show win1_3.index t (0 : Fin 2) * 512 ≤ (i 0).val ∧ (i 0).val < win1_3.index t (0 : Fin 2) * 512 + 512; rw [h0, ht]; omega
  | ⟨1, _⟩ => show win1_3.index t (1 : Fin 2) * 512 ≤ (i 1).val ∧ (i 1).val < win1_3.index t (1 : Fin 2) * 512 + 512; rw [h1]; omega

/-- The output array after the region is G, when at every writing position the window's buffer holds its rows of G. -/
theorem arrAt3_of_blocks (c : Dev nD) (G : S8192x512.Idx → EReal)
    (H : ∀ (t : Fin cfg1.N), t.val % 8 = 7 → ∀ (r e : Fin 512) (n : Fin 8192), n.val = 512 * (t.val / 8) + r.val →
      (outsAt1 (F := Ideal) V c t.val t.isLt).1 (ix2 r e) = G (ix2 n e)) :
    (dat1 (F := Ideal) V c).arrAt 3 cfg1.N = G :=
  (dat1 V c).arrAt_eq_of_cover 3 G (flushed1_3_eq V c G H) cover1_3

/-- No write-back touches an input window's array. -/
theorem in_kept1 (c : Dev nD) (w : Fin cfg1.W) (hw : w.val < 3) :
    (dat1 (F := Ideal) V c).arrAt w cfg1.N = V c (Pipeline.arrRef spec1 w) := by
  have hin : ∀ w : Fin cfg1.W, w.val < 3 → (cfg1.win w).isOut = false := by decide
  exact ((dat1 V c).arrAt_in w (hin w hw) _).trans (A_eq1 V c w)

end Cert.KernelIdeal.Hand

end
-- ==== Proof.LibERealStats.lean ====
/-
  General lemmas on the extended reals for batch statistics (mean and variance) computed from
  per-tile partial sums. Nothing here mentions a program: the index types are abstract finite
  types, and the only operation beyond Mathlib's is the quotient `div` of the ideal float values
  (`x * y⁻¹` off zero).

  Contents:
  * `IsReal` — an extended real that is the image of a real number — and its closure under the
    arithmetic operations, finite sums, and the quotient by a nonzero real;
  * regrouping of a sum over `Fin (a * b)` into `a` tiles of `b` consecutive terms, in any additive
    commutative monoid;
  * the variance identity `(Σ (hᵢ - μ)²) / N = (Σ hᵢ²) / N - μ²`, `μ = (Σ hᵢ) / N`, for finite `hᵢ`;
  * small facts about the quotient by a real and about sums of ones.
-/
import Mathlib.Data.EReal.Inv
import Mathlib.Algebra.BigOperators.Group.Finset.Basic
import Mathlib.Algebra.BigOperators.Fin
import Mathlib.Logic.Equiv.Fin.Basic
import Mathlib.Tactic.FieldSimp
import Mathlib.Tactic.Ring
import Idealize.ShloMosaic.PureOps.Ideal

namespace Cert.LibERealStats

open scoped BigOperators

/-! ## Finite extended reals -/

/-- An extended real is *finite* when it is the image of a real number. -/
def IsReal (x : EReal) : Prop := ∃ r : ℝ, x = (r : EReal)

/-- The image of a real number is finite. -/
theorem IsReal.coe (r : ℝ) : IsReal (r : EReal) := ⟨r, rfl⟩

/-- Zero is finite. -/
theorem IsReal.zero : IsReal (0 : EReal) := ⟨0, rfl⟩

/-- One is finite. -/
theorem IsReal.one : IsReal (1 : EReal) := ⟨1, rfl⟩

/-- A natural number, seen as an extended real, is finite. -/
theorem IsReal.natCast (n : ℕ) : IsReal (n : EReal) := ⟨(n : ℝ), rfl⟩

/-- A finite extended real is not `⊤`. -/
theorem IsReal.ne_top {x : EReal} (hx : IsReal x) : x ≠ ⊤ := by
  obtain ⟨a, rfl⟩ := hx; exact EReal.coe_ne_top a

/-- A finite extended real is not `⊥`. -/
theorem IsReal.ne_bot {x : EReal} (hx : IsReal x) : x ≠ ⊥ := by
  obtain ⟨a, rfl⟩ := hx; exact EReal.coe_ne_bot a

/-- An extended real that is neither `⊤` nor `⊥` is finite. -/
theorem isReal_of_ne {x : EReal} (ht : x ≠ ⊤) (hb : x ≠ ⊥) : IsReal x := by
  induction x using EReal.rec with
  | bot => exact absurd rfl hb
  | top => exact absurd rfl ht
  | coe r => exact ⟨r, rfl⟩

/-- Finite means: neither infinity. -/
theorem isReal_iff {x : EReal} : IsReal x ↔ x ≠ ⊤ ∧ x ≠ ⊥ :=
  ⟨fun h => ⟨h.ne_top, h.ne_bot⟩, fun h => isReal_of_ne h.1 h.2⟩

/-- An extended real whose absolute value `max x (-x)` is below `⊤` is finite. -/
theorem isReal_of_abs_lt_top {x : EReal} (h : max x (-x) < ⊤) : IsReal x := by
  induction x using EReal.rec with
  | bot => simp at h
  | top => simp at h
  | coe r => exact ⟨r, rfl⟩

/-- The sum of two finite extended reals is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a finite extended real is finite. -/
theorem IsReal.neg {x : EReal} (hx : IsReal x) : IsReal (-x) := by
  obtain ⟨a, rfl⟩ := hx; exact ⟨-a, (EReal.coe_neg a).symm⟩

/-- The difference of two finite extended reals is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite extended reals is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The embedding of the reals commutes with `max`. -/
theorem coe_max (a b : ℝ) : ((max a b : ℝ) : EReal) = max (a : EReal) (b : EReal) :=
  EReal.coe_strictMono.monotone.map_max

/-- The embedding of the reals commutes with `min`. -/
theorem coe_min (a b : ℝ) : ((min a b : ℝ) : EReal) = min (a : EReal) (b : EReal) :=
  EReal.coe_strictMono.monotone.map_min

/-- The maximum of two finite extended reals is finite. -/
theorem IsReal.max {x y : EReal} (hx : IsReal x) (hy : IsReal y) : IsReal (max x y) := by
  obtain ⟨a, rfl⟩ := hx; obtain ⟨b, rfl⟩ := hy; exact ⟨_, (coe_max a b).symm⟩

/-- The minimum of two finite extended reals is finite. -/
theorem IsReal.min {x y : EReal} (hx : IsReal x) (hy : IsReal y) : IsReal (min x y) := by
  obtain ⟨a, rfl⟩ := hx; obtain ⟨b, rfl⟩ := hy; exact ⟨_, (coe_min a b).symm⟩

/-! ## Finite sums -/

/-- The embedding of the reals commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A finite sum of extended reals, each the image of a real, is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_sum]; exact Finset.sum_congr rfl h

/-- A finite sum of finite extended reals is finite. -/
theorem IsReal.sum {ι : Type*} {s : Finset ι} {f : ι → EReal} (h : ∀ i ∈ s, IsReal (f i)) :
    IsReal (∑ i ∈ s, f i) := by
  classical
  revert h
  refine Finset.induction_on s ?_ ?_
  · intro _; rw [Finset.sum_empty]; exact IsReal.zero
  · intro a s ha ih h
    rw [Finset.sum_insert ha]
    exact (h a (Finset.mem_insert_self a s)).add (ih fun i hi => h i (Finset.mem_insert_of_mem hi))

/-- The sum over a whole finite type of finite extended reals is finite. -/
theorem IsReal.sum_univ {ι : Type*} [Fintype ι] {f : ι → EReal} (h : ∀ i, IsReal (f i)) :
    IsReal (∑ i, f i) :=
  IsReal.sum fun i _ => h i

/-- The sum of finite extended reals over the indices that satisfy a predicate is finite. -/
theorem IsReal.sum_filter {ι : Type*} [Fintype ι] (p : ι → Prop) [DecidablePred p] {f : ι → EReal}
    (h : ∀ i, IsReal (f i)) : IsReal (∑ i ∈ Finset.univ.filter p, f i) :=
  IsReal.sum fun i _ => h i

/-- A finite initial value plus a finite sum of finite extended reals is finite. -/
theorem IsReal.add_sum {ι : Type*} {s : Finset ι} {f : ι → EReal} {x : EReal} (hx : IsReal x)
    (h : ∀ i ∈ s, IsReal (f i)) : IsReal (x + ∑ i ∈ s, f i) :=
  hx.add (IsReal.sum h)

/-- A finite initial value plus the sum of finite extended reals over the indices that satisfy a
    predicate is finite. -/
theorem IsReal.add_sum_filter {ι : Type*} [Fintype ι] (p : ι → Prop) [DecidablePred p]
    {f : ι → EReal} {x : EReal} (hx : IsReal x) (h : ∀ i, IsReal (f i)) :
    IsReal (x + ∑ i ∈ Finset.univ.filter p, f i) :=
  hx.add (IsReal.sum_filter p h)

/-- A sum of ones over a finite set is the number of its elements. -/
theorem sum_one_eq_card {ι : Type*} (s : Finset ι) :
    ∑ _j ∈ s, (1 : EReal) = ((s.card : ℝ) : EReal) := by
  have h : ∑ _j ∈ s, (1 : EReal) = ∑ _j ∈ s, ((1 : ℝ) : EReal) := rfl
  rw [h, ← coe_sum, Finset.sum_const, nsmul_eq_mul, mul_one]

/-- A sum of one real constant over a finite set is the number of its elements times the constant. -/
theorem sum_const_coe {ι : Type*} (s : Finset ι) (c : ℝ) :
    ∑ _j ∈ s, (c : EReal) = (((s.card : ℝ) * c : ℝ) : EReal) := by
  rw [← coe_sum, Finset.sum_const, nsmul_eq_mul]

/-! ## The quotient by a nonzero real -/

/-- The ideal quotient of the images of two reals, the divisor nonzero, is the image of the real
    quotient. -/
theorem div_coe_coe (a : ℝ) {c : ℝ} (hc : c ≠ 0) :
    Idealize.ShloMosaic.Ideal.div (a : EReal) (c : EReal) = ((a / c : ℝ) : EReal) := by
  rw [Idealize.ShloMosaic.Ideal.div_coe hc, ← EReal.coe_mul, mul_one_div]

/-- The ideal quotient of a finite extended real by a nonzero real is finite. -/
theorem IsReal.div {x : EReal} (hx : IsReal x) {c : ℝ} (hc : c ≠ 0) :
    IsReal (Idealize.ShloMosaic.Ideal.div x (c : EReal)) := by
  obtain ⟨a, rfl⟩ := hx; exact ⟨a / c, div_coe_coe a hc⟩

/-- Dividing any extended real by a nonzero real is multiplying it by the quotient of one by that
    real (the reciprocal), at the infinities too. -/
theorem div_eq_mul_one_div {c : ℝ} (hc : c ≠ 0) (x : EReal) :
    Idealize.ShloMosaic.Ideal.div x (c : EReal)
      = x * Idealize.ShloMosaic.Ideal.div 1 (c : EReal) := by
  rw [Idealize.ShloMosaic.Ideal.div_coe hc, Idealize.ShloMosaic.Ideal.div_coe hc, one_mul]

/-- The quotient of one by a nonzero real is the image of the real reciprocal. -/
theorem one_div_coe {c : ℝ} (hc : c ≠ 0) :
    Idealize.ShloMosaic.Ideal.div 1 (c : EReal) = ((1 / c : ℝ) : EReal) := by
  rw [Idealize.ShloMosaic.Ideal.div_coe hc, one_mul]

/-- The maximum of one and a natural number is the image of the real `max 1 k`. -/
theorem max_one_natCast_eq (k : ℕ) :
    max (1 : EReal) ((k : ℝ) : EReal) = ((max 1 (k : ℝ) : ℝ) : EReal) := by
  rw [coe_max, EReal.coe_one]

/-- The maximum of one and a natural number is a real that is at least one, hence not zero. -/
theorem max_one_natCast (k : ℕ) :
    ∃ r : ℝ, r ≠ 0 ∧ max (1 : EReal) ((k : ℝ) : EReal) = (r : EReal) :=
  ⟨max 1 (k : ℝ), (lt_of_lt_of_le one_pos (le_max_left _ _)).ne', max_one_natCast_eq k⟩

/-- The same with the lower bound kept: the maximum of one and a natural number is a real `r ≥ 1`. -/
theorem max_one_natCast_ge (k : ℕ) :
    ∃ r : ℝ, 1 ≤ r ∧ max (1 : EReal) ((k : ℝ) : EReal) = (r : EReal) :=
  ⟨max 1 (k : ℝ), le_max_left _ _, max_one_natCast_eq k⟩

/-- For a natural number `k ≥ 1` the maximum of one and `k` is `k`. -/
theorem max_one_natCast_of_pos {k : ℕ} (hk : 1 ≤ k) :
    max (1 : EReal) ((k : ℝ) : EReal) = ((k : ℝ) : EReal) := by
  rw [max_one_natCast_eq, max_eq_right (by exact_mod_cast hk)]

/-- The same with the operands of `max` in the other order. -/
theorem max_natCast_one (k : ℕ) :
    ∃ r : ℝ, r ≠ 0 ∧ max ((k : ℝ) : EReal) (1 : EReal) = (r : EReal) := by
  rw [max_comm]; exact max_one_natCast k

/-- Zero plus a sum of ones over a finite set is the number of its elements. -/
theorem zero_add_sum_one_eq_card {ι : Type*} (s : Finset ι) :
    (0 : EReal) + ∑ _j ∈ s, (1 : EReal) = ((s.card : ℝ) : EReal) := by
  rw [zero_add, sum_one_eq_card]

/-- Dividing any extended real by a divisor that is a nonzero real is multiplying it by the quotient
    of one by that divisor. -/
theorem div_eq_mul_one_div_of_real {c : EReal} (hc : ∃ r : ℝ, r ≠ 0 ∧ c = (r : EReal)) (x : EReal) :
    Idealize.ShloMosaic.Ideal.div x c = x * Idealize.ShloMosaic.Ideal.div 1 c := by
  obtain ⟨r, hr, rfl⟩ := hc; exact div_eq_mul_one_div hr x

/-- The quotient of a finite extended real by a divisor that is a nonzero real is finite. -/
theorem IsReal.div_of_real {x c : EReal} (hx : IsReal x) (hc : ∃ r : ℝ, r ≠ 0 ∧ c = (r : EReal)) :
    IsReal (Idealize.ShloMosaic.Ideal.div x c) := by
  obtain ⟨r, hr, rfl⟩ := hc; exact hx.div hr

/-- Dividing by the maximum of one and a natural number is multiplying by the quotient of one by
    that maximum: a mean over a group of `k` elements, the empty group counted as one. -/
theorem div_max_one_eq_mul (k : ℕ) (x : EReal) :
    Idealize.ShloMosaic.Ideal.div x (max (1 : EReal) ((k : ℝ) : EReal))
      = x * Idealize.ShloMosaic.Ideal.div 1 (max (1 : EReal) ((k : ℝ) : EReal)) :=
  div_eq_mul_one_div_of_real (max_one_natCast k) x

/-- The quotient of a finite extended real by the maximum of one and a natural number is finite. -/
theorem IsReal.div_max_one {x : EReal} (hx : IsReal x) (k : ℕ) :
    IsReal (Idealize.ShloMosaic.Ideal.div x (Max.max (1 : EReal) ((k : ℝ) : EReal))) :=
  hx.div_of_real (max_one_natCast k)

/-! ## Regrouping a sum into tiles -/

/-- A sum over `a * b` consecutive indices is the sum over `a` tiles of the sums over the `b`
    consecutive indices of each tile: index `t * b + r` is position `r` of tile `t`. -/
theorem sum_tiles {M : Type*} [AddCommMonoid M] (a b : ℕ) (f : ℕ → M) :
    ∑ t : Fin a, ∑ r : Fin b, f (t.val * b + r.val) = ∑ i : Fin (a * b), f i.val := by
  rw [← Fintype.sum_prod_type' (f := fun (t : Fin a) (r : Fin b) => f (t.val * b + r.val))]
  refine Fintype.sum_equiv finProdFinEquiv _ _ fun x => ?_
  have hx : (finProdFinEquiv x).val = x.1.val * b + x.2.val := by
    show x.2.val + b * x.1.val = x.1.val * b + x.2.val
    rw [Nat.mul_comm, Nat.add_comm]
  rw [hx]

/-- The terms of a sum over `a * b` consecutive indices whose index lies in tile `t` (quotient by
    `b` equal to `t`) are the `b` terms at `t * b + r`. -/
theorem sum_filter_tile {M : Type*} [AddCommMonoid M] (a b t : ℕ) (ht : t < a) (f : ℕ → M) :
    ∑ i ∈ Finset.univ.filter (fun i : Fin (a * b) => i.val / b = t), f i.val
      = ∑ r : Fin b, f (t * b + r.val) := by
  have hlt : ∀ r : Fin b, t * b + r.val < a * b := fun r =>
    calc t * b + r.val < t * b + b := Nat.add_lt_add_left r.isLt _
      _ = (t + 1) * b := (Nat.succ_mul t b).symm
      _ ≤ a * b := Nat.mul_le_mul_right b ht
  symm
  refine Finset.sum_bij (fun r _ => (⟨t * b + r.val, hlt r⟩ : Fin (a * b))) ?_ ?_ ?_ ?_
  · intro r _
    have hb : 0 < b := Nat.lt_of_le_of_lt (Nat.zero_le _) r.isLt
    simp only [Finset.mem_filter, Finset.mem_univ, true_and]
    rw [Nat.add_comm, Nat.add_mul_div_right _ _ hb, Nat.div_eq_of_lt r.isLt, Nat.zero_add]
  · intro r _ r' _ h
    have h' : t * b + r.val = t * b + r'.val := congrArg Fin.val h
    exact Fin.ext (Nat.add_left_cancel h')
  · intro i hi
    simp only [Finset.mem_filter, Finset.mem_univ, true_and] at hi
    have hab : 0 < a * b := Nat.lt_of_le_of_lt (Nat.zero_le _) i.isLt
    have hb : 0 < b := Nat.pos_of_ne_zero fun h0 => by
      rw [h0, Nat.mul_zero] at hab; exact Nat.lt_irrefl _ hab
    refine ⟨⟨i.val % b, Nat.mod_lt _ hb⟩, Finset.mem_univ _, Fin.ext ?_⟩
    show t * b + i.val % b = i.val
    rw [← hi]; exact Nat.div_add_mod' i.val b
  · intro r _; rfl

/-! ## The variance identity -/

/-- On the reals: the mean of the squared deviations from the mean is the mean of the squares minus
    the square of the mean, `N` being the number of terms. -/
theorem real_variance {ι : Type*} [Fintype ι] (g : ι → ℝ) (N : ℝ) (hN : N ≠ 0)
    (hcard : (Fintype.card ι : ℝ) = N) :
    (∑ i, (g i - (∑ j, g j) / N) * (g i - (∑ j, g j) / N)) / N
      = (∑ i, g i * g i) / N - ((∑ j, g j) / N) * ((∑ j, g j) / N) := by
  set m : ℝ := (∑ j, g j) / N with hm
  have h1 : ∑ i, (g i - m) * (g i - m)
      = (∑ i, g i * g i) - 2 * m * (∑ i, g i) + N * (m * m) := by
    have h2 : ∀ i, (g i - m) * (g i - m) = g i * g i - 2 * m * g i + m * m := fun i => by ring
    simp only [h2, Finset.sum_add_distrib, Finset.sum_sub_distrib, ← Finset.mul_sum,
      Finset.sum_const, Finset.card_univ, nsmul_eq_mul, hcard]
    ring
  have hS : ∑ j, g j = m * N := by rw [hm]; field_simp
  rw [h1, hS]
  field_simp
  ring

/-- On the extended reals, through the ideal quotient: for finite `h i` and `N` the (nonzero) number
    of terms, with `μ = (Σ h) / N`, the quotient by `N` of the sum of the squared deviations
    `(h i - μ) * (h i - μ)` is the quotient by `N` of the sum of the squares minus `μ * μ`. -/
theorem variance_eq {ι : Type*} [Fintype ι] (h : ι → EReal) (hfin : ∀ i, IsReal (h i)) (N : ℝ)
    (hN : N ≠ 0) (hcard : (Fintype.card ι : ℝ) = N) :
    Idealize.ShloMosaic.Ideal.div
        (∑ i, (h i - Idealize.ShloMosaic.Ideal.div (∑ j, h j) (N : EReal))
          * (h i - Idealize.ShloMosaic.Ideal.div (∑ j, h j) (N : EReal))) (N : EReal)
      = Idealize.ShloMosaic.Ideal.div (∑ i, h i * h i) (N : EReal)
        - Idealize.ShloMosaic.Ideal.div (∑ j, h j) (N : EReal)
          * Idealize.ShloMosaic.Ideal.div (∑ j, h j) (N : EReal) := by
  obtain ⟨g, rfl⟩ : ∃ g : ι → ℝ, h = fun i => (g i : EReal) :=
    ⟨fun i => (hfin i).choose, funext fun i => (hfin i).choose_spec⟩
  dsimp only
  have hμ : Idealize.ShloMosaic.Ideal.div (∑ j, ((g j : ℝ) : EReal)) (N : EReal)
      = (((∑ j, g j) / N : ℝ) : EReal) := by
    rw [← coe_sum, div_coe_coe _ hN]
  rw [hμ]
  have h1 : ∑ i, (((g i : ℝ) : EReal) - (((∑ j, g j) / N : ℝ) : EReal))
        * (((g i : ℝ) : EReal) - (((∑ j, g j) / N : ℝ) : EReal))
      = ((∑ i, (g i - (∑ j, g j) / N) * (g i - (∑ j, g j) / N) : ℝ) : EReal) := by
    rw [coe_sum]; exact Finset.sum_congr rfl fun i _ => by rw [EReal.coe_mul, EReal.coe_sub]
  have h2 : ∑ i, ((g i : ℝ) : EReal) * ((g i : ℝ) : EReal) = ((∑ i, g i * g i : ℝ) : EReal) := by
    rw [coe_sum]; exact Finset.sum_congr rfl fun i _ => by rw [EReal.coe_mul]
  rw [h1, h2, div_coe_coe _ hN, div_coe_coe _ hN, ← EReal.coe_mul, ← EReal.coe_sub,
    real_variance g N hN hcard]

/-- The mean `(Σ h) / N` of finite extended reals, `N` a nonzero real, is finite. -/
theorem isReal_mean {ι : Type*} [Fintype ι] (h : ι → EReal) (hfin : ∀ i, IsReal (h i)) (N : ℝ)
    (hN : N ≠ 0) : IsReal (Idealize.ShloMosaic.Ideal.div (∑ j, h j) (N : EReal)) :=
  (IsReal.sum_univ hfin).div hN

/-- The mean of the squares minus the square of the mean, of finite extended reals, is finite. -/
theorem isReal_variance {ι : Type*} [Fintype ι] (h : ι → EReal) (hfin : ∀ i, IsReal (h i)) (N : ℝ)
    (hN : N ≠ 0) :
    IsReal (Idealize.ShloMosaic.Ideal.div (∑ i, h i * h i) (N : EReal)
        - Idealize.ShloMosaic.Ideal.div (∑ j, h j) (N : EReal)
          * Idealize.ShloMosaic.Ideal.div (∑ j, h j) (N : EReal)) :=
  ((IsReal.sum_univ fun i => (hfin i).mul (hfin i)).div hN).sub
    ((isReal_mean h hfin N hN).mul (isReal_mean h hfin N hN))

/-- The mean of the squared deviations from the mean, of finite extended reals, is finite. -/
theorem isReal_variance_centered {ι : Type*} [Fintype ι] (h : ι → EReal) (hfin : ∀ i, IsReal (h i))
    (N : ℝ) (hN : N ≠ 0) :
    IsReal (Idealize.ShloMosaic.Ideal.div
        (∑ i, (h i - Idealize.ShloMosaic.Ideal.div (∑ j, h j) (N : EReal))
          * (h i - Idealize.ShloMosaic.Ideal.div (∑ j, h j) (N : EReal))) (N : EReal)) :=
  (IsReal.sum_univ fun i =>
    ((hfin i).sub (isReal_mean h hfin N hN)).mul ((hfin i).sub (isReal_mean h hfin N hN))).div hN

/-- Regrouping into tiles with the total number of terms named: for `a * b = n`. -/
theorem sum_tiles_of_eq {M : Type*} [AddCommMonoid M] (a b n : ℕ) (hn : a * b = n) (f : ℕ → M) :
    ∑ t : Fin a, ∑ r : Fin b, f (t.val * b + r.val) = ∑ i : Fin n, f i.val := by
  subst hn; exact sum_tiles a b f

/-- The terms of one tile with the total number of terms named: for `a * b = n`. -/
theorem sum_filter_tile_of_eq {M : Type*} [AddCommMonoid M] (a b n t : ℕ) (hn : a * b = n)
    (ht : t < a) (f : ℕ → M) :
    ∑ i ∈ Finset.univ.filter (fun i : Fin n => i.val / b = t), f i.val
      = ∑ r : Fin b, f (t * b + r.val) := by
  subst hn; exact sum_filter_tile a b t ht f

/-! ## Statistics from per-tile partial sums -/

/-- The mean computed from `a` per-tile sums of `b` consecutive terms is the mean computed from the one
    sum over all `a * b` terms (each outer sum started from zero), whatever the divisor. -/
theorem tiled_mean_eq (a b : ℕ) (f : ℕ → EReal) (c : EReal) :
    Idealize.ShloMosaic.Ideal.div (0 + ∑ t : Fin a, ∑ r : Fin b, f (t.val * b + r.val)) c
      = Idealize.ShloMosaic.Ideal.div (0 + ∑ i : Fin (a * b), f i.val) c := by
  rw [sum_tiles]

/-- The variance computed from per-tile partial sums, as the mean of the squares minus the square of
    the mean, is the variance computed over all `a * b` terms at once as the mean of the squared
    deviations from the mean — for finite terms, `N = a * b` nonzero, each outer sum started from
    zero. -/
theorem tiled_variance_eq (a b : ℕ) (f : ℕ → EReal) (hfin : ∀ i : Fin (a * b), IsReal (f i.val))
    (N : ℝ) (hN : N ≠ 0) (hcard : ((a * b : ℕ) : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin (a * b),
            (f i.val - Idealize.ShloMosaic.Ideal.div (0 + ∑ j : Fin (a * b), f j.val) (N : EReal))
              * (f i.val - Idealize.ShloMosaic.Ideal.div (0 + ∑ j : Fin (a * b), f j.val) (N : EReal)))
          (N : EReal) := by
  have hsq := sum_tiles a b fun n => f n * f n
  rw [sum_tiles a b f, hsq]
  simp only [zero_add]
  exact (variance_eq (fun i : Fin (a * b) => f i.val) hfin N hN
    (by rw [Fintype.card_fin]; exact hcard)).symm

/-- The tiled mean with the total number of terms named: for `a * b = n`. -/
theorem tiled_mean_eq_of_eq (a b n : ℕ) (hn : a * b = n) (f : ℕ → EReal) (c : EReal) :
    Idealize.ShloMosaic.Ideal.div (0 + ∑ t : Fin a, ∑ r : Fin b, f (t.val * b + r.val)) c
      = Idealize.ShloMosaic.Ideal.div (0 + ∑ i : Fin n, f i.val) c := by
  subst hn; exact tiled_mean_eq a b f c

/-- The tiled variance with the total number of terms named: for `a * b = n` and `N = n` nonzero. -/
theorem tiled_variance_eq_of_eq (a b n : ℕ) (hn : a * b = n) (f : ℕ → EReal)
    (hfin : ∀ i : Fin n, IsReal (f i.val)) (N : ℝ) (hN : N ≠ 0) (hcard : (n : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin n,
            (f i.val - Idealize.ShloMosaic.Ideal.div (0 + ∑ j : Fin n, f j.val) (N : EReal))
              * (f i.val - Idealize.ShloMosaic.Ideal.div (0 + ∑ j : Fin n, f j.val) (N : EReal)))
          (N : EReal) := by
  subst hn; exact tiled_variance_eq a b f hfin N hN hcard

end Cert.LibERealStats
-- ==== Proof.KI.R1Math.lean ====
/-
  The arithmetic of the attention step over one tile of 512 queries, at the extended reals.

  For each of the eight key tiles the step forms the scores of the 512 queries against the tile's 1024 keys (inner
  products over the 512 features), adds to one accumulator the products of the scores with the tile's values and to
  another the sums of the squared scores of each row; both accumulators start from zero.  After the eighth tile the
  first accumulator, at (r, c), is the sum over all 8192 keys of score(r, n) · value(n, c), and the second, in every
  lane of row r, is the sum over all 8192 keys of score(r, n)².  The output is the first divided by the larger of the
  square root of the second and a small constant.
-/
import proofs.«150631_j57380763074621_2_alg».proof.Proof.Gen.KernelIdeal.Skeleton
import proofs.«150631_j57380763074621_2_alg».proof.Proof.Spec
import proofs.«150631_j57380763074621_2_alg».proof.Proof.LibPlainDot
import proofs.«150631_j57380763074621_2_alg».proof.Proof.LibUnitAxes
import proofs.«150631_j57380763074621_2_alg».proof.Proof.LibERealStats
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand.R1

open Cert.KernelIdeal Cert.KernelIdeal.Gen Idealize.ShloMosaic Idealize.ShloMosaic.ValueIdx
open scoped BigOperators

/-- The score tile at (r, p): the inner product of query row r with key row p. -/
theorem pay4_apply (K : Vec Ideal S1024x512 .f32) (Q : Vec Ideal S512x512 .f32) (r : Fin 512) (p : Fin 1024) :
    k1_pay4 (F := Ideal) K Q (ix2 r p) = ∑ d : Fin 512, Q (ix2 r d) * K (ix2 p d) := by
  unfold k1_pay4
  refine (Cert.LibPlainDot.matmul_zero_apply dot_S512x512_S512x1024_S512x1024_1_0_0_1_n_n rfl rfl rfl rfl
    (fun _ _ => rfl) (fun _ _ => rfl) none _ _ r p).trans ?_
  refine Finset.sum_congr rfl fun d _ => ?_
  have hq : shapeCast S512x512 Q shapeCasts_S512x512_S512x512 = Q := shapeCast_self Q _
  have hk : shapeCast S1024x512 K shapeCasts_S1024x512_S1024x512 = K := shapeCast_self K _
  refine congrArg₂ (· * ·) (congrFun hq (ix2 r d)) ?_
  refine (transpose_ix2_apply _ transposes_S1024x512_p1_0_S512x1024 d p).trans ?_
  exact congrFun hk (ix2 p d)

/-- An [a] array cast to a column [a, 1] reads, at (p, u), the array at p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The sum along the second axis of an [a, b] array, at row r, is the sum over the b entries of the row. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext c
  match c with
  | ⟨0, _⟩ => rfl
  | ⟨1, _⟩ => rfl

/-- The squared-score accumulator after one step: the old entry plus the sum of the squared scores of the row. -/
theorem pay5_apply (K : Vec Ideal S1024x512 .f32) (Q : Vec Ideal S512x512 .f32) (A : Vec Ideal S512x128 .f32)
    (r : Fin 512) (l : Fin 128) :
    k1_pay5 (F := Ideal) K Q A (ix2 r l)
      = A (ix2 r l) + ∑ p : Fin 1024, k1_pay4 (F := Ideal) K Q (ix2 r p) * k1_pay4 (F := Ideal) K Q (ix2 r p) := by
  unfold k1_pay5
  refine (congrFun (shapeCast_self _ shapeCasts_S512x128_S512x128) (ix2 r l)).trans ?_
  refine congrArg (A (ix2 r l) + ·) ?_
  refine (Cert.LibUnitAxes.broadcastTo_a1_ab_apply _ broadcasts_S512x1_S512x128 r l).trans ?_
  refine (congrFun (shapeCast_self _ shapeCasts_S512x1_S512x1) (ix2 r (0 : Fin 1))).trans ?_
  refine (shapeCast_a_a1_apply _ shapeCasts_S512_S512x1 r (0 : Fin 1)).trans ?_
  exact rowSum_apply _ reduces_S512x1024_S512 (.inl rfl) rfl r

/-- The value accumulator after one step: the old entry plus the scores of the row against the value column. -/
theorem pay6_apply (K : Vec Ideal S1024x512 .f32) (V : Vec Ideal S1024x512 .bf16) (Q : Vec Ideal S512x512 .f32)
    (A : Vec Ideal S512x512 .f32) (r c : Fin 512) :
    k1_pay6 (F := Ideal) K V Q A (ix2 r c)
      = A (ix2 r c) + ∑ p : Fin 1024, k1_pay4 (F := Ideal) K Q (ix2 r p) * V (ix2 p c) := by
  unfold k1_pay6
  refine (congrFun (shapeCast_self _ shapeCasts_S512x512_S512x512) (ix2 r c)).trans ?_
  refine congrArg (A (ix2 r c) + ·) ?_
  refine (Cert.LibPlainDot.matmul_zero_apply dot_S512x1024_S1024x512_S512x512_1_0_0_1_n_n rfl rfl rfl rfl
    (fun _ _ => rfl) (fun _ _ => rfl) none _ _ r c).trans ?_
  refine Finset.sum_congr rfl fun p _ => ?_
  have hv : shapeCast S1024x512 V shapeCasts_S1024x512_S1024x512 = V := shapeCast_self V _
  exact congrArg (k1_pay4 (F := Ideal) K Q (ix2 r p) * ·) (congrFun hv (ix2 p c))

/-- The value accumulator starts from zero. -/
theorem pay2_apply (i : S512x512.Idx) : k1_pay2 (F := Ideal) i = 0 := by
  unfold k1_pay2
  refine (congrFun (shapeCast_self _ shapeCasts_S512x512_S512x512) i).trans ?_
  exact Ideal.ofBits_zero_f32

/-- The squared-score accumulator starts from zero. -/
theorem pay3_apply (i : S512x128.Idx) : k1_pay3 (F := Ideal) i = 0 := by
  unfold k1_pay3
  refine (congrFun (shapeCast_self _ shapeCasts_S512x128_S512x128) i).trans ?_
  exact Ideal.ofBits_zero_f32

/-- The output tile: the value accumulator divided by the larger of the root of the row's squared-score sum and the
    small constant. -/
theorem pay1_apply (S1 : Vec Ideal S512x1 .f32) (A : Vec Ideal S512x512 .f32) (r c : Fin 512) :
    k1_pay1 (F := Ideal) S1 A (ix2 r c)
      = Ideal.div (A (ix2 r c)) (max (Ideal.sqrt (S1 (ix2 r (0 : Fin 1)))) (Ideal.ofBits .f32 0x2B8CBCCC#32)) := by
  unfold k1_pay1
  refine congrArg (Ideal.div (A (ix2 r c)) ·) ?_
  refine (Cert.LibUnitAxes.broadcastTo_a1_ab_apply _ broadcasts_S512x1_S512x512 r c).trans ?_
  exact congrFun (shapeCast_self _ shapeCasts_S512x1_S512x1) (ix2 r (0 : Fin 1))

/-! ## The accumulators over the key tiles -/

/-- The value accumulator after key tile j (from zeros before tile 0). -/
def accV (Q : Vec Ideal S512x512 .f32) (Kt : ℕ → Vec Ideal S1024x512 .f32) (Vt : ℕ → Vec Ideal S1024x512 .bf16) :
    ℕ → Vec Ideal S512x512 .f32
  | 0 => k1_pay6 (F := Ideal) (Kt 0) (Vt 0) Q (k1_pay2 (F := Ideal))
  | j + 1 => k1_pay6 (F := Ideal) (Kt (j + 1)) (Vt (j + 1)) Q (accV Q Kt Vt j)

/-- The squared-score accumulator after key tile j (from zeros before tile 0). -/
def accS (Q : Vec Ideal S512x512 .f32) (Kt : ℕ → Vec Ideal S1024x512 .f32) : ℕ → Vec Ideal S512x128 .f32
  | 0 => k1_pay5 (F := Ideal) (Kt 0) Q (k1_pay3 (F := Ideal))
  | j + 1 => k1_pay5 (F := Ideal) (Kt (j + 1)) Q (accS Q Kt j)

/-- The score of query row r of the tile against key n of the whole key array. -/
def sc (Q : Vec Ideal S512x512 .f32) (Kt : ℕ → Vec Ideal S1024x512 .f32) (r : Fin 512) (n : Fin 8192) : EReal :=
  ∑ d : Fin 512, Q (ix2 r d) * Kt (n.val / 1024) (ix2 ⟨n.val % 1024, Nat.mod_lt _ (by decide)⟩ d)

/-- The value entry (n, c) of the whole value array. -/
def vl (Vt : ℕ → Vec Ideal S1024x512 .bf16) (n : Fin 8192) (c : Fin 512) : EReal :=
  Vt (n.val / 1024) (ix2 ⟨n.val % 1024, Nat.mod_lt _ (by decide)⟩ c)

/-- The score against key n, for any natural number n. -/
def scN (Q : Vec Ideal S512x512 .f32) (Kt : ℕ → Vec Ideal S1024x512 .f32) (r : Fin 512) (n : ℕ) : EReal :=
  ∑ d : Fin 512, Q (ix2 r d) * Kt (n / 1024) (ix2 ⟨n % 1024, Nat.mod_lt _ (by decide)⟩ d)

/-- The value entry (n, c), for any natural number n. -/
def vlN (Vt : ℕ → Vec Ideal S1024x512 .bf16) (n : ℕ) (c : Fin 512) : EReal :=
  Vt (n / 1024) (ix2 ⟨n % 1024, Nat.mod_lt _ (by decide)⟩ c)

theorem sc_eq (Q : Vec Ideal S512x512 .f32) (Kt : ℕ → Vec Ideal S1024x512 .f32) (r : Fin 512) (n : Fin 8192) :
    sc Q Kt r n = scN Q Kt r n.val := rfl

theorem vl_eq (Vt : ℕ → Vec Ideal S1024x512 .bf16) (n : Fin 8192) (c : Fin 512) : vl Vt n c = vlN Vt n.val c := rfl

/-- Row t * 1024 + p of a family of 1024-row tiles is row p of tile t. -/
theorem tile_read {α : Type} {b : ℕ} (G : ℕ → (⟨2, ![1024, b]⟩ : Shape).Idx → α) (t : ℕ) (p : Fin 1024) (d : Fin b) :
    G ((t * 1024 + p.val) / 1024) (ix2 ⟨(t * 1024 + p.val) % 1024, Nat.mod_lt _ (by decide)⟩ d) = G t (ix2 p d) := by
  have h1 : (t * 1024 + p.val) / 1024 = t := by omega
  have h2 : (⟨(t * 1024 + p.val) % 1024, Nat.mod_lt _ (by decide)⟩ : Fin 1024) = p :=
    Fin.ext (by show (t * 1024 + p.val) % 1024 = p.val; omega)
  rw [h2, h1]

/-- The score tile of key tile t at (r, p) is the score against key t * 1024 + p. -/
theorem pay4_tile (Q : Vec Ideal S512x512 .f32) (Kt : ℕ → Vec Ideal S1024x512 .f32) (t : ℕ) (r : Fin 512) (p : Fin 1024) :
    k1_pay4 (F := Ideal) (Kt t) Q (ix2 r p) = scN Q Kt r (t * 1024 + p.val) := by
  refine (pay4_apply (Kt t) Q r p).trans ?_
  refine Finset.sum_congr rfl fun d _ => ?_
  exact congrArg (Q (ix2 r d) * ·) (tile_read Kt t p d).symm

/-- What key tile t adds to the value accumulator at (r, c). -/
def tileV (Q : Vec Ideal S512x512 .f32) (Kt : ℕ → Vec Ideal S1024x512 .f32) (Vt : ℕ → Vec Ideal S1024x512 .bf16)
    (r c : Fin 512) (t : ℕ) : EReal :=
  ∑ p : Fin 1024, scN Q Kt r (t * 1024 + p.val) * vlN Vt (t * 1024 + p.val) c

/-- What key tile t adds to the squared-score accumulator at row r. -/
def tileS (Q : Vec Ideal S512x512 .f32) (Kt : ℕ → Vec Ideal S1024x512 .f32) (r : Fin 512) (t : ℕ) : EReal :=
  ∑ p : Fin 1024, scN Q Kt r (t * 1024 + p.val) * scN Q Kt r (t * 1024 + p.val)

theorem pay6_tile (Q : Vec Ideal S512x512 .f32) (Kt : ℕ → Vec Ideal S1024x512 .f32) (Vt : ℕ → Vec Ideal S1024x512 .bf16)
    (A : Vec Ideal S512x512 .f32) (t : ℕ) (r c : Fin 512) :
    k1_pay6 (F := Ideal) (Kt t) (Vt t) Q A (ix2 r c) = A (ix2 r c) + tileV Q Kt Vt r c t := by
  refine (pay6_apply (Kt t) (Vt t) Q A r c).trans ?_
  refine congrArg (A (ix2 r c) + ·) ?_
  refine Finset.sum_congr rfl fun p _ => ?_
  exact congrArg₂ (· * ·) (pay4_tile Q Kt t r p) (tile_read Vt t p c).symm

theorem pay5_tile (Q : Vec Ideal S512x512 .f32) (Kt : ℕ → Vec Ideal S1024x512 .f32) (A : Vec Ideal S512x128 .f32)
    (t : ℕ) (r : Fin 512) (l : Fin 128) :
    k1_pay5 (F := Ideal) (Kt t) Q A (ix2 r l) = A (ix2 r l) + tileS Q Kt r t := by
  refine (pay5_apply (Kt t) Q A r l).trans ?_
  refine congrArg (A (ix2 r l) + ·) ?_
  refine Finset.sum_congr rfl fun p _ => ?_
  exact congrArg₂ (· * ·) (pay4_tile Q Kt t r p) (pay4_tile Q Kt t r p)

/-- After key tile j the value accumulator holds the contributions of tiles 0 … j. -/
theorem accV_apply (Q : Vec Ideal S512x512 .f32) (Kt : ℕ → Vec Ideal S1024x512 .f32) (Vt : ℕ → Vec Ideal S1024x512 .bf16)
    (r c : Fin 512) : ∀ j : ℕ, accV Q Kt Vt j (ix2 r c) = ∑ t : Fin (j + 1), tileV Q Kt Vt r c t.val
  | 0 => by
    refine (pay6_tile Q Kt Vt _ 0 r c).trans ?_
    rw [pay2_apply, zero_add, Fin.sum_univ_one]
    rfl
  | j + 1 => by
    refine (pay6_tile Q Kt Vt _ (j + 1) r c).trans ?_
    rw [accV_apply Q Kt Vt r c j]
    exact (Fin.sum_univ_castSucc fun t : Fin (j + 1 + 1) => tileV Q Kt Vt r c t.val).symm

/-- After key tile j the squared-score accumulator holds, in every lane, the contributions of tiles 0 … j. -/
theorem accS_apply (Q : Vec Ideal S512x512 .f32) (Kt : ℕ → Vec Ideal S1024x512 .f32) (r : Fin 512) (l : Fin 128) :
    ∀ j : ℕ, accS Q Kt j (ix2 r l) = ∑ t : Fin (j + 1), tileS Q Kt r t.val
  | 0 => by
    refine (pay5_tile Q Kt _ 0 r l).trans ?_
    rw [pay3_apply, zero_add, Fin.sum_univ_one]
    rfl
  | j + 1 => by
    refine (pay5_tile Q Kt _ (j + 1) r l).trans ?_
    rw [accS_apply Q Kt r l j]
    exact (Fin.sum_univ_castSucc fun t : Fin (j + 1 + 1) => tileS Q Kt r t.val).symm

/-- After the eighth key tile the value accumulator is the sum over all 8192 keys. -/
theorem accV_total (Q : Vec Ideal S512x512 .f32) (Kt : ℕ → Vec Ideal S1024x512 .f32) (Vt : ℕ → Vec Ideal S1024x512 .bf16)
    (r c : Fin 512) : accV Q Kt Vt 7 (ix2 r c) = ∑ n : Fin 8192, sc Q Kt r n * vl Vt n c :=
  (accV_apply Q Kt Vt r c 7).trans
    (Cert.LibERealStats.sum_tiles_of_eq 8 1024 8192 rfl fun n => scN Q Kt r n * vlN Vt n c)

/-- After the eighth key tile the squared-score accumulator is the sum over all 8192 keys. -/
theorem accS_total (Q : Vec Ideal S512x512 .f32) (Kt : ℕ → Vec Ideal S1024x512 .f32) (r : Fin 512) (l : Fin 128) :
    accS Q Kt 7 (ix2 r l) = ∑ n : Fin 8192, sc Q Kt r n * sc Q Kt r n :=
  (accS_apply Q Kt r l 7).trans
    (Cert.LibERealStats.sum_tiles_of_eq 8 1024 8192 rfl fun n => scN Q Kt r n * scN Q Kt r n)

/-- The output tile at (r, c): the scores of row r against the values of column c, divided by the larger of the
    Euclidean norm of the row of scores and the small constant. -/
theorem final_apply (Q : Vec Ideal S512x512 .f32) (Kt : ℕ → Vec Ideal S1024x512 .f32) (Vt : ℕ → Vec Ideal S1024x512 .bf16)
    (S1 : Vec Ideal S512x1 .f32)
    (hS1 : ∀ r : Fin 512, S1 (ix2 r (0 : Fin 1)) = accS Q Kt 7 (ix2 r (0 : Fin 128))) (r c : Fin 512) :
    k1_pay1 (F := Ideal) S1 (accV Q Kt Vt 7) (ix2 r c)
      = Ideal.div (∑ n : Fin 8192, sc Q Kt r n * vl Vt n c)
          (max (Ideal.sqrt (∑ n : Fin 8192, sc Q Kt r n * sc Q Kt r n)) Cert.Attn.eps) := by
  refine (pay1_apply S1 _ r c).trans ?_
  rw [hS1 r, accV_total, accS_total]
  rfl

end Cert.KernelIdeal.Hand.R1

end
-- ==== Proof.KI.R1Pieces.lean ====
/-
  What each case of the attention kernel's body leaves in the two accumulators and in the output tile, as the body's
  arithmetic applied to the blocks it loaded: the first point starts from zeros, every point adds its key tile's
  contribution, the last point stores the value accumulator divided through the first column of the squared-score one.
-/
import proofs.«150631_j57380763074621_2_alg».proof.Proof.KI.R1Frame
import proofs.«150631_j57380763074621_2_alg».proof.Proof.KI.R1Math
import proofs.«150631_j57380763074621_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen Cert.KernelIdeal.Hand.R1
open Idealize.ShloMosaic Idealize.ShloMosaic.TcCoe Idealize.ShloMosaic.ValueIdx Idealize.SL.Sem Idealize.ShloMosaic.Tactic
open Idealize.ShloMosaic.Pipeline (Dat)
open scoped BigOperators

variable {F : FTy → Type} [FloatOps F]

theorem hz1 : (![0, 0] : Fin 2 → Nat) = fun _ => 0 := funext fun a => by fin_cases a <;> rfl

/-- The 1024 rows of a key or value array that the point with coordinates i visits. -/
abbrev tileAt {e : EltTy} (X : Vec F S8192x512 e) (i : grid1.Coords) : Vec F S1024x512 e :=
  View.ld X (Rect.unit (s := S8192x512) (k1_off1 i) S1024x512.size (k1_off1_inb i))

/-- A middle point adds its key tile's contribution to the value accumulator. -/
theorem soutB0_eq (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : ¬cond1_1 i)
    (x0 : Vec F S512x512 .f32) (x1 : Vec F S8192x512 .f32) (x2 : Vec F S8192x512 .bf16) (xs0 : Vec F S512x512 .f32) (xs1 : Vec F S512x128 .f32) :
    sout1_B_0 c i arg2 harg2 arg3 harg3 arg4 harg4 arg5 harg5 arg6 harg6 arg7 harg7 hc0 hc1 x0 x1 x2 xs0 xs1 = k1_pay6 (tileAt x1 i) (tileAt x2 i) x0 xs0 := by
  unfold sout1_B_0
  rw [View.read_writes_eq_canon _ _ _ (scover1_B_0 c i arg2 harg2 arg3 harg3 arg4 harg4 arg5 harg5 arg6 harg6 arg7 harg7 hc0 hc1 x0 x1 x2 xs0 xs1)]
  unfold kernelRun1_B
  dsimp only
  rw [View.canon_unit_zero hz1]
  simp only [View.readAt_eq_ld, harg2.read_unread, harg3.read_unread, harg4.read_unread, harg6.read_unread, View.ld_unit_zero (S := S512x512) hz1]

/-- A middle point adds its key tile's contribution to the squared-score accumulator. -/
theorem soutB1_eq (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : ¬cond1_1 i)
    (x0 : Vec F S512x512 .f32) (x1 : Vec F S8192x512 .f32) (x2 : Vec F S8192x512 .bf16) (xs0 : Vec F S512x512 .f32) (xs1 : Vec F S512x128 .f32) :
    sout1_B_1 c i arg2 harg2 arg3 harg3 arg4 harg4 arg5 harg5 arg6 harg6 arg7 harg7 hc0 hc1 x0 x1 x2 xs0 xs1 = k1_pay5 (tileAt x1 i) x0 xs1 := by
  unfold sout1_B_1
  rw [View.read_writes_eq_canon _ _ _ (scover1_B_1 c i arg2 harg2 arg3 harg3 arg4 harg4 arg5 harg5 arg6 harg6 arg7 harg7 hc0 hc1 x0 x1 x2 xs0 xs1)]
  unfold kernelRun1_B
  dsimp only
  rw [View.canon_unit_zero hz1]
  simp only [View.readAt_eq_ld, harg2.read_unread, harg3.read_unread, harg7.read_unread, View.ld_unit_zero (S := S512x512) hz1, View.ld_unit_zero (S := S512x128) hz1]

/-- The first point clears the value accumulator and adds its key tile's contribution. -/
theorem soutA0_eq (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : cond1_0 i) (hc1 : ¬cond1_1 i) (x0 : Vec F S512x512 .f32) (x1 : Vec F S8192x512 .f32) (x2 : Vec F S8192x512 .bf16) :
    sout1_A_0 c i arg2 harg2 arg3 harg3 arg4 harg4 arg5 harg5 arg6 harg6 arg7 harg7 hc0 hc1 x0 x1 x2 = k1_pay6 (tileAt x1 i) (tileAt x2 i) x0 (k1_pay2 (F := F)) := by
  unfold sout1_A_0
  rw [View.read_writes_eq_canon _ _ _ (scover1_A_0 c i arg2 harg2 arg3 harg3 arg4 harg4 arg5 harg5 arg6 harg6 arg7 harg7 hc0 hc1 x0 x1 x2)]
  unfold kernelRun1_A
  dsimp only
  sl_unfold_run_names
  rw [View.canon_cons_unit_zero (S := S512x512) hz1, View.readCov_unit_zero (S := S512x512) _ hz1]
  simp only [View.readAt_eq_ld, harg2.read_unread, harg3.read_unread, harg4.read_unread, View.ld_unit_zero (S := S512x512) hz1]

/-- The first point clears the squared-score accumulator and adds its key tile's contribution. -/
theorem soutA1_eq (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : cond1_0 i) (hc1 : ¬cond1_1 i) (x0 : Vec F S512x512 .f32) (x1 : Vec F S8192x512 .f32) (x2 : Vec F S8192x512 .bf16) :
    sout1_A_1 c i arg2 harg2 arg3 harg3 arg4 harg4 arg5 harg5 arg6 harg6 arg7 harg7 hc0 hc1 x0 x1 x2 = k1_pay5 (tileAt x1 i) x0 (k1_pay3 (F := F)) := by
  unfold sout1_A_1
  rw [View.read_writes_eq_canon _ _ _ (scover1_A_1 c i arg2 harg2 arg3 harg3 arg4 harg4 arg5 harg5 arg6 harg6 arg7 harg7 hc0 hc1 x0 x1 x2)]
  unfold kernelRun1_A
  dsimp only
  sl_unfold_run_names
  rw [View.canon_cons_unit_zero (S := S512x128) hz1, View.readCov_unit_zero (S := S512x128) _ hz1]
  simp only [View.readAt_eq_ld, harg2.read_unread, harg3.read_unread, View.ld_unit_zero (S := S512x512) hz1]

/-- The last point adds its key tile's contribution to the value accumulator. -/
theorem soutC0_eq (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : cond1_1 i) (x0 : Vec F S512x512 .f32) (x1 : Vec F S8192x512 .f32) (x2 : Vec F S8192x512 .bf16) (xs0 : Vec F S512x512 .f32) (xs1 : Vec F S512x128 .f32) :
    sout1_C_0 c i arg2 harg2 arg3 harg3 arg4 harg4 arg5 harg5 arg6 harg6 arg7 harg7 hc0 hc1 x0 x1 x2 xs0 xs1 = k1_pay6 (tileAt x1 i) (tileAt x2 i) x0 xs0 := by
  unfold sout1_C_0
  rw [View.read_writes_eq_canon _ _ _ (scover1_C_0 c i arg2 harg2 arg3 harg3 arg4 harg4 arg5 harg5 arg6 harg6 arg7 harg7 hc0 hc1 x0 x1 x2 xs0 xs1)]
  unfold kernelRun1_C
  dsimp only
  sl_unfold_run_names
  rw [View.canon_unit_zero hz1]
  simp only [View.readAt_eq_ld, harg2.read_unread, harg3.read_unread, harg4.read_unread, harg6.read_unread, View.ld_unit_zero (S := S512x512) hz1]

/-- The last point adds its key tile's contribution to the squared-score accumulator. -/
theorem soutC1_eq (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : cond1_1 i) (x0 : Vec F S512x512 .f32) (x1 : Vec F S8192x512 .f32) (x2 : Vec F S8192x512 .bf16) (xs0 : Vec F S512x512 .f32) (xs1 : Vec F S512x128 .f32) :
    sout1_C_1 c i arg2 harg2 arg3 harg3 arg4 harg4 arg5 harg5 arg6 harg6 arg7 harg7 hc0 hc1 x0 x1 x2 xs0 xs1 = k1_pay5 (tileAt x1 i) x0 xs1 := by
  unfold sout1_C_1
  rw [View.read_writes_eq_canon _ _ _ (scover1_C_1 c i arg2 harg2 arg3 harg3 arg4 harg4 arg5 harg5 arg6 harg6 arg7 harg7 hc0 hc1 x0 x1 x2 xs0 xs1)]
  unfold kernelRun1_C
  dsimp only
  sl_unfold_run_names
  rw [View.canon_unit_zero hz1]
  simp only [View.readAt_eq_ld, harg2.read_unread, harg3.read_unread, harg7.read_unread, View.ld_unit_zero (S := S512x512) hz1, View.ld_unit_zero (S := S512x128) hz1]

/-- The first column of a [512, 128] array, as a [512, 1] array. -/
abbrev col0 (X : Vec F S512x128 .f32) : Vec F S512x1 .f32 :=
  fun j => X ((Rect.unit (s := S512x128) ![0, 0] S512x1.size inb_S512x128_S512x1_0_0).toLoadRect.idx j)

/-- The last point stores the output tile: the new value accumulator divided through the first column of the new
    squared-score accumulator. -/
theorem outC3_eq (c : Dev nD) (i : grid1.Coords) (arg2 : Memref sig .tc .vmem S512x512 .f32) (harg2 : arg2.IsWhole) (arg3 : Memref sig .tc .vmem S8192x512 .f32) (harg3 : arg3.IsWhole) (arg4 : Memref sig .tc .vmem S8192x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x128 .f32) (harg7 : arg7.IsWhole) (hc0 : ¬cond1_0 i) (hc1 : cond1_1 i) (x0 : Vec F S512x512 .f32) (x1 : Vec F S8192x512 .f32) (x2 : Vec F S8192x512 .bf16) (xs0 : Vec F S512x512 .f32) (xs1 : Vec F S512x128 .f32) :
    out1_C_3 c i arg2 harg2 arg3 harg3 arg4 harg4 arg5 harg5 arg6 harg6 arg7 harg7 hc0 hc1 x0 x1 x2 xs0 xs1
      = k1_pay1 (col0 (k1_pay5 (tileAt x1 i) x0 xs1)) (k1_pay6 (tileAt x1 i) (tileAt x2 i) x0 xs0) := by
  unfold out1_C_3
  rw [View.read_writes_eq_canon _ _ _ (cover1_C_3 c i arg2 harg2 arg3 harg3 arg4 harg4 arg5 harg5 arg6 harg6 arg7 harg7 hc0 hc1 x0 x1 x2 xs0 xs1)]
  unfold kernelRun1_C
  dsimp only
  sl_unfold_run_names
  rw [View.canon_unit_zero hz1, View.readCov_unit_zero (S := S512x512) _ hz1, View.readCov_eq_canon', View.canon_unit_zero hz1]
  simp only [View.readAt_eq_ld, harg2.read_unread, harg3.read_unread, harg4.read_unread, harg6.read_unread, harg7.read_unread, View.ld_unit_zero (S := S512x512) hz1, View.ld_unit_zero (S := S512x128) hz1]
  rfl

end Cert.KernelIdeal.Hand

end
-- ==== Proof.KI.R1Value.lean ====
/-
  The attention region's output tile, entry by entry.

  The grid's position t = 8·i + j visits query tile i (rows 512·i … 512·i + 511 of the query array) and key tile j
  (rows 1024·j … 1024·j + 1023 of the key and value arrays, cut out of the whole arrays the body is handed).  Within a
  query tile the two accumulators are cleared at j = 0 and every position adds its key tile's contribution, so after
  position t they hold the partial sums over the key tiles 0 … j of the tile's queries: this is an induction over the
  positions.  At j = 7 the sums run over all 8192 keys, and the body stores the value accumulator divided by the
  larger of the root of the squared-score sum and the small constant — the "multiply first, divide once" form of the
  specification at the rows of the query tile.
-/
import proofs.«150631_j57380763074621_2_alg».proof.Proof.KI.R1Pieces

set_option maxRecDepth 16384

noncomputable section

namespace Cert.KernelIdeal.Hand

open Cert.KernelIdeal Cert.KernelIdeal.Gen Cert.KernelIdeal.Hand.R1
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The tiles as parts of the three arrays -/

/-- Query tile i: rows 512·i … 512·i + 511 of the query array (the row is taken modulo 8192 only so that the
    definition makes sense for every natural number i). -/
def qTile (c : Dev nD) (i : ℕ) : Vec Ideal S512x512 .f32 := fun y =>
  (V c main_v3_0 : S8192x512.Idx → EReal) (ix2 ⟨(512 * i + (y 0).val) % 8192, Nat.mod_lt _ (by decide)⟩ (y 1))

/-- Key tile j: rows 1024·j … 1024·j + 1023 of the key array. -/
def keyTile (c : Dev nD) (j : ℕ) : Vec Ideal S1024x512 .f32 := fun y =>
  (V c main_v3_1 : S8192x512.Idx → EReal) (ix2 ⟨(1024 * j + (y 0).val) % 8192, Nat.mod_lt _ (by decide)⟩ (y 1))

/-- Value tile j: rows 1024·j … 1024·j + 1023 of the value array. -/
def valTile (c : Dev nD) (j : ℕ) : Vec Ideal S1024x512 .bf16 := fun y =>
  (V c main_v3_2 : S8192x512.Idx → EReal) (ix2 ⟨(1024 * j + (y 0).val) % 8192, Nat.mod_lt _ (by decide)⟩ (y 1))

/-- The grid has 128 positions. -/
theorem lt128' (t : Fin cfg1.N) : t.val < 128 := lt_of_lt_of_eq t.isLt N_1

/-- The input windows' index maps over the grid: position t takes row block t / 8 of the queries and the one block
    (the whole array) of the keys and of the values. -/
theorem idx1_0 : ∀ t : Fin cfg1.N, win1_0.index t (0 : Fin 2) = t.val / 8 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)

/-- Where the body cuts its key and value tiles: at row 1024·(t mod 8), column 0. -/
theorem off1_at : ∀ t : Fin cfg1.N, k1_off1 (grid1.coords t) (0 : Fin 2) = 1024 * (t.val % 8) ∧ k1_off1 (grid1.coords t) (1 : Fin 2) = 0 :=
  (by decide +kernel : ∀ t : Fin grid1.N, _)

/-- The query window's block at position t is query tile t / 8. -/
theorem iblk1_0_eq (c : Dev nD) (t : Fin cfg1.N) :
    (iblk1 V c 0 t : Vec Ideal S512x512 .f32) = qTile V c (t.val / 8) := by
  obtain ⟨h0, h1⟩ := idx1_0 t
  have ht := lt128' t
  funext y
  have hy : (y 0).val < 512 := (y 0).isLt
  unfold iblk1 qTile
  rw [View.read_apply]
  show V c main_v3_0 _ = V c main_v3_0 _
  congr 1
  funext a
  apply Fin.ext
  match a with
  | ⟨0, _⟩ => show win1_0.index t (0 : Fin 2) * 512 + 1 * (y 0).val = (512 * (t.val / 8) + (y 0).val) % 8192; rw [h0]; omega
  | ⟨1, _⟩ => show win1_0.index t (1 : Fin 2) * 512 + 1 * (y 1).val = (y 1).val; rw [h1]; omega

/-- The tile the body cuts out of the key window's block at position t is key tile t mod 8. -/
theorem tileAt_key (c : Dev nD) (t : Fin cfg1.N) :
    tileAt (iblk1 V c 1 t : Vec Ideal S8192x512 .f32) (grid1.coords t) = keyTile V c (t.val % 8) := by
  obtain ⟨h0, h1⟩ := idx1_1 t
  obtain ⟨o0, o1⟩ := off1_at t
  funext y
  have hy : (y 0).val < 1024 := (y 0).isLt
  show (iblk1 V c 1 t : Vec Ideal S8192x512 .f32) ((Rect.unit (s := S8192x512) (k1_off1 (grid1.coords t)) S1024x512.size (k1_off1_inb (grid1.coords t))).idx y) = _
  unfold iblk1 keyTile
  rw [View.read_apply]
  show V c main_v3_1 _ = V c main_v3_1 _
  congr 1
  funext a
  apply Fin.ext
  match a with
  | ⟨0, _⟩ => show win1_1.index t (0 : Fin 2) * 8192 + 1 * (k1_off1 (grid1.coords t) (0 : Fin 2) + 1 * (y 0).val) = (1024 * (t.val % 8) + (y 0).val) % 8192; rw [h0, o0]; omega
  | ⟨1, _⟩ => show win1_1.index t (1 : Fin 2) * 512 + 1 * (k1_off1 (grid1.coords t) (1 : Fin 2) + 1 * (y 1).val) = (y 1).val; rw [h1, o1]; omega

/-- The tile the body cuts out of the value window's block at position t is value tile t mod 8. -/
theorem tileAt_val (c : Dev nD) (t : Fin cfg1.N) :
    tileAt (iblk1 V c 2 t : Vec Ideal S8192x512 .bf16) (grid1.coords t) = valTile V c (t.val % 8) := by
  obtain ⟨h0, h1⟩ := idx1_2 t
  obtain ⟨o0, o1⟩ := off1_at t
  funext y
  have hy : (y 0).val < 1024 := (y 0).isLt
  show (iblk1 V c 2 t : Vec Ideal S8192x512 .bf16) ((Rect.unit (s := S8192x512) (k1_off1 (grid1.coords t)) S1024x512.size (k1_off1_inb (grid1.coords t))).idx y) = _
  unfold iblk1 valTile
  rw [View.read_apply]
  show V c main_v3_2 _ = V c main_v3_2 _
  congr 1
  funext a
  apply Fin.ext
  match a with
  | ⟨0, _⟩ => show win1_2.index t (0 : Fin 2) * 8192 + 1 * (k1_off1 (grid1.coords t) (0 : Fin 2) + 1 * (y 0).val) = (1024 * (t.val % 8) + (y 0).val) % 8192; rw [h0, o0]; omega
  | ⟨1, _⟩ => show win1_2.index t (1 : Fin 2) * 512 + 1 * (k1_off1 (grid1.coords t) (1 : Fin 2) + 1 * (y 1).val) = (y 1).val; rw [h1, o1]; omega

/-! ## One position's step on the accumulators -/

theorem pay6_congr {K K' : Vec Ideal S1024x512 .f32} {W W' : Vec Ideal S1024x512 .bf16} {Q Q' A A' : Vec Ideal S512x512 .f32}
    (hK : K = K') (hW : W = W') (hQ : Q = Q') (hA : A = A') :
    k1_pay6 (F := Ideal) K W Q A = k1_pay6 (F := Ideal) K' W' Q' A' := by
  subst hK hW hQ hA; rfl

theorem pay5_congr {K K' : Vec Ideal S1024x512 .f32} {Q Q' : Vec Ideal S512x512 .f32} {A A' : Vec Ideal S512x128 .f32}
    (hK : K = K') (hQ : Q = Q') (hA : A = A') :
    k1_pay5 (F := Ideal) K Q A = k1_pay5 (F := Ideal) K' Q' A' := by
  subst hK hQ hA; rfl

/-- At the first key tile of a query tile both accumulators are the tile's contribution over zeros. -/
theorem step_first (c : Dev nD) (t : Fin cfg1.N) (h0 : t.val % 8 = 0) :
    (outsAt1 (F := Ideal) V c t.val t.isLt).2.1
        = k1_pay6 (F := Ideal) (keyTile V c (t.val % 8)) (valTile V c (t.val % 8)) (qTile V c (t.val / 8)) (k1_pay2 (F := Ideal))
      ∧ (outsAt1 (F := Ideal) V c t.val t.isLt).2.2
        = k1_pay5 (F := Ideal) (keyTile V c (t.val % 8)) (qTile V c (t.val / 8)) (k1_pay3 (F := Ideal)) := by
  have h1 : ¬t.val % 8 = 7 := by omega
  rw [outsAt1_A V c t h0 h1]
  dsimp only
  exact ⟨(soutA0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t)).trans
      (pay6_congr (tileAt_key V c t) (tileAt_val V c t) (iblk1_0_eq V c t) rfl),
    (soutA1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t)).trans
      (pay5_congr (tileAt_key V c t) (iblk1_0_eq V c t) rfl)⟩

/-- At every later key tile both accumulators are the tile's contribution over what the position before left. -/
theorem step_later (c : Dev nD) (t : Fin cfg1.N) (h0 : ¬t.val % 8 = 0) :
    (outsAt1 (F := Ideal) V c t.val t.isLt).2.1
        = k1_pay6 (F := Ideal) (keyTile V c (t.val % 8)) (valTile V c (t.val % 8)) (qTile V c (t.val / 8))
            (outsAt1 (F := Ideal) V c (t.val - 1) (Nat.lt_of_le_of_lt (Nat.sub_le _ _) t.isLt)).2.1
      ∧ (outsAt1 (F := Ideal) V c t.val t.isLt).2.2
        = k1_pay5 (F := Ideal) (keyTile V c (t.val % 8)) (qTile V c (t.val / 8))
            (outsAt1 (F := Ideal) V c (t.val - 1) (Nat.lt_of_le_of_lt (Nat.sub_le _ _) t.isLt)).2.2 := by
  by_cases h1 : t.val % 8 = 7
  · rw [outsAt1_C V c t h0 h1]
    dsimp only
    exact ⟨(soutC0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2).trans
        (pay6_congr (tileAt_key V c t) (tileAt_val V c t) (iblk1_0_eq V c t) rfl),
      (soutC1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2).trans
        (pay5_congr (tileAt_key V c t) (iblk1_0_eq V c t) rfl)⟩
  · rw [outsAt1_B V c t h0 h1]
    dsimp only
    exact ⟨(soutB0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2).trans
        (pay6_congr (tileAt_key V c t) (tileAt_val V c t) (iblk1_0_eq V c t) rfl),
      (soutB1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2).trans
        (pay5_congr (tileAt_key V c t) (iblk1_0_eq V c t) rfl)⟩

/-- At a last key tile the body stores the new value accumulator divided through the first column of the new
    squared-score accumulator. -/
theorem out_last (c : Dev nD) (t : Fin cfg1.N) (h0 : ¬t.val % 8 = 0) (h1 : t.val % 8 = 7) :
    (outsAt1 (F := Ideal) V c t.val t.isLt).1
      = k1_pay1 (F := Ideal) (col0 (outsAt1 (F := Ideal) V c t.val t.isLt).2.2) (outsAt1 (F := Ideal) V c t.val t.isLt).2.1 := by
  rw [outsAt1_C V c t h0 h1]
  dsimp only
  exact (outC3_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2).trans
    (congrArg₂ (fun a b => k1_pay1 (F := Ideal) (col0 a) b)
      (soutC1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2).symm
      (soutC0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2).symm)

/-! ## The accumulators after every position -/

/-- After position n = 8·i + j the accumulators hold the partial sums over key tiles 0 … j for query tile i. -/
theorem acc_at (c : Dev nD) : ∀ (n : ℕ) (hn : n < cfg1.N),
    (outsAt1 (F := Ideal) V c n hn).2.1 = accV (qTile V c (n / 8)) (keyTile V c) (valTile V c) (n % 8)
      ∧ (outsAt1 (F := Ideal) V c n hn).2.2 = accS (qTile V c (n / 8)) (keyTile V c) (n % 8) := by
  intro n
  induction n with
  | zero =>
    intro hn
    have h := step_first V c ⟨0, hn⟩ (Nat.zero_mod 8)
    exact h
  | succ m ih =>
    intro hn
    by_cases h0 : (m + 1) % 8 = 0
    · have h := step_first V c ⟨m + 1, hn⟩ h0
      have e : (m + 1) % 8 = 0 := h0
      refine ⟨h.1.trans ?_, h.2.trans ?_⟩
      · show k1_pay6 (F := Ideal) (keyTile V c ((m + 1) % 8)) (valTile V c ((m + 1) % 8)) (qTile V c ((m + 1) / 8)) (k1_pay2 (F := Ideal)) = accV (qTile V c ((m + 1) / 8)) (keyTile V c) (valTile V c) ((m + 1) % 8)
        rw [e]; rfl
      · show k1_pay5 (F := Ideal) (keyTile V c ((m + 1) % 8)) (qTile V c ((m + 1) / 8)) (k1_pay3 (F := Ideal)) = accS (qTile V c ((m + 1) / 8)) (keyTile V c) ((m + 1) % 8)
        rw [e]; rfl
    · have h := step_later V c ⟨m + 1, hn⟩ h0
      have ihm := ih (Nat.lt_of_succ_lt hn)
      obtain ⟨j, hj⟩ : ∃ j, (m + 1) % 8 = j + 1 := ⟨(m + 1) % 8 - 1, by omega⟩
      have e1 : m % 8 = j := by omega
      have e2 : m / 8 = (m + 1) / 8 := by omega
      rw [e1, e2] at ihm
      refine ⟨h.1.trans ?_, h.2.trans ?_⟩
      · show k1_pay6 (F := Ideal) (keyTile V c ((m + 1) % 8)) (valTile V c ((m + 1) % 8)) (qTile V c ((m + 1) / 8)) (outsAt1 (F := Ideal) V c m (Nat.lt_of_succ_lt hn)).2.1 = accV (qTile V c ((m + 1) / 8)) (keyTile V c) (valTile V c) ((m + 1) % 8)
        rw [ihm.1, hj]; rfl
      · show k1_pay5 (F := Ideal) (keyTile V c ((m + 1) % 8)) (qTile V c ((m + 1) / 8)) (outsAt1 (F := Ideal) V c m (Nat.lt_of_succ_lt hn)).2.2 = accS (qTile V c ((m + 1) / 8)) (keyTile V c) ((m + 1) % 8)
        rw [ihm.2, hj]; rfl

/-! ## The tiles read back as the specification's matrices -/

/-- Row r of query tile i is row 512·i + r of the query array. -/
theorem qTile_apply (c : Dev nD) (i : ℕ) (r d : Fin 512) (n : Fin 8192) (hn : n.val = 512 * i + r.val) :
    qTile V c i (ix2 r d) = Cert.Attn.mat (V c main_v3_0) n d := by
  show V c main_v3_0 (ix2 ⟨(512 * i + r.val) % 8192, _⟩ d) = V c main_v3_0 (ix2 n d)
  have hn' := n.isLt
  congr 2
  apply Fin.ext
  show (512 * i + r.val) % 8192 = n.val
  omega

/-- The score of row r of query tile i against key n, as the specification's score. -/
theorem sc_spec (c : Dev nD) (i : ℕ) (r : Fin 512) (n : Fin 8192) (hn : n.val = 512 * i + r.val) (k : Fin 8192) :
    sc (qTile V c i) (keyTile V c) r k
      = Cert.Attn.score (Cert.Attn.mat (V c main_v3_0)) (Cert.Attn.mat (V c main_v3_1)) n k := by
  unfold sc Cert.Attn.score
  refine Finset.sum_congr rfl fun d _ => ?_
  refine congrArg₂ (· * ·) (qTile_apply V c i r d n hn) ?_
  show V c main_v3_1 (ix2 ⟨(1024 * (k.val / 1024) + k.val % 1024) % 8192, _⟩ d) = V c main_v3_1 (ix2 k d)
  have hk := k.isLt
  congr 2
  apply Fin.ext
  show (1024 * (k.val / 1024) + k.val % 1024) % 8192 = k.val
  omega

/-- The value entry (k, e) of the tiles, as the specification's value matrix. -/
theorem vl_spec (c : Dev nD) (k : Fin 8192) (e : Fin 512) :
    vl (valTile V c) k e = Cert.Attn.mat (V c main_v3_2) k e := by
  show V c main_v3_2 (ix2 ⟨(1024 * (k.val / 1024) + k.val % 1024) % 8192, _⟩ e) = V c main_v3_2 (ix2 k e)
  have hk := k.isLt
  congr 2
  apply Fin.ext
  show (1024 * (k.val / 1024) + k.val % 1024) % 8192 = k.val
  omega

/-- The first column of a [512, 128] array at row r is its entry (r, 0). -/
theorem col0_apply (X : Vec Ideal S512x128 .f32) (r : Fin 512) :
    col0 X (ix2 r (0 : Fin 1)) = X (ix2 r (0 : Fin 128)) := by
  show X _ = X _
  congr 1
  funext a
  apply Fin.ext
  match a with
  | ⟨0, _⟩ => show 0 + 1 * r.val = r.val; omega
  | ⟨1, _⟩ => show 0 + 1 * 0 = 0; rfl

/-! ## The output tile -/

/-- What a last key-tile position leaves in the output window's buffer, at (r, e): the specification's "multiply
    first, divide once" form at row 512·(t / 8) + r. -/
theorem tile_apply (c : Dev nD) (t : Fin cfg1.N) (ht : t.val % 8 = 7) (r e : Fin 512) (n : Fin 8192)
    (hn : n.val = 512 * (t.val / 8) + r.val) :
    (outsAt1 (F := Ideal) V c t.val t.isLt).1 (ix2 r e)
      = Cert.Attn.outSum (Cert.Attn.score (Cert.Attn.mat (V c main_v3_0)) (Cert.Attn.mat (V c main_v3_1))) (Cert.Attn.mat (V c main_v3_2)) n e := by
  have h0 : ¬t.val % 8 = 0 := by omega
  have hacc := acc_at V c t.val t.isLt
  rw [ht] at hacc
  rw [out_last V c t h0 ht, hacc.1, hacc.2]
  refine (final_apply (qTile V c (t.val / 8)) (keyTile V c) (valTile V c) _ (fun r' => col0_apply _ r') r e).trans ?_
  unfold Cert.Attn.outSum Cert.Attn.denom
  refine congrArg₂ Ideal.div ?_ ?_
  · refine Finset.sum_congr rfl fun k _ => ?_
    exact congrArg₂ (· * ·) (sc_spec V c (t.val / 8) r n hn k) (vl_spec V c k e)
  · refine congrArg (fun s => max (Ideal.sqrt s) Cert.Attn.eps) ?_
    refine Finset.sum_congr rfl fun k _ => ?_
    exact congrArg₂ (· * ·) (sc_spec V c (t.val / 8) r n hn k) (sc_spec V c (t.val / 8) r n hn k)

end Cert.KernelIdeal.Hand

end
-- ==== Proof.KI.R1Out.lean ====
/-
  The attention region's output array, entry by entry: every row n lies in the tile of 512 rows that the last key-tile
  point of its query tile writes back, and what that point stores is the "multiply first, divide once" form of the
  region's three input arrays.
-/
import proofs.«150631_j57380763074621_2_alg».proof.Proof.KI.R1Cover
import proofs.«150631_j57380763074621_2_alg».proof.Proof.KI.R1Value
import proofs.«150631_j57380763074621_2_alg».proof.Proof.Spec

noncomputable section

namespace Cert.KernelIdeal.Hand

open Cert.KernelIdeal Cert.KernelIdeal.Gen
open Idealize.ShloMosaic Idealize.ShloMosaic.TcCoe Idealize.ShloMosaic.ValueIdx Idealize.SL.Sem

/-- The output array at (n, e). -/
theorem out_apply (V : (c : Dev nD) → (b : Ref sig .tc) → Buf (Elt Ideal) ((c : Thread nD τ).loc b)) (c : Dev nD) (n : Fin 8192) (e : Fin 512) :
    (dat1 (F := Ideal) V c).arrAt 3 cfg1.N (ix2 n e)
      = Cert.Attn.outSum (Cert.Attn.score (Cert.Attn.mat (V c main_v3_0)) (Cert.Attn.mat (V c main_v3_1))) (Cert.Attn.mat (V c main_v3_2)) n e := by
  rw [arrAt3_of_blocks V c
    (fun j => Cert.Attn.outSum (Cert.Attn.score (Cert.Attn.mat (V c main_v3_0)) (Cert.Attn.mat (V c main_v3_1))) (Cert.Attn.mat (V c main_v3_2)) (j 0) (j 1))
    (fun t ht r e n hn => tile_apply V c t ht r e n hn)]

end Cert.KernelIdeal.Hand

end
-- ==== Proof.RefIsSpec.lean ====
/-
  The reference program computes the specification's "divide first" arrangement.

  Each lemma reads one intermediate array of the reference at coordinates: the three linear layers, the scores, the
  divisor of a row, the divided scores, and the final product with the values.
-/
import proofs.«150631_j57380763074621_2_alg».proof.Proof.Gen.ReferenceIdeal.Read
import proofs.«150631_j57380763074621_2_alg».proof.Proof.Spec

noncomputable section

namespace Cert.ReferenceIdeal.RefValue

open Cert.ReferenceIdeal Cert.ReferenceIdeal.Read Idealize.ShloMosaic Idealize.ShloMosaic.ValueIdx
open scoped BigOperators

/-- The queries: row `n` of the input against row `e` of the first weight matrix, plus the bias. -/
theorem q_apply (x0 : (⟨S8192x512, .f32⟩ : BufTy).Contents (Elt Ideal)) (x1 : (⟨S512x512, .f32⟩ : BufTy).Contents (Elt Ideal))
    (x2 : (⟨S512, .f32⟩ : BufTy).Contents (Elt Ideal)) (n : Fin 8192) (e : Fin 512) :
    val_main_v4 (F := Ideal) x0 x1 x2 (ix2 n e)
      = Cert.Attn.proj (Cert.Attn.mat x0) (Cert.Attn.mat x1) (Cert.Attn.vec x2) n e := by
  have hl : ∀ k : Fin 512, lidx_main_v1 (ix2 n e) k = ix2 n k := fun k =>
    funext fun a => Fin.ext (by match a with | ⟨0, _⟩ => rfl | ⟨1, _⟩ => rfl)
  have hr : ∀ k : Fin 512, idx_main_v0 (ridx_main_v1 (ix2 n e) k) = ix2 e k := fun k =>
    funext fun a => Fin.ext (by match a with | ⟨0, _⟩ => rfl | ⟨1, _⟩ => rfl)
  have hb : idx_main_v2 (idx_main_v3 (ix2 n e)) = ix1 e :=
    funext fun a => Fin.ext (by match a with | ⟨0, _⟩ => rfl)
  rw [val_main_v4_apply, val_main_v1_apply, val_main_v3_apply, val_main_v2_apply, hb, Ideal.addf_def]
  unfold Cert.Attn.proj Cert.Attn.mat Cert.Attn.vec
  refine congrArg (· + _) (Finset.sum_congr rfl fun k _ => ?_)
  rw [val_main_v0_apply, hl, hr]

/-- The keys: the same layer with the second weight matrix and bias. -/
theorem k_apply (x0 : (⟨S8192x512, .f32⟩ : BufTy).Contents (Elt Ideal)) (x3 : (⟨S512x512, .f32⟩ : BufTy).Contents (Elt Ideal))
    (x4 : (⟨S512, .f32⟩ : BufTy).Contents (Elt Ideal)) (n : Fin 8192) (e : Fin 512) :
    val_main_v9 (F := Ideal) x0 x3 x4 (ix2 n e)
      = Cert.Attn.proj (Cert.Attn.mat x0) (Cert.Attn.mat x3) (Cert.Attn.vec x4) n e := by
  have hl : ∀ k : Fin 512, lidx_main_v6 (ix2 n e) k = ix2 n k := fun k =>
    funext fun a => Fin.ext (by match a with | ⟨0, _⟩ => rfl | ⟨1, _⟩ => rfl)
  have hr : ∀ k : Fin 512, idx_main_v5 (ridx_main_v6 (ix2 n e) k) = ix2 e k := fun k =>
    funext fun a => Fin.ext (by match a with | ⟨0, _⟩ => rfl | ⟨1, _⟩ => rfl)
  have hb : idx_main_v7 (idx_main_v8 (ix2 n e)) = ix1 e :=
    funext fun a => Fin.ext (by match a with | ⟨0, _⟩ => rfl)
  rw [val_main_v9_apply, val_main_v6_apply, val_main_v8_apply, val_main_v7_apply, hb, Ideal.addf_def]
  unfold Cert.Attn.proj Cert.Attn.mat Cert.Attn.vec
  refine congrArg (· + _) (Finset.sum_congr rfl fun k _ => ?_)
  rw [val_main_v5_apply, hl, hr]

/-- The values: the same layer with the third weight matrix and bias. -/
theorem v_apply (x0 : (⟨S8192x512, .f32⟩ : BufTy).Contents (Elt Ideal)) (x5 : (⟨S512x512, .f32⟩ : BufTy).Contents (Elt Ideal))
    (x6 : (⟨S512, .f32⟩ : BufTy).Contents (Elt Ideal)) (n : Fin 8192) (e : Fin 512) :
    val_main_v14 (F := Ideal) x0 x5 x6 (ix2 n e)
      = Cert.Attn.proj (Cert.Attn.mat x0) (Cert.Attn.mat x5) (Cert.Attn.vec x6) n e := by
  have hl : ∀ k : Fin 512, lidx_main_v11 (ix2 n e) k = ix2 n k := fun k =>
    funext fun a => Fin.ext (by match a with | ⟨0, _⟩ => rfl | ⟨1, _⟩ => rfl)
  have hr : ∀ k : Fin 512, idx_main_v10 (ridx_main_v11 (ix2 n e) k) = ix2 e k := fun k =>
    funext fun a => Fin.ext (by match a with | ⟨0, _⟩ => rfl | ⟨1, _⟩ => rfl)
  have hb : idx_main_v12 (idx_main_v13 (ix2 n e)) = ix1 e :=
    funext fun a => Fin.ext (by match a with | ⟨0, _⟩ => rfl)
  rw [val_main_v14_apply, val_main_v11_apply, val_main_v13_apply, val_main_v12_apply, hb, Ideal.addf_def]
  unfold Cert.Attn.proj Cert.Attn.mat Cert.Attn.vec
  refine congrArg (· + _) (Finset.sum_congr rfl fun k _ => ?_)
  rw [val_main_v10_apply, hl, hr]

/-- The scores: query `i` against key `j`. -/
theorem s_apply (x0 : (⟨S8192x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (i j : Fin 8192) :
    val_main_v16 (F := Ideal) x0 x1 x2 x3 x4 (ix2 i j)
      = Cert.Attn.score (Cert.Attn.proj (Cert.Attn.mat x0) (Cert.Attn.mat x1) (Cert.Attn.vec x2))
          (Cert.Attn.proj (Cert.Attn.mat x0) (Cert.Attn.mat x3) (Cert.Attn.vec x4)) i j := by
  have hl : ∀ k : Fin 512, lidx_main_v16 (ix2 i j) k = ix2 i k := fun k =>
    funext fun a => Fin.ext (by match a with | ⟨0, _⟩ => rfl | ⟨1, _⟩ => rfl)
  have hr : ∀ k : Fin 512, idx_main_v15 (ridx_main_v16 (ix2 i j) k) = ix2 j k := fun k =>
    funext fun a => Fin.ext (by match a with | ⟨0, _⟩ => rfl | ⟨1, _⟩ => rfl)
  rw [val_main_v16_apply]
  unfold Cert.Attn.score
  refine Finset.sum_congr rfl fun k _ => ?_
  rw [val_main_v15_apply, hl, hr, q_apply, k_apply]

/-- The divisor of row `i`: the larger of the row's Euclidean norm and the small constant. -/
theorem den_apply (x0 : (⟨S8192x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (i : Fin 8192) (z : Fin 1) :
    val_main_v22 (F := Ideal) x0 x1 x2 x3 x4 (ix2 i z)
      = Cert.Attn.denom (Cert.Attn.score (Cert.Attn.proj (Cert.Attn.mat x0) (Cert.Attn.mat x1) (Cert.Attn.vec x2))
          (Cert.Attn.proj (Cert.Attn.mat x0) (Cert.Attn.mat x3) (Cert.Attn.vec x4))) i := by
  have h19 : idx_main_v19 (ix2 i z) = ix1 i :=
    funext fun a => Fin.ext (by match a with | ⟨0, _⟩ => rfl)
  have h18 : ∀ k : Fin 8192, idx_main_v18 (ix1 i) k = ix2 i k := fun k =>
    funext fun a => Fin.ext (by match a with | ⟨0, _⟩ => rfl | ⟨1, _⟩ => rfl)
  rw [val_main_v22_apply, val_main_v20_apply, val_main_v19_apply, h19, val_main_v18_apply, val_main_cst_apply,
    val_main_v21_apply, val_main_cst_0_apply, Ideal.maximumf_def, Ideal.hostUnary_sqrt_def, Ideal.ofBits_def,
    Ideal.ofBits_def, Ideal.ofBits_zero_f32, zero_add]
  unfold Cert.Attn.denom Cert.Attn.eps
  refine congrArg (fun t => max (Ideal.sqrt t) _) (Finset.sum_congr rfl fun k _ => ?_)
  rw [val_main_v17_apply, h18, s_apply, Ideal.mulf_def]

/-- The divided scores: score `(i, j)` over the divisor of row `i`. -/
theorem w_apply (x0 : (⟨S8192x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (i j : Fin 8192) :
    val_main_v24 (F := Ideal) x0 x1 x2 x3 x4 (ix2 i j)
      = Ideal.div
          (Cert.Attn.score (Cert.Attn.proj (Cert.Attn.mat x0) (Cert.Attn.mat x1) (Cert.Attn.vec x2))
            (Cert.Attn.proj (Cert.Attn.mat x0) (Cert.Attn.mat x3) (Cert.Attn.vec x4)) i j)
          (Cert.Attn.denom (Cert.Attn.score (Cert.Attn.proj (Cert.Attn.mat x0) (Cert.Attn.mat x1) (Cert.Attn.vec x2))
            (Cert.Attn.proj (Cert.Attn.mat x0) (Cert.Attn.mat x3) (Cert.Attn.vec x4))) i) := by
  have h23 : idx_main_v23 (ix2 i j) = ix2 i (0 : Fin 1) :=
    funext fun a => Fin.ext (by match a with | ⟨0, _⟩ => rfl | ⟨1, _⟩ => rfl)
  rw [val_main_v24_apply, val_main_v23_apply, h23, den_apply, s_apply, Ideal.hostDivf_def]

/-- The reference's result is the specification's "divide first" arrangement. -/
theorem ref_eq (x0 : (⟨S8192x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (i : Fin 8192) (c : Fin 512) :
    Cert.ReferenceIdeal.Read.val_main_v25 (F := Ideal) x0 x1 x2 x3 x4 x5 x6 (ix2 i c)
      = Cert.Attn.attnNorm (Cert.Attn.mat x0) (Cert.Attn.mat x1) (Cert.Attn.vec x2) (Cert.Attn.mat x3) (Cert.Attn.vec x4) (Cert.Attn.mat x5) (Cert.Attn.vec x6) i c := by
  have hl : ∀ k : Fin 8192, lidx_main_v25 (ix2 i c) k = ix2 i k := fun k =>
    funext fun a => Fin.ext (by match a with | ⟨0, _⟩ => rfl | ⟨1, _⟩ => rfl)
  have hr : ∀ k : Fin 8192, ridx_main_v25 (ix2 i c) k = ix2 k c := fun k =>
    funext fun a => Fin.ext (by match a with | ⟨0, _⟩ => rfl | ⟨1, _⟩ => rfl)
  rw [val_main_v25_apply]
  unfold Cert.Attn.attnNorm Cert.Attn.outNorm
  refine Finset.sum_congr rfl fun k _ => ?_
  rw [hl, hr, w_apply, v_apply]

end Cert.ReferenceIdeal.RefValue

end
-- ==== Proof.Law.lean ====
/-
  With finite entries the two arrangements of the specification agree.

  The divisor of a row is one positive real: the sum of the squared scores of the row is a nonnegative real, its
  square root is a real, and the small constant is a positive real, so their maximum is a positive real.  Dividing by
  a nonzero real is multiplying by its reciprocal, which distributes over a finite sum of reals.
-/
import proofs.«150631_j57380763074621_2_alg».proof.Proof.Spec
import proofs.«150631_j57380763074621_2_alg».proof.Proof.LibERealStats

noncomputable section

namespace Cert.Attn

open Cert.LibERealStats Idealize.ShloMosaic
open scoped BigOperators

/-- The small constant is a positive real. -/
theorem eps_pos_real : ∃ r : ℝ, 0 < r ∧ eps = (r : EReal) := by
  refine ⟨9223372 * ((2 : ℝ) ^ 63)⁻¹, by positivity, ?_⟩
  unfold eps
  simp [Ideal.ofBits, Ideal.ieee]

/-- A linear layer of finite entries has finite entries. -/
theorem proj_isReal (x : Mat 8192 512) (W : Mat 512 512) (b : Fin 512 → EReal)
    (hx : ∀ n d, IsReal (x n d)) (hW : ∀ e d, IsReal (W e d)) (hb : ∀ e, IsReal (b e)) (n : Fin 8192) (e : Fin 512) :
    IsReal (proj x W b n e) :=
  (IsReal.sum_univ fun d => (hx n d).mul (hW e d)).add (hb e)

/-- The scores of finite queries and keys are finite. -/
theorem score_isReal (q k : Mat 8192 512) (hq : ∀ n d, IsReal (q n d)) (hk : ∀ n d, IsReal (k n d)) (i j : Fin 8192) :
    IsReal (score q k i j) :=
  IsReal.sum_univ fun d => (hq i d).mul (hk j d)

/-- The larger of the Euclidean norm of finitely many reals and the small constant is a nonzero real. -/
theorem max_norm_eps_real {ι : Type*} [Fintype ι] (a : ι → EReal) (ha : ∀ j, IsReal (a j)) :
    ∃ d : ℝ, d ≠ 0 ∧ max (Ideal.sqrt (∑ j, a j * a j)) eps = (d : EReal) := by
  obtain ⟨f, rfl⟩ : ∃ f : ι → ℝ, a = fun j => (f j : EReal) :=
    ⟨fun j => (ha j).choose, funext fun j => (ha j).choose_spec⟩
  obtain ⟨e, he, hee⟩ := eps_pos_real
  dsimp only
  have h1 : ∑ j, ((f j : ℝ) : EReal) * ((f j : ℝ) : EReal) = ((∑ j, f j * f j : ℝ) : EReal) := by
    rw [coe_sum]; exact Finset.sum_congr rfl fun j _ => by rw [EReal.coe_mul]
  have h0 : ¬ (∑ j, f j * f j) < 0 := not_lt.mpr (Finset.sum_nonneg fun j _ => mul_self_nonneg (f j))
  rw [h1, Ideal.sqrt_coe, if_neg h0, hee, ← coe_max]
  exact ⟨_, (lt_of_lt_of_le he (le_max_right _ _)).ne', rfl⟩

/-- The divisor of a row of finite scores is a nonzero real. -/
theorem denom_real (s : Mat 8192 8192) (hs : ∀ i j, IsReal (s i j)) (i : Fin 8192) :
    ∃ d : ℝ, d ≠ 0 ∧ denom s i = (d : EReal) :=
  max_norm_eps_real (fun j => s i j) (hs i)

/-- Dividing a finite sum of products of reals by a nonzero real is dividing the first factor of every term. -/
theorem div_sum_mul {ι : Type*} [Fintype ι] (a b : ι → EReal) (ha : ∀ j, IsReal (a j)) (hb : ∀ j, IsReal (b j))
    {d : ℝ} (hd : d ≠ 0) :
    Ideal.div (∑ j, a j * b j) (d : EReal) = ∑ j, Ideal.div (a j) (d : EReal) * b j := by
  obtain ⟨f, rfl⟩ : ∃ f : ι → ℝ, a = fun j => (f j : EReal) :=
    ⟨fun j => (ha j).choose, funext fun j => (ha j).choose_spec⟩
  obtain ⟨g, rfl⟩ : ∃ g : ι → ℝ, b = fun j => (g j : EReal) :=
    ⟨fun j => (hb j).choose, funext fun j => (hb j).choose_spec⟩
  dsimp only
  have h1 : ∑ j, ((f j : ℝ) : EReal) * ((g j : ℝ) : EReal) = ((∑ j, f j * g j : ℝ) : EReal) := by
    rw [coe_sum]; exact Finset.sum_congr rfl fun j _ => by rw [EReal.coe_mul]
  have h2 : ∑ j, Ideal.div ((f j : ℝ) : EReal) (d : EReal) * ((g j : ℝ) : EReal)
      = ((∑ j, f j / d * g j : ℝ) : EReal) := by
    rw [coe_sum]; exact Finset.sum_congr rfl fun j _ => by rw [div_coe_coe _ hd, EReal.coe_mul]
  rw [h1, h2, div_coe_coe _ hd, Finset.sum_div]
  exact congrArg _ (Finset.sum_congr rfl fun j _ => by ring)

/-- For finite scores and values, multiplying first and dividing once is dividing first and multiplying afterwards. -/
theorem outSum_eq_outNorm (s : Mat 8192 8192) (v : Mat 8192 512) (hs : ∀ i j, IsReal (s i j))
    (hv : ∀ j c, IsReal (v j c)) : outSum s v = outNorm s v := by
  funext i c
  obtain ⟨d, hd, hden⟩ := denom_real s hs i
  unfold outSum outNorm
  rw [hden]
  exact div_sum_mul (fun j => s i j) (fun j => v j c) (hs i) (fun j => hv j c) hd

/-- With finite inputs the two arrangements of the whole computation agree. -/
theorem attnSum_eq_attnNorm (x : Mat 8192 512) (Wq : Mat 512 512) (bq : Fin 512 → EReal) (Wk : Mat 512 512) (bk : Fin 512 → EReal) (Wv : Mat 512 512) (bv : Fin 512 → EReal)
    (hx : ∀ n d, Cert.LibERealStats.IsReal (x n d)) (hWq : ∀ e d, Cert.LibERealStats.IsReal (Wq e d)) (hbq : ∀ e, Cert.LibERealStats.IsReal (bq e))
    (hWk : ∀ e d, Cert.LibERealStats.IsReal (Wk e d)) (hbk : ∀ e, Cert.LibERealStats.IsReal (bk e))
    (hWv : ∀ e d, Cert.LibERealStats.IsReal (Wv e d)) (hbv : ∀ e, Cert.LibERealStats.IsReal (bv e)) :
    attnSum x Wq bq Wk bk Wv bv = attnNorm x Wq bq Wk bk Wv bv := by
  unfold attnSum attnNorm
  exact outSum_eq_outNorm _ _
    (score_isReal _ _ (proj_isReal x Wq bq hx hWq hbq) (proj_isReal x Wk bk hx hWk hbk))
    (proj_isReal x Wv bv hx hWv hbv)

end Cert.Attn

end
-- ==== Proof.Finite.lean ====
/-
  The printed precondition says that every input entry is a real.

  The precondition is a conjunction of seven tests, one per input: the absolute value of every entry compares below the
  word of positive infinity.  That word denotes the top element of the extended reals, and an extended real whose
  absolute value is below the top element is neither infinity, hence a real.
-/
import proofs.«150631_j57380763074621_2_alg».proof.Pre_finite_inputs
import proofs.«150631_j57380763074621_2_alg».proof.Proof.LibERealStats
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Cert.LibERealStats Cert.Pre_finite_inputs Cert.Pre_finite_inputs.Facts

variable [Cert.Pre_finite_inputs.Facts]

/-- The scalar shape has one index. -/
instance : Subsingleton Cert.Pre_finite_inputs.S_.Idx := ⟨fun _ _ => funext fun d => d.elim0⟩

/-- The word of positive infinity denotes the top element. -/
theorem inf_word : Ideal.ofBits .f32 0x7F800000#32 = ⊤ := by simp [Ideal.ofBits, Ideal.ieee]

/-- A strict comparison of extended reals that answers 1 holds. -/
theorem lt_of_cmp_olt {a b : EReal} (h : Ideal.cmp .olt a b = 1#1) : a < b := by
  by_contra hn
  have h0 : Ideal.cmp .olt a b = 0#1 := by
    unfold Ideal.cmp
    simp only [decide_eq_false hn]
    rfl
  rw [h0] at h
  exact absurd h (by decide)

/-- An entry whose absolute value compares below the broadcast word of positive infinity is a real. -/
theorem isReal_of_cmp {s : Shape} (x : FVec Ideal s .f32) (bc : S_.BroadcastsInDim s (![] : Fin 0 → Fin s.rank)) (i : s.Idx)
    (h : cmpf .olt (Host.absf x) (broadcastInDim s ![] bc (constant (F := Ideal) S_ .f32 0x7F800000#32)) i = 1#1) :
    IsReal (x i) := by
  have hb : broadcastInDim s ![] bc (constant (F := Ideal) S_ .f32 0x7F800000#32) i = ⊤ := by
    rw [broadcastInDim_apply _ bc _ i (fun a => a.elim0) (fun a => a.elim0), ValueIdx.constant_apply, inf_word]
  rw [ValueIdx.cmpf_apply, hb] at h
  have h2 : max (x i) (-(x i)) < ⊤ := lt_of_cmp_olt h
  exact isReal_of_abs_lt_top h2

/-- Under the precondition every entry of every input is a real. -/
theorem entries_real (a0 : FVec Ideal Cert.Pre_finite_inputs.S8192x512 .f32) (a1 : FVec Ideal Cert.Pre_finite_inputs.S512x512 .f32) (a2 : FVec Ideal Cert.Pre_finite_inputs.S512 .f32) (a3 : FVec Ideal Cert.Pre_finite_inputs.S512x512 .f32) (a4 : FVec Ideal Cert.Pre_finite_inputs.S512 .f32) (a5 : FVec Ideal Cert.Pre_finite_inputs.S512x512 .f32) (a6 : FVec Ideal Cert.Pre_finite_inputs.S512 .f32)
    (h : Cert.Pre_finite_inputs.fn (F := Ideal) a0 a1 a2 a3 a4 a5 a6 = fun _ => 1#1) :
    (∀ j, Cert.LibERealStats.IsReal (a0 j)) ∧ (∀ j, Cert.LibERealStats.IsReal (a1 j)) ∧ (∀ j, Cert.LibERealStats.IsReal (a2 j)) ∧ (∀ j, Cert.LibERealStats.IsReal (a3 j)) ∧ (∀ j, Cert.LibERealStats.IsReal (a4 j)) ∧ (∀ j, Cert.LibERealStats.IsReal (a5 j)) ∧ (∀ j, Cert.LibERealStats.IsReal (a6 j)) := by
  have h0 := congrFun h ValueIdx.ix0
  dsimp only [Cert.Pre_finite_inputs.fn, Cert.Pre_finite_inputs.fn_part1] at h0
  obtain ⟨h5, r6⟩ := IntOp.andi_eq_one.1 h0
  obtain ⟨h4, r5⟩ := IntOp.andi_eq_one.1 h5
  obtain ⟨h3, r4⟩ := IntOp.andi_eq_one.1 h4
  obtain ⟨h2, r3⟩ := IntOp.andi_eq_one.1 h3
  obtain ⟨h1, r2⟩ := IntOp.andi_eq_one.1 h2
  obtain ⟨r0, r1⟩ := IntOp.andi_eq_one.1 h1
  exact ⟨fun j => isReal_of_cmp a0 bcast_S_S8192x512 j (Host.reduce_andi_all _ _ _ _ _ r0 j),
    fun j => isReal_of_cmp a1 bcast_S_S512x512 j (Host.reduce_andi_all _ _ _ _ _ r1 j),
    fun j => isReal_of_cmp a2 bcast_S_S512 j (Host.reduce_andi_all _ _ _ _ _ r2 j),
    fun j => isReal_of_cmp a3 bcast_S_S512x512 j (Host.reduce_andi_all _ _ _ _ _ r3 j),
    fun j => isReal_of_cmp a4 bcast_S_S512 j (Host.reduce_andi_all _ _ _ _ _ r4 j),
    fun j => isReal_of_cmp a5 bcast_S_S512x512 j (Host.reduce_andi_all _ _ _ _ _ r5 j),
    fun j => isReal_of_cmp a6 bcast_S_S512 j (Host.reduce_andi_all _ _ _ _ _ r6 j)⟩

end Cert.Finite

end
-- ==== Proof.lean ====
/-
  The certificate: the fused attention kernel against its reference.

  Both programs compute, from x and three weight matrices with biases, the queries, keys and values q, k, v (linear
  layers), the scores s = q kᵀ, and for every row i the product of the scores with the values divided by
  max(‖s_i‖, ε).  The kernel keeps, for each tile of 512 queries, two running sums over the eight key tiles —
  Σ_j s_ij v_j and Σ_j s_ij² — and divides once at the end; the reference divides every score first and multiplies
  afterwards.  With finite inputs every quantity is a real number and a row's divisor is one positive real, so
  dividing distributes over the finite sum and the two results agree entry by entry.

  The kernel's program is two kernel regions after three reshapes.  Its run is followed region by region: the
  projection region's three outputs are the linear layers; the attention region carries its two accumulators from grid
  point to grid point in scratch buffers, and its invariant names their contents between points.  The same run, read
  at the argument arrays, is the frame claim of the kernel as printed and of its idealization; the reference's frame
  is its own run with the result dropped.  Nothing was rewritten in the idealization, so that claim is trivial.
-/
import proofs.«150631_j57380763074621_2_alg».proof.Defs
import proofs.«150631_j57380763074621_2_alg».proof.Proof.K.Run
import proofs.«150631_j57380763074621_2_alg».proof.Proof.KI.Value
import proofs.«150631_j57380763074621_2_alg».proof.Proof.KI.R1Out
import proofs.«150631_j57380763074621_2_alg».proof.Proof.RefIsSpec
import proofs.«150631_j57380763074621_2_alg».proof.Proof.Law
import proofs.«150631_j57380763074621_2_alg».proof.Proof.Finite
import proofs.«150631_j57380763074621_2_alg».proof.Proof.Gen.Kernel
import proofs.«150631_j57380763074621_2_alg».proof.Proof.Gen.KernelIdeal
import proofs.«150631_j57380763074621_2_alg».proof.Proof.Gen.ReferenceIdeal
import proofs.«150631_j57380763074621_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs to the end and leaves its arguments as launched: its run, read at the arguments. -/
theorem frame_p : Cert.frame_Kernel := fun m ρ _ =>
  (θ_run Cert.Kernel.defs _ _).mono (fun r h c =>
    ⟨(h c _ (Cert.Kernel.Hand.mem_uc Cert.Kernel.main_arg0 (by decide))).trans (Cert.Kernel.Hand.Wo_main_arg0 m c),
     (h c _ (Cert.Kernel.Hand.mem_uc Cert.Kernel.main_arg1 (by decide))).trans (Cert.Kernel.Hand.Wo_main_arg1 m c),
     (h c _ (Cert.Kernel.Hand.mem_uc Cert.Kernel.main_arg2 (by decide))).trans (Cert.Kernel.Hand.Wo_main_arg2 m c),
     (h c _ (Cert.Kernel.Hand.mem_uc Cert.Kernel.main_arg3 (by decide))).trans (Cert.Kernel.Hand.Wo_main_arg3 m c),
     (h c _ (Cert.Kernel.Hand.mem_uc Cert.Kernel.main_arg4 (by decide))).trans (Cert.Kernel.Hand.Wo_main_arg4 m c),
     (h c _ (Cert.Kernel.Hand.mem_uc Cert.Kernel.main_arg5 (by decide))).trans (Cert.Kernel.Hand.Wo_main_arg5 m c),
     (h c _ (Cert.Kernel.Hand.mem_uc Cert.Kernel.main_arg6 (by decide))).trans (Cert.Kernel.Hand.Wo_main_arg6 m c)⟩)
    (Cert.Kernel.Hand.run_all (F := Bits) m ρ)

/-- The idealized kernel likewise. -/
theorem frame_pi : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.Wo_main_arg0 m c),
     (h c _ (Cert.KernelIdeal.Hand.mem_uc Cert.KernelIdeal.main_arg1 (by decide))).trans (Cert.KernelIdeal.Hand.Wo_main_arg1 m c),
     (h c _ (Cert.KernelIdeal.Hand.mem_uc Cert.KernelIdeal.main_arg2 (by decide))).trans (Cert.KernelIdeal.Hand.Wo_main_arg2 m c),
     (h c _ (Cert.KernelIdeal.Hand.mem_uc Cert.KernelIdeal.main_arg3 (by decide))).trans (Cert.KernelIdeal.Hand.Wo_main_arg3 m c),
     (h c _ (Cert.KernelIdeal.Hand.mem_uc Cert.KernelIdeal.main_arg4 (by decide))).trans (Cert.KernelIdeal.Hand.Wo_main_arg4 m c),
     (h c _ (Cert.KernelIdeal.Hand.mem_uc Cert.KernelIdeal.main_arg5 (by decide))).trans (Cert.KernelIdeal.Hand.Wo_main_arg5 m c),
     (h c _ (Cert.KernelIdeal.Hand.mem_uc Cert.KernelIdeal.main_arg6 (by decide))).trans (Cert.KernelIdeal.Hand.Wo_main_arg6 m c)⟩)
    (Cert.KernelIdeal.Hand.run_all (F := Ideal) m ρ)

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both programs end with the same result array: the kernel's is the
    "multiply first, divide once" form of the arguments, the reference's the "divide first" form, and with finite
    arguments the two are one function. -/
theorem algebraic : Cert.algebraic_KernelIdeal_ReferenceIdeal := by
  intro m ρ m' ρ' hpre hagree
  refine ⟨fun c => Cert.KernelIdeal.Hand.Wo (F := Ideal) m c (Proc.devRef .tc Cert.KernelIdeal.main_v4), ?_, ?_⟩
  · exact (θ_run Cert.KernelIdeal.defs _ _).mono (fun r h c =>
      ⟨h c _ (Cert.KernelIdeal.Hand.mem_uc Cert.KernelIdeal.main_v4 (by decide)),
       (h c _ (Cert.KernelIdeal.Hand.mem_uc Cert.KernelIdeal.main_arg0 (by decide))).trans (Cert.KernelIdeal.Hand.Wo_main_arg0 m c),
       (h c _ (Cert.KernelIdeal.Hand.mem_uc Cert.KernelIdeal.main_arg1 (by decide))).trans (Cert.KernelIdeal.Hand.Wo_main_arg1 m c),
       (h c _ (Cert.KernelIdeal.Hand.mem_uc Cert.KernelIdeal.main_arg2 (by decide))).trans (Cert.KernelIdeal.Hand.Wo_main_arg2 m c),
       (h c _ (Cert.KernelIdeal.Hand.mem_uc Cert.KernelIdeal.main_arg3 (by decide))).trans (Cert.KernelIdeal.Hand.Wo_main_arg3 m c),
       (h c _ (Cert.KernelIdeal.Hand.mem_uc Cert.KernelIdeal.main_arg4 (by decide))).trans (Cert.KernelIdeal.Hand.Wo_main_arg4 m c),
       (h c _ (Cert.KernelIdeal.Hand.mem_uc Cert.KernelIdeal.main_arg5 (by decide))).trans (Cert.KernelIdeal.Hand.Wo_main_arg5 m c),
       (h c _ (Cert.KernelIdeal.Hand.mem_uc Cert.KernelIdeal.main_arg6 (by decide))).trans (Cert.KernelIdeal.Hand.Wo_main_arg6 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := Cert.Finite.entries_real _ _ _ _ _ _ _ (hpre c)
    rw [Cert.ReferenceIdeal.Read.val_main_v25_eq, (hagree c).1, (hagree c).2.1, (hagree c).2.2.1, (hagree c).2.2.2.1,
      (hagree c).2.2.2.2.1, (hagree c).2.2.2.2.2.1, (hagree c).2.2.2.2.2.2]
    funext j
    obtain ⟨i, e, rfl⟩ : ∃ (i : Fin 8192) (e : Fin 512), j = ix2 i e := ⟨j 0, j 1, eq_ix2 j⟩
    refine (Cert.ReferenceIdeal.RefValue.ref_eq _ _ _ _ _ _ _ i e).trans ?_
    refine Eq.trans ?_ (Cert.KernelIdeal.Hand.kernel_value m Cert.KernelIdeal.Hand.out_apply c i e).symm
    exact (congrFun (congrFun (Cert.Attn.attnSum_eq_attnNorm _ _ _ _ _ _ _ (fun n d => h0 _) (fun n d => h1 _) (fun n => h2 _)
      (fun n d => h3 _) (fun n => h4 _) (fun n d => h5 _) (fun n => h6 _)) i) e).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
